-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2x2048x1024 .f32) (main_arg1 : FVec F S2x2048x1024 .f32) (main_arg2 : FVec F S2x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S1x1024 : Shape := ⟨2, ![1, 1024]⟩
abbrev S512x1024 : Shape := ⟨2, ![512, 1024]⟩
abbrev S1x256x1024 : Shape := ⟨3, ![1, 256, 1024]⟩
abbrev S1x2048x1024 : Shape := ⟨3, ![1, 2048, 1024]⟩
abbrev S256x1024 : Shape := ⟨2, ![256, 1024]⟩
abbrev S1x256x128 : Shape := ⟨3, ![1, 256, 128]⟩
abbrev S256x128 : Shape := ⟨2, ![256, 128]⟩
abbrev S1x2048x128 : Shape := ⟨3, ![1, 2048, 128]⟩
abbrev S2048x128 : Shape := ⟨2, ![2048, 128]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 29
  | .vmem => 29
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .bf16⟩
  | .hbm, ⟨20, _⟩ => ⟨S2x2048x1024, .bf16⟩
  | .hbm, ⟨21, _⟩ => ⟨S1x1024, .f32⟩
  | .hbm, ⟨22, _⟩ => ⟨S4096x1024, .bf16⟩
  | .hbm, ⟨23, _⟩ => ⟨S2x2048x1024, .bf16⟩
  | .hbm, ⟨24, _⟩ => ⟨S1x1024, .f32⟩
  | .hbm, ⟨25, _⟩ => ⟨S4096x1024, .bf16⟩
  | .hbm, ⟨26, _⟩ => ⟨S2x2048x1024, .bf16⟩
  | .hbm, ⟨27, _⟩ => ⟨S1x1024, .f32⟩
  | .hbm, ⟨28, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1024x1024, .bf16⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x2048x1024, .bf16⟩
  | .local _ .vmem, ⟨21, _⟩ => ⟨S1x2048x1024, .bf16⟩
  | .local _ .vmem, ⟨22, _⟩ => ⟨S1x2048x1024, .bf16⟩
  | .local _ .vmem, ⟨23, _⟩ => ⟨S1x2048x1024, .bf16⟩
  | .local _ .vmem, ⟨24, _⟩ => ⟨S1024x1024, .bf16⟩
  | .local _ .vmem, ⟨25, _⟩ => ⟨S1x1024, .f32⟩
  | .local _ .vmem, ⟨26, _⟩ => ⟨S1x256x1024, .f32⟩
  | .local _ .vmem, ⟨27, _⟩ => ⟨S1x256x1024, .f32⟩
  | .local _ .vmem, ⟨28, _⟩ => ⟨S256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc3_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem4_0 : DmaSem sig := 25
abbrev cc3_sem5_0 : DmaSem sig := 26
abbrev cc3_sem5_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![2, 8], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x256x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x2048x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 1 → Memref sig .tc .vmem S1024x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1x256x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

class Facts₀ : Prop where
  bitsLt_bf16_f32 : FTy.bits .bf16 < FTy.bits .f32
  shapeCasts_S2x2048x1024_S4096x1024 : S2x2048x1024.ShapeCasts S4096x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S4096x1024_S2x2048x1024 : S4096x1024.ShapeCasts S2x2048x1024
  inb_S1x256x1024_S1x256x128_0_0_0 : ∀ a, (![0, 0, 0] : Fin 3 → Nat) a + S1x256x128.size a ≤ S1x256x1024.size a
  h_S1x256x128 : 0 < S1x256x128.numel
  shapeCasts_S1x256x128_S256x128 : S1x256x128.ShapeCasts S256x128
  inb_S1x2048x1024_S1x2048x128_0_0_0 : ∀ a, (![0, 0, 0] : Fin 3 → Nat) a + S1x2048x128.size a ≤ S1x2048x1024.size a
  h_S1x2048x128 : 0 < S1x2048x128.numel
  shapeCasts_S1x2048x128_S2048x128 : S1x2048x128.ShapeCasts S2048x128
  slices_S256x128_o0_0_S256x64 : S256x128.Slices ![0, 0] S256x64
  slices_S2048x128_o0_0_S2048x64 : S2048x128.Slices ![0, 0] S2048x64
  reduces_S256x2048_S256 : S256x2048.Reduces [1] S256
  shapeCasts_S256_S256x1 : S256.ShapeCasts S256x1
  broadcasts_S256x1_S256x2048 : S256x1.Broadcasts S256x2048
  broadcasts_S256x1_S256x64 : S256x1.Broadcasts S256x64
  slices_S256x128_o0_64_S256x64 : S256x128.Slices ![0, 64] S256x64
  slices_S2048x128_o0_64_S2048x64 : S2048x128.Slices ![0, 64] S2048x64
  concatenates_S256x64_S256x64_S256x128_d1 : Shape.Concatenates [S256x64, S256x64] S256x128 1
  inb_S256x1024_S256x128_0_0 : ∀ a, (![0, 0] : Fin 2 → Nat) a + S256x128.size a ≤ S256x1024.size a
  h_S256x128 : 0 < S256x128.numel
  shapeCasts_S256x128_S256x128 : S256x128.ShapeCasts S256x128
  inb_S1x256x1024_S1x256x128_0_0_128 : ∀ a, (![0, 0, 128] : Fin 3 → Nat) a + S1x256x128.size a ≤ S1x256x1024.size a
  inb_S1x2048x1024_S1x2048x128_0_0_128 : ∀ a, (![0, 0, 128] : Fin 3 → Nat) a + S1x2048x128.size a ≤ S1x2048x1024.size a
  inb_S256x1024_S256x128_0_128 : ∀ a, (![0, 128] : Fin 2 → Nat) a + S256x128.size a ≤ S256x1024.size a
  inb_S1x256x1024_S1x256x128_0_0_256 : ∀ a, (![0, 0, 256] : Fin 3 → Nat) a + S1x256x128.size a ≤ S1x256x1024.size a
  inb_S1x2048x1024_S1x2048x128_0_0_256 : ∀ a, (![0, 0, 256] : Fin 3 → Nat) a + S1x2048x128.size a ≤ S1x2048x1024.size a
  inb_S256x1024_S256x128_0_256 : ∀ a, (![0, 256] : Fin 2 → Nat) a + S256x128.size a ≤ S256x1024.size a
  inb_S1x256x1024_S1x256x128_0_0_384 : ∀ a, (![0, 0, 384] : Fin 3 → Nat) a + S1x256x128.size a ≤ S1x256x1024.size a
  inb_S1x2048x1024_S1x2048x128_0_0_384 : ∀ a, (![0, 0, 384] : Fin 3 → Nat) a + S1x2048x128.size a ≤ S1x2048x1024.size a
  inb_S256x1024_S256x128_0_384 : ∀ a, (![0, 384] : Fin 2 → Nat) a + S256x128.size a ≤ S256x1024.size a
  inb_S1x256x1024_S1x256x128_0_0_512 : ∀ a, (![0, 0, 512] : Fin 3 → Nat) a + S1x256x128.size a ≤ S1x256x1024.size a
  inb_S1x2048x1024_S1x2048x128_0_0_512 : ∀ a, (![0, 0, 512] : Fin 3 → Nat) a + S1x2048x128.size a ≤ S1x2048x1024.size a
  inb_S256x1024_S256x128_0_512 : ∀ a, (![0, 512] : Fin 2 → Nat) a + S256x128.size a ≤ S256x1024.size a
  inb_S1x256x1024_S1x256x128_0_0_640 : ∀ a, (![0, 0, 640] : Fin 3 → Nat) a + S1x256x128.size a ≤ S1x256x1024.size a
  inb_S1x2048x1024_S1x2048x128_0_0_640 : ∀ a, (![0, 0, 640] : Fin 3 → Nat) a + S1x2048x128.size a ≤ S1x2048x1024.size a
  inb_S256x1024_S256x128_0_640 : ∀ a, (![0, 640] : Fin 2 → Nat) a + S256x128.size a ≤ S256x1024.size a
  inb_S1x256x1024_S1x256x128_0_0_768 : ∀ a, (![0, 0, 768] : Fin 3 → Nat) a + S1x256x128.size a ≤ S1x256x1024.size a
  inb_S1x2048x1024_S1x2048x128_0_0_768 : ∀ a, (![0, 0, 768] : Fin 3 → Nat) a + S1x2048x128.size a ≤ S1x2048x1024.size a
  inb_S256x1024_S256x128_0_768 : ∀ a, (![0, 768] : Fin 2 → Nat) a + S256x128.size a ≤ S256x1024.size a
  inb_S1x256x1024_S1x256x128_0_0_896 : ∀ a, (![0, 0, 896] : Fin 3 → Nat) a + S1x256x128.size a ≤ S1x256x1024.size a
  inb_S1x2048x1024_S1x2048x128_0_0_896 : ∀ a, (![0, 0, 896] : Fin 3 → Nat) a + S1x2048x128.size a ≤ S1x2048x1024.size a
  inb_S256x1024_S256x128_0_896 : ∀ a, (![0, 896] : Fin 2 → Nat) a + S256x128.size a ≤ S256x1024.size a
  inb_S256x1024_S256x1024_0_0 : ∀ a, (![0, 0] : Fin 2 → Nat) a + S256x1024.size a ≤ S256x1024.size a
  h_S256x1024 : 0 < S256x1024.numel
  broadcasts_S1x1024_S256x1024 : S1x1024.Broadcasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  dot_S512x1024_S1024x1024_S512x1024_1_1_0_0_n_n_wf : DotDims.WF S512x1024 S1024x1024 S512x1024 [1] [1] [0] [0] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x1024.size a
  hwx1_3 : ∀ i : grid1.Coords, EltTy.bits .bf16 = 32 ∨ (Rect.block (s := S4096x1024) S512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .f32 = 32 ∨ (Rect.block (s := S4096x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .bf16 = 32 ∨ (Rect.block (s := S4096x1024) S512x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x256x1024.size a ≤ S2x2048x1024.size a
  hwx3_0 : ∀ i : grid3.Coords, EltTy.bits .bf16 = 32 ∨ (Rect.block (s := S2x2048x1024) S1x256x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x1024.size a ≤ S2x2048x1024.size a
  hwx3_1 : ∀ i : grid3.Coords, EltTy.bits .bf16 = 32 ∨ (Rect.block (s := S2x2048x1024) S1x2048x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x1024.size a ≤ S2x2048x1024.size a
  hwx3_2 : ∀ i : grid3.Coords, EltTy.bits .bf16 = 32 ∨ (Rect.block (s := S2x2048x1024) S1x2048x1024.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S1024x1024.size a
  hwx3_3 : ∀ i : grid3.Coords, EltTy.bits .bf16 = 32 ∨ (Rect.block (s := S1024x1024) S1024x1024.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x256x1024.size a ≤ S2x2048x1024.size a
  hwx3_5 : ∀ i : grid3.Coords, EltTy.bits .f32 = 32 ∨ (Rect.block (s := S2x2048x1024) S1x256x1024.size (cc3_transform_5 i) (hinb3_5 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_v4) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v6) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v9) S1x256x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S1x2048x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S1x2048x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v3) S1024x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v16) S1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v17) S1x256x1024.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S2x2048x1024, .f32⟩
  | .hbm, ⟨12, _⟩ => ⟨S1x1x1024, .f32⟩
  | .hbm, ⟨13, _⟩ => ⟨S2x2048x1024, .f32⟩
  | .hbm, ⟨14, _⟩ => ⟨S2x2048x1024, .f32⟩
  | .hbm, ⟨15, _⟩ => ⟨S2x2048x16x64, .f32⟩
  | .hbm, ⟨16, _⟩ => ⟨S2x16x2048x64, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S2x2048x16x64, .f32⟩
  | .hbm, ⟨22, _⟩ => ⟨S2x16x2048x64, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S2x2048x16x64, .f32⟩
  | .hbm, ⟨28, _⟩ => ⟨S2x16x2048x64, .f32⟩
  | .hbm, ⟨29, _⟩ => ⟨S2x16x2048x2048, .f32⟩
  | .hbm, ⟨30, _⟩ => ⟨S_, .f32⟩
  | .hbm, ⟨31, _⟩ => ⟨S_, .f32⟩
  | .hbm, ⟨32, _⟩ => ⟨S2x16x2048x2048, .f32⟩
  | .hbm, ⟨33, _⟩ => ⟨S2x16x2048x2048, .f32⟩
  | .hbm, ⟨34, _⟩ => ⟨S_, .f32⟩
  | .hbm, ⟨35, _⟩ => ⟨S2x16x2048, .f32⟩
  | .hbm, ⟨36, _⟩ => ⟨S_, .f32⟩
  | .hbm, ⟨37, _⟩ => ⟨S2x16x2048, .f32⟩
  | .hbm, ⟨38, _⟩ => ⟨S2x16x2048, .f32⟩
  | .hbm, ⟨39, _⟩ => ⟨S2x16x2048x1, .f32⟩
  | .hbm, ⟨40, _⟩ => ⟨S2x16x2048x2048, .f32⟩
  | .hbm, ⟨41, _⟩ => ⟨S2x16x2048x2048, .f32⟩
  | .hbm, ⟨42, _⟩ => ⟨S2x16x2048x2048, .f32⟩
  | .hbm, ⟨43, _⟩ => ⟨S_, .f32⟩
  | .hbm, ⟨44, _⟩ => ⟨S2x16x2048, .f32⟩
  | .hbm, ⟨45, _⟩ => ⟨S2x16x2048x1, .f32⟩
  | .hbm, ⟨46, _⟩ => ⟨S2x16x2048x2048, .f32⟩
  | .hbm, ⟨47, _⟩ => ⟨S2x16x2048x2048, .f32⟩
  | .hbm, ⟨48, _⟩ => ⟨S2x16x2048x64, .f32⟩
  | .hbm, ⟨49, _⟩ => ⟨S2x2048x16x64, .f32⟩
  | .hbm, ⟨50, _⟩ => ⟨S2x2048x1024, .f32⟩
  | .hbm, ⟨51, _⟩ => ⟨S2x2048x1024, .f32⟩
  | .hbm, ⟨52, _⟩ => ⟨S1x1x1024, .f32⟩
  | .hbm, ⟨53, _⟩ => ⟨S2x2048x1024, .f32⟩
  | .hbm, ⟨54, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KernelRun.lean ====
/-
  The idealized kernel's run with its result array named.  Every weakly fair execution of @main terminates without a
  fault, the eleven argument arrays end as launched, and the result buffer ends at the contents the last of the four
  pipelined regions leaves in its output array — the last boundary of the fold of buffer contents through @main's
  segments (host stretch, region, host stretch, region, …).  The launch is the same as for the claim that the arguments
  end unchanged; only the reading of the final thread state differs, by one more buffer.
-/
import proofs.«103592_j11201274708414_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with the result buffer read at the last boundary's contents. -/
theorem run_named : θ_run defs (onTc (τ := τ) (main (F := F))) ⟨m, fun _ => 0, ρ⟩ (fun r => ∀ c : Dev nD,
      r.2.mem ((c.tc : Thread nD τ).loc main_v17) = W8 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v17 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.Named

end
-- ==== Proof.Plumbing.lean ====
/-
  The host-side plumbing of the idealized kernel: what each region finds in its operand arrays, and where the
  result lies, in terms of the launch arrays.

  The program is four regions with a stretch of host operations before each. The host operations only convert the
  weight matrices from single precision to bfloat16 (on the extended reals: the same numbers), reshape the three
  [2,2048,1024] inputs to [4096,1024] and the bias vectors [1024] to [1,1024] (the same elements in row-major
  order), and reshape each of the first three regions' [4096,1024] outputs back to [2,2048,1024] for the fourth.
  A buffer's contents at a boundary are walked back through the stretches and regions before it: a stretch that
  does not write the buffer and a region that does not own it leave it as it was; the stretch that writes it gives
  it its operation's function of the operand's contents; a region's output array ends at what the region's
  write-backs leave.
-/
import proofs.«103592_j11201274708414_2_alg».proof.Proof.Gen.KernelIdeal.Frame
import Idealize.ShloMosaic.Lib.StableHlo.Run

set_option maxRecDepth 16384

noncomputable section

namespace Cert.KernelIdeal.Plumb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ) (ρ : Dev nD → PrngReg)

/-- One stretch of host operations read at one buffer: each operation's result is its function's value at its own
    result buffer and what was there at any other buffer. Closes the goal when no operation of the stretch writes
    the buffer, or when the one that does is a conversion; leaves a reshape's row-major re-reading otherwise. -/
local macro "host_at " ops:ident b:ident : tactic =>
  `(tactic| (show StableHlo.after $ops _ (Proc.devRef .tc $b) = _; after_results))

/-! ## Which buffer each region's windows lie over

Regions 0, 1, 2: windows 0, 1, 2 read the activations, the weights and the bias; window 3 writes the output.
Region 3: windows 0, 1, 2 read the first three regions' reshaped outputs, windows 3, 4 the fourth weight matrix and
bias; window 5 writes the result. -/
theorem arrRef_spec0_0 : Pipeline.arrRef spec0 0 = main_v4 := by decide
theorem arrRef_spec0_1 : Pipeline.arrRef spec0 1 = main_v0 := by decide
theorem arrRef_spec0_2 : Pipeline.arrRef spec0 2 = main_v7 := by decide
theorem arrRef_spec0_3 : Pipeline.arrRef spec0 3 = main_v8 := by decide
theorem arrRef_spec1_0 : Pipeline.arrRef spec1 0 = main_v5 := by decide
theorem arrRef_spec1_1 : Pipeline.arrRef spec1 1 = main_v1 := by decide
theorem arrRef_spec1_2 : Pipeline.arrRef spec1 2 = main_v10 := by decide
theorem arrRef_spec1_3 : Pipeline.arrRef spec1 3 = main_v11 := by decide
theorem arrRef_spec2_0 : Pipeline.arrRef spec2 0 = main_v6 := by decide
theorem arrRef_spec2_1 : Pipeline.arrRef spec2 1 = main_v2 := by decide
theorem arrRef_spec2_2 : Pipeline.arrRef spec2 2 = main_v13 := by decide
theorem arrRef_spec2_3 : Pipeline.arrRef spec2 3 = main_v14 := by decide
theorem arrRef_spec3_0 : Pipeline.arrRef spec3 0 = main_v9 := by decide
theorem arrRef_spec3_1 : Pipeline.arrRef spec3 1 = main_v12 := by decide
theorem arrRef_spec3_2 : Pipeline.arrRef spec3 2 = main_v15 := by decide
theorem arrRef_spec3_3 : Pipeline.arrRef spec3 3 = main_v3 := by decide
theorem arrRef_spec3_4 : Pipeline.arrRef spec3 4 = main_v16 := by decide
theorem arrRef_spec3_5 : Pipeline.arrRef spec3 5 = main_v17 := by decide

/-! ## Region 0's entry: one stretch of host operations after the launch -/

/-- Region 0's activations: the first input, [2,2048,1024] read as [4096,1024]. -/
theorem V1_main_v4 (c : Dev nD) :
    V1 m ρ c main_v4 = shapeCast S4096x1024 (m ((c : Thread nD τ).loc main_arg0)) shapeCasts_S2x2048x1024_S4096x1024 := by
  show StableHlo.after hostOps0 _ (Proc.devRef .tc main_v4) = _
  after_results
  rfl

/-- Region 0's weights: the first weight matrix, converted to bfloat16. -/
theorem V1_main_v0 (c : Dev nD) :
    V1 m ρ c main_v0 = truncf .bf16 (m ((c : Thread nD τ).loc main_arg3)) bitsLt_bf16_f32 := by
  show StableHlo.after hostOps0 _ (Proc.devRef .tc main_v0) = _
  after_results

/-- Region 0's bias: the first bias vector, [1024] read as [1,1024]. -/
theorem V1_main_v7 (c : Dev nD) :
    V1 m ρ c main_v7 = shapeCast S1x1024 (m ((c : Thread nD τ).loc main_arg4)) shapeCasts_S1024_S1x1024 := by
  show StableHlo.after hostOps0 _ (Proc.devRef .tc main_v7) = _
  after_results
  rfl

/-! ## The bias vectors keep their launch contents up to the stretch that reshapes them -/

/-- The second bias vector at region 0's exit: as launched. -/
theorem W2_main_arg6 (c : Dev nD) : W2 m ρ c (Proc.devRef .tc main_arg6) = m ((c : Thread nD τ).loc main_arg6) := by
  have h1 : W1 m ρ c (Proc.devRef .tc main_arg6) = W0 m ρ c (Proc.devRef .tc main_arg6) := by host_at hostOps0 main_arg6
  calc W2 m ρ c (Proc.devRef .tc main_arg6) = W0 m ρ c (Proc.devRef .tc main_arg6) := by rw [W2_of_ne m ρ c main_arg6 (by decide), h1]
    _ = m ((c : Thread nD τ).loc main_arg6) := rfl

/-- The third bias vector at region 1's exit: as launched. -/
theorem W4_main_arg8 (c : Dev nD) : W4 m ρ c (Proc.devRef .tc main_arg8) = m ((c : Thread nD τ).loc main_arg8) := by
  have h3 : W3 m ρ c (Proc.devRef .tc main_arg8) = W2 m ρ c (Proc.devRef .tc main_arg8) := by host_at hostOps1 main_arg8
  have h1 : W1 m ρ c (Proc.devRef .tc main_arg8) = W0 m ρ c (Proc.devRef .tc main_arg8) := by host_at hostOps0 main_arg8
  calc W4 m ρ c (Proc.devRef .tc main_arg8) = W0 m ρ c (Proc.devRef .tc main_arg8) := by rw [W4_of_ne m ρ c main_arg8 (by decide), h3, W2_of_ne m ρ c main_arg8 (by decide), h1]
    _ = m ((c : Thread nD τ).loc main_arg8) := rfl

/-- The fourth bias vector at region 2's exit: as launched. -/
theorem W6_main_arg10 (c : Dev nD) : W6 m ρ c (Proc.devRef .tc main_arg10) = m ((c : Thread nD τ).loc main_arg10) := by
  have h5 : W5 m ρ c (Proc.devRef .tc main_arg10) = W4 m ρ c (Proc.devRef .tc main_arg10) := by host_at hostOps2 main_arg10
  have h3 : W3 m ρ c (Proc.devRef .tc main_arg10) = W2 m ρ c (Proc.devRef .tc main_arg10) := by host_at hostOps1 main_arg10
  have h1 : W1 m ρ c (Proc.devRef .tc main_arg10) = W0 m ρ c (Proc.devRef .tc main_arg10) := by host_at hostOps0 main_arg10
  calc W6 m ρ c (Proc.devRef .tc main_arg10) = W0 m ρ c (Proc.devRef .tc main_arg10) := by rw [W6_of_ne m ρ c main_arg10 (by decide), h5, W4_of_ne m ρ c main_arg10 (by decide), h3, W2_of_ne m ρ c main_arg10 (by decide), h1]
    _ = m ((c : Thread nD τ).loc main_arg10) := rfl

/-! ## Region 1's entry -/

/-- Region 1's activations: the second input, [2,2048,1024] read as [4096,1024]; reshaped before region 0 and untouched since. -/
theorem V3_main_v5 (c : Dev nD) :
    V3 m ρ c main_v5 = shapeCast S4096x1024 (m ((c : Thread nD τ).loc main_arg1)) shapeCasts_S2x2048x1024_S4096x1024 := by
  have h3 : W3 m ρ c (Proc.devRef .tc main_v5) = W2 m ρ c (Proc.devRef .tc main_v5) := by host_at hostOps1 main_v5
  have h1 : W1 m ρ c (Proc.devRef .tc main_v5) = shapeCast S4096x1024 (m ((c : Thread nD τ).loc main_arg1)) shapeCasts_S2x2048x1024_S4096x1024 := by
    host_at hostOps0 main_v5
    rfl
  show W3 m ρ c (Proc.devRef .tc main_v5) = _
  rw [h3, W2_of_ne m ρ c main_v5 (by decide), h1]

/-- Region 1's weights: the second weight matrix, converted to bfloat16. -/
theorem V3_main_v1 (c : Dev nD) :
    V3 m ρ c main_v1 = truncf .bf16 (m ((c : Thread nD τ).loc main_arg5)) bitsLt_bf16_f32 := by
  have h3 : W3 m ρ c (Proc.devRef .tc main_v1) = W2 m ρ c (Proc.devRef .tc main_v1) := by host_at hostOps1 main_v1
  have h1 : W1 m ρ c (Proc.devRef .tc main_v1) = truncf .bf16 (m ((c : Thread nD τ).loc main_arg5)) bitsLt_bf16_f32 := by
    host_at hostOps0 main_v1
  show W3 m ρ c (Proc.devRef .tc main_v1) = _
  rw [h3, W2_of_ne m ρ c main_v1 (by decide), h1]

/-- Region 1's bias: the second bias vector, [1024] read as [1,1024]. -/
theorem V3_main_v10 (c : Dev nD) :
    V3 m ρ c main_v10 = shapeCast S1x1024 (m ((c : Thread nD τ).loc main_arg6)) shapeCasts_S1024_S1x1024 := by
  have h : W3 m ρ c (Proc.devRef .tc main_v10) = shapeCast S1x1024 (W2 m ρ c (Proc.devRef .tc main_arg6)) shapeCasts_S1024_S1x1024 := by
    host_at hostOps1 main_v10
    rfl
  show W3 m ρ c (Proc.devRef .tc main_v10) = _
  rw [h, W2_main_arg6 m ρ c]

/-! ## Region 2's entry -/

/-- Region 2's activations: the third input, [2,2048,1024] read as [4096,1024]; reshaped before region 0 and untouched since. -/
theorem V5_main_v6 (c : Dev nD) :
    V5 m ρ c main_v6 = shapeCast S4096x1024 (m ((c : Thread nD τ).loc main_arg2)) shapeCasts_S2x2048x1024_S4096x1024 := by
  have h5 : W5 m ρ c (Proc.devRef .tc main_v6) = W4 m ρ c (Proc.devRef .tc main_v6) := by host_at hostOps2 main_v6
  have h3 : W3 m ρ c (Proc.devRef .tc main_v6) = W2 m ρ c (Proc.devRef .tc main_v6) := by host_at hostOps1 main_v6
  have h1 : W1 m ρ c (Proc.devRef .tc main_v6) = shapeCast S4096x1024 (m ((c : Thread nD τ).loc main_arg2)) shapeCasts_S2x2048x1024_S4096x1024 := by
    host_at hostOps0 main_v6
    rfl
  show W5 m ρ c (Proc.devRef .tc main_v6) = _
  rw [h5, W4_of_ne m ρ c main_v6 (by decide), h3, W2_of_ne m ρ c main_v6 (by decide), h1]

/-- Region 2's weights: the third weight matrix, converted to bfloat16. -/
theorem V5_main_v2 (c : Dev nD) :
    V5 m ρ c main_v2 = truncf .bf16 (m ((c : Thread nD τ).loc main_arg7)) bitsLt_bf16_f32 := by
  have h5 : W5 m ρ c (Proc.devRef .tc main_v2) = W4 m ρ c (Proc.devRef .tc main_v2) := by host_at hostOps2 main_v2
  have h3 : W3 m ρ c (Proc.devRef .tc main_v2) = W2 m ρ c (Proc.devRef .tc main_v2) := by host_at hostOps1 main_v2
  have h1 : W1 m ρ c (Proc.devRef .tc main_v2) = truncf .bf16 (m ((c : Thread nD τ).loc main_arg7)) bitsLt_bf16_f32 := by
    host_at hostOps0 main_v2
  show W5 m ρ c (Proc.devRef .tc main_v2) = _
  rw [h5, W4_of_ne m ρ c main_v2 (by decide), h3, W2_of_ne m ρ c main_v2 (by decide), h1]

/-- Region 2's bias: the third bias vector, [1024] read as [1,1024]. -/
theorem V5_main_v13 (c : Dev nD) :
    V5 m ρ c main_v13 = shapeCast S1x1024 (m ((c : Thread nD τ).loc main_arg8)) shapeCasts_S1024_S1x1024 := by
  have h : W5 m ρ c (Proc.devRef .tc main_v13) = shapeCast S1x1024 (W4 m ρ c (Proc.devRef .tc main_arg8)) shapeCasts_S1024_S1x1024 := by
    host_at hostOps2 main_v13
    rfl
  show W5 m ρ c (Proc.devRef .tc main_v13) = _
  rw [h, W4_main_arg8 m ρ c]

/-! ## Region 3's entry: the first three regions' outputs, reshaped, and the last weight matrix and bias -/

/-- Region 0's output array one reshape later, at region 1's entry: [4096,1024] read as [2,2048,1024]. -/
theorem W3_main_v9 (c : Dev nD) :
    W3 m ρ c (Proc.devRef .tc main_v9)
      = shapeCast S2x2048x1024 ((dat0 (V1 m ρ) c).arrAt 3 cfg0.N) shapeCasts_S4096x1024_S2x2048x1024 := by
  have h : W3 m ρ c (Proc.devRef .tc main_v9)
      = shapeCast S2x2048x1024 (W2 m ρ c (Proc.devRef .tc main_v8)) shapeCasts_S4096x1024_S2x2048x1024 := by
    host_at hostOps1 main_v9
    rfl
  rw [h]
  exact congrArg (fun x => shapeCast S2x2048x1024 x shapeCasts_S4096x1024_S2x2048x1024) (W2_arr m ρ c 3)

/-- Region 3's first operand: region 0's output, [4096,1024] read as [2,2048,1024]; nothing between region 1's entry and region 3's entry writes that buffer. -/
theorem V7_main_v9 (c : Dev nD) :
    V7 m ρ c main_v9
      = shapeCast S2x2048x1024 ((dat0 (V1 m ρ) c).arrAt 3 cfg0.N) shapeCasts_S4096x1024_S2x2048x1024 := by
  have h7 : W7 m ρ c (Proc.devRef .tc main_v9) = W6 m ρ c (Proc.devRef .tc main_v9) := by host_at hostOps3 main_v9
  have h5 : W5 m ρ c (Proc.devRef .tc main_v9) = W4 m ρ c (Proc.devRef .tc main_v9) := by host_at hostOps2 main_v9
  show W7 m ρ c (Proc.devRef .tc main_v9) = _
  rw [h7, W6_of_ne m ρ c main_v9 (by decide), h5, W4_of_ne m ρ c main_v9 (by decide)]
  exact W3_main_v9 m ρ c

/-- Region 1's output array one reshape later, at region 2's entry: [4096,1024] read as [2,2048,1024]. -/
theorem W5_main_v12 (c : Dev nD) :
    W5 m ρ c (Proc.devRef .tc main_v12)
      = shapeCast S2x2048x1024 ((dat1 (V3 m ρ) c).arrAt 3 cfg1.N) shapeCasts_S4096x1024_S2x2048x1024 := by
  have h : W5 m ρ c (Proc.devRef .tc main_v12)
      = shapeCast S2x2048x1024 (W4 m ρ c (Proc.devRef .tc main_v11)) shapeCasts_S4096x1024_S2x2048x1024 := by
    host_at hostOps2 main_v12
    rfl
  rw [h]
  exact congrArg (fun x => shapeCast S2x2048x1024 x shapeCasts_S4096x1024_S2x2048x1024) (W4_arr m ρ c 3)

/-- Region 3's second operand: region 1's output, [4096,1024] read as [2,2048,1024]; nothing between region 2's entry and region 3's entry writes that buffer. -/
theorem V7_main_v12 (c : Dev nD) :
    V7 m ρ c main_v12
      = shapeCast S2x2048x1024 ((dat1 (V3 m ρ) c).arrAt 3 cfg1.N) shapeCasts_S4096x1024_S2x2048x1024 := by
  have h7 : W7 m ρ c (Proc.devRef .tc main_v12) = W6 m ρ c (Proc.devRef .tc main_v12) := by host_at hostOps3 main_v12
  show W7 m ρ c (Proc.devRef .tc main_v12) = _
  rw [h7, W6_of_ne m ρ c main_v12 (by decide)]
  exact W5_main_v12 m ρ c

/-- Region 2's output array one reshape later, at region 3's entry: [4096,1024] read as [2,2048,1024]. -/
theorem W7_main_v15 (c : Dev nD) :
    W7 m ρ c (Proc.devRef .tc main_v15)
      = shapeCast S2x2048x1024 ((dat2 (V5 m ρ) c).arrAt 3 cfg2.N) shapeCasts_S4096x1024_S2x2048x1024 := by
  have h : W7 m ρ c (Proc.devRef .tc main_v15)
      = shapeCast S2x2048x1024 (W6 m ρ c (Proc.devRef .tc main_v14)) shapeCasts_S4096x1024_S2x2048x1024 := by
    host_at hostOps3 main_v15
    rfl
  rw [h]
  exact congrArg (fun x => shapeCast S2x2048x1024 x shapeCasts_S4096x1024_S2x2048x1024) (W6_arr m ρ c 3)

/-- Region 3's third operand: region 2's output, [4096,1024] read as [2,2048,1024]. -/
theorem V7_main_v15 (c : Dev nD) :
    V7 m ρ c main_v15
      = shapeCast S2x2048x1024 ((dat2 (V5 m ρ) c).arrAt 3 cfg2.N) shapeCasts_S4096x1024_S2x2048x1024 :=
  W7_main_v15 m ρ c

/-- Region 3's weights: the fourth weight matrix, converted to bfloat16 before region 0 and untouched since. -/
theorem V7_main_v3 (c : Dev nD) :
    V7 m ρ c main_v3 = truncf .bf16 (m ((c : Thread nD τ).loc main_arg9)) bitsLt_bf16_f32 := by
  have h7 : W7 m ρ c (Proc.devRef .tc main_v3) = W6 m ρ c (Proc.devRef .tc main_v3) := by host_at hostOps3 main_v3
  have h5 : W5 m ρ c (Proc.devRef .tc main_v3) = W4 m ρ c (Proc.devRef .tc main_v3) := by host_at hostOps2 main_v3
  have h3 : W3 m ρ c (Proc.devRef .tc main_v3) = W2 m ρ c (Proc.devRef .tc main_v3) := by host_at hostOps1 main_v3
  have h1 : W1 m ρ c (Proc.devRef .tc main_v3) = truncf .bf16 (m ((c : Thread nD τ).loc main_arg9)) bitsLt_bf16_f32 := by
    host_at hostOps0 main_v3
  show W7 m ρ c (Proc.devRef .tc main_v3) = _
  rw [h7, W6_of_ne m ρ c main_v3 (by decide), h5, W4_of_ne m ρ c main_v3 (by decide), h3, W2_of_ne m ρ c main_v3 (by decide), h1]

/-- Region 3's bias: the fourth bias vector, [1024] read as [1,1024]. -/
theorem V7_main_v16 (c : Dev nD) :
    V7 m ρ c main_v16 = shapeCast S1x1024 (m ((c : Thread nD τ).loc main_arg10)) shapeCasts_S1024_S1x1024 := by
  have h : W7 m ρ c (Proc.devRef .tc main_v16) = shapeCast S1x1024 (W6 m ρ c (Proc.devRef .tc main_arg10)) shapeCasts_S1024_S1x1024 := by
    host_at hostOps3 main_v16
    rfl
  show W7 m ρ c (Proc.devRef .tc main_v16) = _
  rw [h, W6_main_arg10 m ρ c]

/-! ## The result -/

/-- The program's result buffer is region 3's output array: at the end it holds what that region's write-backs
    leave. -/
theorem W8_main_v17 (c : Dev nD) :
    W8 m ρ c (Proc.devRef .tc main_v17) = (dat3 (V7 m ρ) c).arrAt 5 cfg3.N :=
  W8_arr m ρ c 5

end Cert.KernelIdeal.Plumb

end
-- ==== Proof.Spec.lean ====
/-
  Multi-head attention with torch-style linear layers, written once over plain indices:
  batch `n : Fin 2`, position `s : Fin 2048`, feature `e : Fin 1024`; the 1024 features are 16 heads of 64 lanes,
  feature `e` lying in head `e / 64`.  Everything is an extended real and every operation is the exact one.

  Two spellings of the same layer are stated, as each program computes it:
    * `attnK`: scores scaled by the factor 1/8, the softmax weights left unnormalised, the weighted sum of the values
      divided by the normaliser afterwards;
    * `attnR`: scores divided by the square root of 64, the weights normalised first, then the weighted sum.
  They agree when every input is a real number (Algebra.lean); no program is mentioned here.
-/
import Idealize.ShloMosaic.PureOps.Ideal

noncomputable section

namespace Cert.Attn

open Idealize.ShloMosaic
open scoped BigOperators

/-- An activation array: batch, position, feature. -/
abbrev Seq := Fin 2 → Fin 2048 → Fin 1024 → EReal
/-- A weight matrix, indexed (output feature, input feature). -/
abbrev Mat := Fin 1024 → Fin 1024 → EReal
/-- A bias vector. -/
abbrev Bias := Fin 1024 → EReal

/-- The head a feature belongs to. -/
def hd (e : Fin 1024) : Fin 16 := ⟨e.val / 64, by have := e.isLt; omega⟩

/-- Feature number of lane `dd` of head `h`. -/
def col (h : Fin 16) (dd : Fin 64) : Fin 1024 := ⟨h.val * 64 + dd.val, by have := h.isLt; have := dd.isLt; omega⟩

/-- The linear layer `x · Wᵀ + b` applied to every position. -/
def proj (X : Seq) (W : Mat) (b : Bias) : Seq := fun n s e => (∑ d : Fin 1024, X n s d * W e d) + b e

/-- The unscaled score of query position `s` against key position `k` in head `h`: a dot product over the head's 64 lanes. -/
def qk (Qp Kp : Seq) (n : Fin 2) (h : Fin 16) (s k : Fin 2048) : EReal :=
  ∑ dd : Fin 64, Qp n s (col h dd) * Kp n k (col h dd)

/-- The factor 1/8 as the kernel spells it (the f32 word of 0.125). -/
def eighth : EReal := Ideal.ofBits .f32 0x3E000000#32
/-- The divisor √64 as the reference spells it (the square root of the f32 word of 64). -/
def root64 : EReal := Ideal.sqrt (Ideal.ofBits .f32 0x42800000#32)

/-- Scaled score, kernel's spelling. -/
def scoreK (Qp Kp : Seq) (n : Fin 2) (h : Fin 16) (s k : Fin 2048) : EReal := qk Qp Kp n h s k * eighth
/-- Scaled score, reference's spelling. -/
def scoreR (Qp Kp : Seq) (n : Fin 2) (h : Fin 16) (s k : Fin 2048) : EReal := Ideal.div (qk Qp Kp n h s k) root64

/-- The largest score of a row, as a fold of `max` from -∞ over the 2048 key positions. -/
def rowMax (sc : Fin 2048 → EReal) : EReal := (Finset.univ : Finset (Fin 2048)).fold max ⊥ sc

/-- The unnormalised softmax weight of key position `k`. -/
def wgt (sc : Fin 2048 → EReal) (k : Fin 2048) : EReal := Ideal.exp (sc k - rowMax sc)

/-- One output entry of a head, kernel's order: the weighted sum of the value column, then one division by the normaliser. -/
def headK (sc v : Fin 2048 → EReal) : EReal := Ideal.div (∑ k : Fin 2048, wgt sc k * v k) (∑ k : Fin 2048, wgt sc k)

/-- One output entry of a head, reference's order: every weight divided by the normaliser, then the weighted sum. -/
def headR (sc v : Fin 2048 → EReal) : EReal := ∑ k : Fin 2048, Ideal.div (wgt sc k) (∑ k' : Fin 2048, wgt sc k') * v k

/-- The attention context (heads already merged back into 1024 features), kernel's spelling. -/
def ctxK (Qp Kp Vp : Seq) : Seq := fun n s e => headK (fun k => scoreK Qp Kp n (hd e) s k) (fun k => Vp n k e)
/-- The attention context, reference's spelling. -/
def ctxR (Qp Kp Vp : Seq) : Seq := fun n s e => headR (fun k => scoreR Qp Kp n (hd e) s k) (fun k => Vp n k e)

/-- The whole layer, kernel's spelling. -/
def attnK (q k v : Seq) (Wq : Mat) (bq : Bias) (Wk : Mat) (bk : Bias) (Wv : Mat) (bv : Bias) (Wo : Mat) (bo : Bias) : Seq :=
  proj (ctxK (proj q Wq bq) (proj k Wk bk) (proj v Wv bv)) Wo bo
/-- The whole layer, reference's spelling. -/
def attnR (q k v : Seq) (Wq : Mat) (bq : Bias) (Wk : Mat) (bk : Bias) (Wv : Mat) (bv : Bias) (Wo : Mat) (bo : Bias) : Seq :=
  proj (ctxR (proj q Wq bq) (proj k Wk bk) (proj v Wv bv)) Wo bo

end Cert.Attn

end
-- ==== Proof.Arr.lean ====
/-
  Arrays read as functions of plain indices: an activation array [2, 2048, 1024], a weight matrix [1024, 1024]
  and a bias vector [1024] as the specification's `Seq`, `Mat` and `Bias`, and the specification's result laid
  back out as an array [2, 2048, 1024].
-/
import Idealize.ShloMosaic.Lib.ValueIdx
import proofs.«103592_j11201274708414_2_alg».proof.Proof.Spec

noncomputable section

namespace Cert.Attn

open Idealize.ShloMosaic Idealize.ShloMosaic.ValueIdx

/-- An array [2, 2048, 1024] as a function of batch, position and feature. -/
def seqOf (x : (⟨3, ![2, 2048, 1024]⟩ : Shape).Idx → EReal) : Seq := fun n s d => x (ix3 n s d)
/-- A matrix [1024, 1024] as a function of its two coordinates. -/
def matOf (w : (⟨2, ![1024, 1024]⟩ : Shape).Idx → EReal) : Mat := fun e d => w (ix2 e d)
/-- A vector [1024] as a function of its coordinate. -/
def biasOf (b : (⟨1, ![1024]⟩ : Shape).Idx → EReal) : Bias := fun e => b (ix1 e)
/-- A function of batch, position and feature laid out as an array [2, 2048, 1024]. -/
def arrOf (f : Seq) : (⟨3, ![2, 2048, 1024]⟩ : Shape).Idx → EReal := fun i => f (i 0) (i 1) (i 2)

theorem arrOf_ix3 (f : Seq) (n : Fin 2) (s : Fin 2048) (e : Fin 1024) : arrOf f (ix3 n s e) = f n s e := rfl

/-- The layer's result array, kernel's spelling, from the eleven argument arrays. -/
def resultK (q k v : (⟨3, ![2, 2048, 1024]⟩ : Shape).Idx → EReal)
    (wq : (⟨2, ![1024, 1024]⟩ : Shape).Idx → EReal) (bq : (⟨1, ![1024]⟩ : Shape).Idx → EReal)
    (wk : (⟨2, ![1024, 1024]⟩ : Shape).Idx → EReal) (bk : (⟨1, ![1024]⟩ : Shape).Idx → EReal)
    (wv : (⟨2, ![1024, 1024]⟩ : Shape).Idx → EReal) (bv : (⟨1, ![1024]⟩ : Shape).Idx → EReal)
    (wo : (⟨2, ![1024, 1024]⟩ : Shape).Idx → EReal) (bo : (⟨1, ![1024]⟩ : Shape).Idx → EReal) :
    (⟨3, ![2, 2048, 1024]⟩ : Shape).Idx → EReal :=
  arrOf (attnK (seqOf q) (seqOf k) (seqOf v) (matOf wq) (biasOf bq) (matOf wk) (biasOf bk) (matOf wv) (biasOf bv) (matOf wo) (biasOf bo))

/-- The layer's result array, reference's spelling, from the eleven argument arrays. -/
def resultR (q k v : (⟨3, ![2, 2048, 1024]⟩ : Shape).Idx → EReal)
    (wq : (⟨2, ![1024, 1024]⟩ : Shape).Idx → EReal) (bq : (⟨1, ![1024]⟩ : Shape).Idx → EReal)
    (wk : (⟨2, ![1024, 1024]⟩ : Shape).Idx → EReal) (bk : (⟨1, ![1024]⟩ : Shape).Idx → EReal)
    (wv : (⟨2, ![1024, 1024]⟩ : Shape).Idx → EReal) (bv : (⟨1, ![1024]⟩ : Shape).Idx → EReal)
    (wo : (⟨2, ![1024, 1024]⟩ : Shape).Idx → EReal) (bo : (⟨1, ![1024]⟩ : Shape).Idx → EReal) :
    (⟨3, ![2, 2048, 1024]⟩ : Shape).Idx → EReal :=
  arrOf (attnR (seqOf q) (seqOf k) (seqOf v) (matOf wq) (biasOf bq) (matOf wk) (biasOf bk) (matOf wv) (biasOf bv) (matOf wo) (biasOf bo))

end Cert.Attn

end
-- ==== Proof.KSpec.lean ====
/-
  The two array functions the kernel's regions compute, over literal shapes and with no program in sight.
    * `linG`: a projection region's output [4096, 1024] from the flattened input rows [4096, 1024], the weight
      matrix [1024, 1024] and the bias row [1, 1024]:  x · Wᵀ + b.
    * `attnG`: the attention region's output [2, 2048, 1024] from the projected queries, keys and values
      [2, 2048, 1024], the output weights and the output bias row: the specification's context (kernel's spelling)
      followed by the output projection.
-/
import proofs.«103592_j11201274708414_2_alg».proof.Proof.Arr

noncomputable section

open scoped BigOperators

namespace Cert.Attn

open Idealize.ShloMosaic Idealize.ShloMosaic.ValueIdx

/-- x · Wᵀ + b  over all 4096 rows: entry (r, c) is the sum over q of x[r, q] · W[c, q], plus b[0, c]. -/
def linG (X : (⟨2, ![4096, 1024]⟩ : Shape).Idx → EReal) (W : (⟨2, ![1024, 1024]⟩ : Shape).Idx → EReal)
    (b : (⟨2, ![1, 1024]⟩ : Shape).Idx → EReal) : (⟨2, ![4096, 1024]⟩ : Shape).Idx → EReal :=
  fun i => (∑ q : Fin 1024, X (ix2 (i 0) q) * W (ix2 (i 1) q)) + b (ix2 (0 : Fin 1) (i 1))

theorem linG_apply (X : (⟨2, ![4096, 1024]⟩ : Shape).Idx → EReal) (W : (⟨2, ![1024, 1024]⟩ : Shape).Idx → EReal)
    (b : (⟨2, ![1, 1024]⟩ : Shape).Idx → EReal) (r : Fin 4096) (c : Fin 1024) :
    linG X W b (ix2 r c) = (∑ q : Fin 1024, X (ix2 r q) * W (ix2 c q)) + b (ix2 (0 : Fin 1) c) := rfl

/-- A bias row [1, 1024] as the specification's bias vector. -/
def biasOfRow (b : (⟨2, ![1, 1024]⟩ : Shape).Idx → EReal) : Bias := fun e => b (ix2 (0 : Fin 1) e)

/-- The attention region's output array from its five input arrays. -/
def attnG (Qa Ka Va : (⟨3, ![2, 2048, 1024]⟩ : Shape).Idx → EReal) (Wo : (⟨2, ![1024, 1024]⟩ : Shape).Idx → EReal)
    (bo : (⟨2, ![1, 1024]⟩ : Shape).Idx → EReal) : (⟨3, ![2, 2048, 1024]⟩ : Shape).Idx → EReal :=
  arrOf (proj (ctxK (seqOf Qa) (seqOf Ka) (seqOf Va)) (matOf Wo) (biasOfRow bo))

/-- The attention region's context at (n, s, d), written out: the head `d / 64`'s `headK` of the row's scaled scores and
    of column d of the values. -/
theorem ctxK_seqOf (Qa Ka Va : (⟨3, ![2, 2048, 1024]⟩ : Shape).Idx → EReal) (n : Fin 2) (s : Fin 2048) (d : Fin 1024) :
    ctxK (seqOf Qa) (seqOf Ka) (seqOf Va) n s d
      = headK (fun k => (∑ dd : Fin 64, Qa (ix3 n s (col (hd d) dd)) * Ka (ix3 n k (col (hd d) dd))) * eighth)
          (fun k => Va (ix3 n k d)) := rfl

theorem attnG_apply (Qa Ka Va : (⟨3, ![2, 2048, 1024]⟩ : Shape).Idx → EReal) (Wo : (⟨2, ![1024, 1024]⟩ : Shape).Idx → EReal)
    (bo : (⟨2, ![1, 1024]⟩ : Shape).Idx → EReal) (n : Fin 2) (s : Fin 2048) (e : Fin 1024) :
    attnG Qa Ka Va Wo bo (ix3 n s e)
      = (∑ d : Fin 1024, ctxK (seqOf Qa) (seqOf Ka) (seqOf Va) n s d * Wo (ix2 e d)) + bo (ix2 (0 : Fin 1) e) := rfl

end Cert.Attn

end
-- ==== Proof.Compose.lean ====
/-
  The kernel's four regions put together, in the specification's terms.

  The kernel reads an activation array [2, 2048, 1024] as 4096 rows of 1024 features (batch n, position s is row
  n·2048 + s: the same elements in row-major order), runs the linear layer on the rows with the bias as a row
  [1, 1024], and reads the 4096 output rows back as [2, 2048, 1024]. Row-major order pairs entry (n, s, e) of the
  three-axis array with entry (n·2048 + s, e) of the two-axis one, both at position (n·2048 + s)·1024 + e; so the
  flattened layer, read back, is the specification's projection at every (n, s, e). The attention region then takes
  the three projected arrays, and its bias row [1, 1024] is the bias vector again.
-/
import proofs.«103592_j11201274708414_2_alg».proof.Proof.KSpec
import Idealize.ShloMosaic.Lib.ValueLayout
import Idealize.ShloMosaic.Lib.Pipeline.Value
import Idealize.ShloMosaic.Lib.ValueIdx

noncomputable section

open scoped BigOperators

namespace Cert.Attn

open Idealize.ShloMosaic Idealize.ShloMosaic.ValueIdx

/-- The row that batch `n`, position `s` lies in when [2, 2048, ·] is read as [4096, ·]. -/
def flatRow (n : Fin 2) (s : Fin 2048) : Fin 4096 := ⟨n.val * 2048 + s.val, by have := n.isLt; have := s.isLt; omega⟩

/-- [2, 2048, 1024] read as [4096, 1024]: row `n·2048 + s`, column `q` is entry (n, s, q). Both lie at row-major
    position (n·2048 + s)·1024 + q. -/
theorem shapeCast_flat_apply {α : Type} (a : (⟨3, ![2, 2048, 1024]⟩ : Shape).Idx → α) (h : (⟨3, ![2, 2048, 1024]⟩ : Shape).ShapeCasts ⟨2, ![4096, 1024]⟩)
    (n : Fin 2) (s : Fin 2048) (q : Fin 1024) :
    shapeCast ⟨2, ![4096, 1024]⟩ a h (ix2 (flatRow n s) q) = a (ix3 n s q) :=
  shapeCast_apply a h _ _ (by
    rw [Shape.rowMajor_val_three, Shape.rowMajor_val_two]
    rfl)

/-- [4096, 1024] read as [2, 2048, 1024]: entry (n, s, e) is row `n·2048 + s`, column `e`. -/
theorem shapeCast_unflat_apply {α : Type} (y : (⟨2, ![4096, 1024]⟩ : Shape).Idx → α) (h : (⟨2, ![4096, 1024]⟩ : Shape).ShapeCasts ⟨3, ![2, 2048, 1024]⟩)
    (n : Fin 2) (s : Fin 2048) (e : Fin 1024) :
    shapeCast ⟨3, ![2, 2048, 1024]⟩ y h (ix3 n s e) = y (ix2 (flatRow n s) e) :=
  shapeCast_apply y h _ _ (by
    rw [Shape.rowMajor_val_three, Shape.rowMajor_val_two]
    rfl)

/-- A projection region between its two reshapes is the specification's projection: flatten the input to rows, apply
    x · Wᵀ + b with the bias as a row, read the rows back as [2, 2048, 1024]. -/
theorem seqOf_reshape_linG (a : (⟨3, ![2, 2048, 1024]⟩ : Shape).Idx → EReal) (w : (⟨2, ![1024, 1024]⟩ : Shape).Idx → EReal) (b : (⟨1, ![1024]⟩ : Shape).Idx → EReal)
    (h1 : (⟨3, ![2, 2048, 1024]⟩ : Shape).ShapeCasts ⟨2, ![4096, 1024]⟩) (h2 : (⟨1, ![1024]⟩ : Shape).ShapeCasts ⟨2, ![1, 1024]⟩)
    (h3 : (⟨2, ![4096, 1024]⟩ : Shape).ShapeCasts ⟨3, ![2, 2048, 1024]⟩) :
    seqOf (shapeCast ⟨3, ![2, 2048, 1024]⟩ (linG (shapeCast ⟨2, ![4096, 1024]⟩ a h1) w (shapeCast ⟨2, ![1, 1024]⟩ b h2)) h3)
      = proj (seqOf a) (matOf w) (biasOf b) := by
  funext n s e
  show shapeCast ⟨3, ![2, 2048, 1024]⟩ (linG (shapeCast ⟨2, ![4096, 1024]⟩ a h1) w (shapeCast ⟨2, ![1, 1024]⟩ b h2)) h3 (ix3 n s e)
      = (∑ d : Fin 1024, a (ix3 n s d) * w (ix2 e d)) + b (ix1 e)
  rw [shapeCast_unflat_apply, linG_apply, shapeCast_a_1a_apply]
  congr 1
  exact Finset.sum_congr rfl fun q _ => by rw [shapeCast_flat_apply]

/-- A bias vector [1024] read as a row [1, 1024] is the same bias. -/
theorem biasOfRow_reshape (b : (⟨1, ![1024]⟩ : Shape).Idx → EReal) (h2 : (⟨1, ![1024]⟩ : Shape).ShapeCasts ⟨2, ![1, 1024]⟩) :
    biasOfRow (shapeCast ⟨2, ![1, 1024]⟩ b h2) = biasOf b := by
  funext e
  exact shapeCast_a_1a_apply b h2 (0 : Fin 1) e

/-- The whole kernel: three projection regions, each between its reshapes, feeding the attention region, give the
    layer's result array in the kernel's spelling. -/
theorem attnG_compose (a0 a1 a2 : (⟨3, ![2, 2048, 1024]⟩ : Shape).Idx → EReal)
    (a3 : (⟨2, ![1024, 1024]⟩ : Shape).Idx → EReal) (a4 : (⟨1, ![1024]⟩ : Shape).Idx → EReal)
    (a5 : (⟨2, ![1024, 1024]⟩ : Shape).Idx → EReal) (a6 : (⟨1, ![1024]⟩ : Shape).Idx → EReal)
    (a7 : (⟨2, ![1024, 1024]⟩ : Shape).Idx → EReal) (a8 : (⟨1, ![1024]⟩ : Shape).Idx → EReal)
    (a9 : (⟨2, ![1024, 1024]⟩ : Shape).Idx → EReal) (a10 : (⟨1, ![1024]⟩ : Shape).Idx → EReal)
    (h1 : (⟨3, ![2, 2048, 1024]⟩ : Shape).ShapeCasts ⟨2, ![4096, 1024]⟩) (h2 : (⟨1, ![1024]⟩ : Shape).ShapeCasts ⟨2, ![1, 1024]⟩)
    (h3 : (⟨2, ![4096, 1024]⟩ : Shape).ShapeCasts ⟨3, ![2, 2048, 1024]⟩) :
    attnG (shapeCast ⟨3, ![2, 2048, 1024]⟩ (linG (shapeCast ⟨2, ![4096, 1024]⟩ a0 h1) a3 (shapeCast ⟨2, ![1, 1024]⟩ a4 h2)) h3)
          (shapeCast ⟨3, ![2, 2048, 1024]⟩ (linG (shapeCast ⟨2, ![4096, 1024]⟩ a1 h1) a5 (shapeCast ⟨2, ![1, 1024]⟩ a6 h2)) h3)
          (shapeCast ⟨3, ![2, 2048, 1024]⟩ (linG (shapeCast ⟨2, ![4096, 1024]⟩ a2 h1) a7 (shapeCast ⟨2, ![1, 1024]⟩ a8 h2)) h3)
          a9 (shapeCast ⟨2, ![1, 1024]⟩ a10 h2)
      = resultK a0 a1 a2 a3 a4 a5 a6 a7 a8 a9 a10 := by
  unfold attnG resultK attnK
  rw [seqOf_reshape_linG a0 a3 a4 h1 h2 h3, seqOf_reshape_linG a1 a5 a6 h1 h2 h3, seqOf_reshape_linG a2 a7 a8 h1 h2 h3,
    biasOfRow_reshape a10 h2]

end Cert.Attn

end
-- ==== Proof.LibDotNT.lean ====
/-
  A matrix product against a transposed right operand, read at an index, on the extended reals.

  For dimension numbers that contract the left operand's second axis against the right operand's
  SECOND axis, with no batch axes (an `M×K` matrix times the transpose of an `N×K` matrix), entry
  `(p, c)` of the product is `Σ_{q < K} l[p, q] · r[c, q]`. The library states a product as a sum over
  the contraction shape's multi-indices; here that sum is re-indexed by the one contracted coordinate,
  once, for every record of this form and every extent.
-/
import Idealize.ShloMosaic.PureOps.Ideal.Laws
import Idealize.ShloMosaic.Lib.ValueIdx

noncomputable section

open scoped BigOperators

namespace Cert.DotNT

open Idealize.ShloMosaic Idealize.ShloMosaic.ValueIdx

variable {M K N : Nat} (d : DotDims ⟨2, ![M, K]⟩ ⟨2, ![N, K]⟩ ⟨2, ![M, N]⟩)

/-- The dimension numbers of a product with a transposed right operand: contract left axis 1 with right
    axis 1, keep left axis 0 and right axis 0 in that order, no batch axes. -/
structure IsNT : Prop where
  lc : d.lhsContracting = [1]
  rc : d.rhsContracting = [1]
  ln : d.lhsNonContracting = [0]
  rn : d.rhsNonContracting = [0]
  lb : d.lhsBatch = []
  rb : d.rhsBatch = []

variable {d}

/-- The contraction shape has one axis. -/
theorem contr_rank (h : IsNT d) : d.contr.rank = 1 := by rw [d.rank_contr, h.lc]; rfl

/-- That axis has the shared extent `K`. -/
theorem contr_size (h : IsNT d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsNT d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand's ROW is the result's column. -/
theorem rhs_row (h : IsNT d) (j : (⟨2, ![M, N]⟩ : Shape).Idx) (k : d.contr.Idx) : (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsNT d) (l : (⟨2, ![M, K]⟩ : Shape).Idx → EReal) (r : (⟨2, ![N, K]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 (j 1) q) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 (j 1) q := funext fun a => Fin.ext (by
    match a with
    | ⟨0, _⟩ => exact rhs_row h j _
    | ⟨1, _⟩ => exact (d.rhsIdx_val_of_single h.rc j _).trans hq)
  rw [el, er]
  rfl

/-- A `tpu.matmul` into a zero accumulator, at entry `(p, c)`. -/
theorem matmul_zero_apply (h : IsNT d) (prec : Option ContractPrecision) {φ₁ φ₂ : FTy}
    (l : FVec Ideal ⟨2, ![M, K]⟩ φ₁) (r : FVec Ideal ⟨2, ![N, K]⟩ φ₂) (p : Fin M) (c : Fin N) :
    matmul d prec l r (constant ⟨2, ![M, N]⟩ .f32 0x00000000#32) (ix2 p c) = ∑ q : Fin K, l (ix2 p q) * r (ix2 c q) :=
  (Ideal.matmul_constant_zero_apply d prec l r (ix2 p c)).trans (sum_contr h l r (ix2 p c))

/-- The host's `dot_general` of the same form, at entry `(p, c)`. -/
theorem dotGeneral_apply (h : IsNT d) (prec : Option ContractPrecision) {φ₁ φ₂ : FTy}
    (l : FVec Ideal ⟨2, ![M, K]⟩ φ₁) (r : FVec Ideal ⟨2, ![N, K]⟩ φ₂) (p : Fin M) (c : Fin N) :
    Host.dotGeneral d prec l r (ix2 p c) = ∑ q : Fin K, l (ix2 p q) * r (ix2 c q) :=
  (Ideal.dotGeneral_apply d prec .single l r (ix2 p c)).trans (sum_contr h l r (ix2 p c))

end Cert.DotNT

end
-- ==== Proof.LinPay.lean ====
/-
  The value a linear-projection body stores, read at one entry.  The body loads a 512×1024 tile of the input rows, the
  whole 1024×1024 weight matrix and the bias as a 1×1024 row, and stores  x · Wᵀ + b : entry (p, c) is the sum over the
  1024 input features q of x[p, q] · W[c, q], plus b[c].  On the extended reals the changes of float format around the
  product are the identity.  The three projection kernels (query, key, value) have the same body.
-/
import proofs.«103592_j11201274708414_2_alg».proof.Proof.Gen.KernelIdeal.Skeleton
import proofs.«103592_j11201274708414_2_alg».proof.Proof.LibDotNT
import Idealize.ShloMosaic.Lib.ValueLayout
import Idealize.ShloMosaic.Lib.Pipeline.Value

noncomputable section

open scoped BigOperators

namespace Cert.KernelIdeal.LinValue

open Cert.KernelIdeal Cert.KernelIdeal.Gen Idealize.ShloMosaic Idealize.ShloMosaic.ValueIdx

/-- The projection's dimension numbers contract the second axis of both operands. -/
theorem isNT_lin : Cert.DotNT.IsNT dot_S512x1024_S1024x1024_S512x1024_1_1_0_0_n_n := ⟨rfl, rfl, rfl, rfl, rfl, rfl⟩

/-- Entry (p, c) of what the query projection's body stores. -/
theorem pay0_apply (x0 : Vec Ideal S512x1024 .f32) (x1 : Vec Ideal S1024x1024 .bf16) (x2 : Vec Ideal S1x1024 .f32)
    (p : Fin 512) (c : Fin 1024) :
    k0_pay1 (F := Ideal) x0 x1 x2 (ix2 p c) = (∑ q : Fin 1024, x0 (ix2 p q) * x1 (ix2 c q)) + x2 (ix2 (0 : Fin 1) c) := by
  unfold k0_pay1
  simp only [shapeCast_self]
  rw [truncf_apply, addf_apply, Cert.DotNT.matmul_zero_apply isNT_lin, broadcastTo_1b_ab_apply]
  rfl

/-- The key and value projections' bodies are the same function. -/
theorem pay1_eq : @k1_pay1 Ideal _ = @k0_pay1 Ideal _ := rfl
theorem pay2_eq : @k2_pay1 Ideal _ = @k0_pay1 Ideal _ := rfl

end Cert.KernelIdeal.LinValue

end
-- ==== Proof.LinRegion0.lean ====
/-
  The query projection's region: after its eight grid points the output array [4096, 1024] holds  x · Wᵀ + b  of the
  three arrays the region finds on entry, whatever those are.  Grid point t loads rows 512·t … 512·t + 511 of x, the
  whole of W and b, and writes back the same rows of the result; the eight row blocks tile the array.
-/
import proofs.«103592_j11201274708414_2_alg».proof.Proof.Gen.KernelIdeal.Frame
import proofs.«103592_j11201274708414_2_alg».proof.Proof.LinPay
import proofs.«103592_j11201274708414_2_alg».proof.Proof.KSpec

set_option maxRecDepth 16384

noncomputable section

open scoped BigOperators

namespace Cert.KernelIdeal.LinValue

open Cert.KernelIdeal Cert.KernelIdeal.Gen Idealize.ShloMosaic Idealize.ShloMosaic.TcCoe Idealize.ShloMosaic.ValueIdx
open Idealize.SL.Sem
open Idealize.ShloMosaic.Pipeline (Dat Cfg Window)

open Cert.Attn (linG linG_apply)

theorem zero2 : (![0, 0] : Fin 2 → Nat) = fun _ => 0 := funext fun a => by fin_cases a <;> rfl

variable (V : (c : Dev nD) → (b : Ref sig .tc) → Buf (Elt Ideal) ((c : Thread nD τ).loc b))

/-- The block index maps over the grid: the rows move with the point, the weights and the bias stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of x · Wᵀ + b. -/
theorem flushed0 (c : Dev nD) (t : Fin cfg0.N) :
    (dat0 V c).flushed 3 t = ((cfg0.win 3).blk t).view.read (Elt Ideal)
      (linG (V c main_v4) (V c main_v0) (V c main_v7)) := by
  show (cfg0.win 3).cut (grid0.coords t) ((dat0 V c).after 3 t) = _
  rw [after0_3]
  unfold out0_3
  rw [View.canon_unit_zero zero2]
  simp only [View.ld_unit_zero (S := S512x1024) zero2, View.ld_unit_zero (S := S1024x1024) zero2, View.ld_unit_zero (S := S1x1024) zero2]
  obtain ⟨e0, e1, e2, e3, e4, e5, e6, e7⟩ := idx_facts0 t
  funext j
  obtain ⟨p, q, rfl⟩ : ∃ (p : Fin 512) (q : Fin 1024), j = ix2 p q := ⟨j 0, j 1, eq_ix2 j⟩
  show k0_pay1 (iblk0 V c 0 t) (iblk0 V c 1 t) (iblk0 V c 2 t) (ix2 p q)
    = linG (V c main_v4) (V c main_v0) (V c main_v7) (((cfg0.win 3).blk t).view.emb (ix2 p q))
  refine (pay0_apply (iblk0 V c 0 t) (iblk0 V c 1 t) (iblk0 V c 2 t) p q).trans ?_
  have hp : (p : Nat) < 512 := p.isLt
  have hq : (q : Nat) < 1024 := q.isLt
  have h0 : ∀ q' : Fin 1024, ((cfg0.win 0).blk t).view.emb (ix2 p q')
      = ix2 ((((cfg0.win 3).blk t).view.emb (ix2 p q)) 0) q' := fun q' => by
    funext a; apply Fin.ext
    match a with
    | ⟨0, _⟩ => show win0_0.index t (0 : Fin 2) * 512 + 1 * p.val = win0_3.index t (0 : Fin 2) * 512 + 1 * p.val; omega
    | ⟨1, _⟩ => show win0_0.index t (1 : Fin 2) * 1024 + 1 * q'.val = q'.val; omega
  have h1 : ∀ q' : Fin 1024, ((cfg0.win 1).blk t).view.emb (ix2 q q')
      = ix2 ((((cfg0.win 3).blk t).view.emb (ix2 p q)) 1) q' := fun q' => by
    funext a; apply Fin.ext
    match a with
    | ⟨0, _⟩ => show win0_1.index t (0 : Fin 2) * 1024 + 1 * q.val = win0_3.index t (1 : Fin 2) * 1024 + 1 * q.val; omega
    | ⟨1, _⟩ => show win0_1.index t (1 : Fin 2) * 1024 + 1 * q'.val = q'.val; omega
  have h2 : ((cfg0.win 2).blk t).view.emb (ix2 (0 : Fin 1) q)
      = ix2 (0 : Fin 1) ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + 1 * q.val; omega
  let X : S4096x1024.Idx → EReal := V c main_v4
  let Wm : S1024x1024.Idx → EReal := V c main_v0
  let bb : S1x1024.Idx → EReal := V c main_v7
  show (∑ q' : Fin 1024, X (((cfg0.win 0).blk t).view.emb (ix2 p q')) * Wm (((cfg0.win 1).blk t).view.emb (ix2 q q')))
      + bb (((cfg0.win 2).blk t).view.emb (ix2 (0 : Fin 1) q))
    = (∑ q' : Fin 1024, X (ix2 ((((cfg0.win 3).blk t).view.emb (ix2 p q)) 0) q') * Wm (ix2 ((((cfg0.win 3).blk t).view.emb (ix2 p q)) 1) q'))
      + bb (ix2 (0 : Fin 1) ((((cfg0.win 3).blk t).view.emb (ix2 p q)) 1))
  rw [h2]
  simp only [h0, h1]
  rfl

/-- An index of the array is in point t's block iff each coordinate is in the block's range on its axis. -/
theorem mem_blk0 (t : Fin cfg0.N) (i : S4096x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v8).slice (win0_3.rect t)).set ↔ _
  rw [View.set_slice_whole, Rect.mem_set_unit]
  exact Iff.rfl

/-- Every row lies in the block of the point numbered by the row's 512-block. -/
theorem cover0 (i : S4096x1024.Idx) : ∃ t : Fin cfg0.N, (cfg0.win 3).flush t = true ∧ i ∈ ((cfg0.win 3).blk t).view.set := by
  have hi0 : (i 0).val < 4096 := (i 0).isLt
  have hi1 : (i 1).val < 1024 := (i 1).isLt
  have hN : cfg0.N = 8 := N_0
  have ht : (i 0).val / 512 < cfg0.N := by rw [hN]; omega
  obtain ⟨e0, e1, e2, e3, e4, e5, e6, e7⟩ := idx_facts0 ⟨(i 0).val / 512, ht⟩
  refine ⟨⟨(i 0).val / 512, ht⟩, flush0_3 _, ?_⟩
  rw [mem_blk0]
  intro a
  match a with
  | ⟨0, _⟩ =>
    show win0_3.index ⟨(i 0).val / 512, ht⟩ (0 : Fin 2) * 512 ≤ (i 0).val ∧ (i 0).val < win0_3.index ⟨(i 0).val / 512, ht⟩ (0 : Fin 2) * 512 + 512
    rw [e6]; dsimp only; omega
  | ⟨1, _⟩ =>
    show win0_3.index ⟨(i 0).val / 512, ht⟩ (1 : Fin 2) * 1024 ≤ (i 1).val ∧ (i 1).val < win0_3.index ⟨(i 0).val / 512, ht⟩ (1 : Fin 2) * 1024 + 1024
    rw [e7]; omega

/-- The output array after the region:  x · Wᵀ + b  of the entry arrays. -/
theorem final0 (c : Dev nD) : (dat0 V c).arrAt 3 cfg0.N = linG (V c main_v4) (V c main_v0) (V c main_v7) :=
  (dat0 V c).arrAt_eq_of_cover 3 _ (fun t _ => flushed0 V c t) cover0

end Cert.KernelIdeal.LinValue

end
-- ==== Proof.LinRegion1.lean ====
/-
  The key projection's region: after its eight grid points the output array [4096, 1024] holds  x · Wᵀ + b  of the
  three arrays the region finds on entry, whatever those are.  Grid point t loads rows 512·t … 512·t + 511 of x, the
  whole of W and b, and writes back the same rows of the result; the eight row blocks tile the array.
-/
import proofs.«103592_j11201274708414_2_alg».proof.Proof.Gen.KernelIdeal.Frame
import proofs.«103592_j11201274708414_2_alg».proof.Proof.LinPay
import proofs.«103592_j11201274708414_2_alg».proof.Proof.KSpec
import proofs.«103592_j11201274708414_2_alg».proof.Proof.LinRegion0

set_option maxRecDepth 16384

noncomputable section

open scoped BigOperators

namespace Cert.KernelIdeal.LinValue

open Cert.KernelIdeal Cert.KernelIdeal.Gen Idealize.ShloMosaic Idealize.ShloMosaic.TcCoe Idealize.ShloMosaic.ValueIdx
open Idealize.SL.Sem
open Idealize.ShloMosaic.Pipeline (Dat Cfg Window)

open Cert.Attn (linG linG_apply)

variable (V : (c : Dev nD) → (b : Ref sig .tc) → Buf (Elt Ideal) ((c : Thread nD τ).loc b))

/-- The block index maps over the grid: the rows move with the point, the weights and the bias stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of x · Wᵀ + b. -/
theorem flushed1 (c : Dev nD) (t : Fin cfg1.N) :
    (dat1 V c).flushed 3 t = ((cfg1.win 3).blk t).view.read (Elt Ideal)
      (linG (V c main_v5) (V c main_v1) (V c main_v10)) := by
  show (cfg1.win 3).cut (grid1.coords t) ((dat1 V c).after 3 t) = _
  rw [after1_3]
  unfold out1_3
  rw [View.canon_unit_zero zero2]
  simp only [View.ld_unit_zero (S := S512x1024) zero2, View.ld_unit_zero (S := S1024x1024) zero2, View.ld_unit_zero (S := S1x1024) zero2]
  obtain ⟨e0, e1, e2, e3, e4, e5, e6, e7⟩ := idx_facts1 t
  funext j
  obtain ⟨p, q, rfl⟩ : ∃ (p : Fin 512) (q : Fin 1024), j = ix2 p q := ⟨j 0, j 1, eq_ix2 j⟩
  show k0_pay1 (iblk1 V c 0 t) (iblk1 V c 1 t) (iblk1 V c 2 t) (ix2 p q)
    = linG (V c main_v5) (V c main_v1) (V c main_v10) (((cfg1.win 3).blk t).view.emb (ix2 p q))
  -- the key projection's body is the same function as the query projection's
  refine (pay0_apply (iblk1 V c 0 t) (iblk1 V c 1 t) (iblk1 V c 2 t) p q).trans ?_
  have hp : (p : Nat) < 512 := p.isLt
  have hq : (q : Nat) < 1024 := q.isLt
  have h0 : ∀ q' : Fin 1024, ((cfg1.win 0).blk t).view.emb (ix2 p q')
      = ix2 ((((cfg1.win 3).blk t).view.emb (ix2 p q)) 0) q' := fun q' => by
    funext a; apply Fin.ext
    match a with
    | ⟨0, _⟩ => show win1_0.index t (0 : Fin 2) * 512 + 1 * p.val = win1_3.index t (0 : Fin 2) * 512 + 1 * p.val; omega
    | ⟨1, _⟩ => show win1_0.index t (1 : Fin 2) * 1024 + 1 * q'.val = q'.val; omega
  have h1 : ∀ q' : Fin 1024, ((cfg1.win 1).blk t).view.emb (ix2 q q')
      = ix2 ((((cfg1.win 3).blk t).view.emb (ix2 p q)) 1) q' := fun q' => by
    funext a; apply Fin.ext
    match a with
    | ⟨0, _⟩ => show win1_1.index t (0 : Fin 2) * 1024 + 1 * q.val = win1_3.index t (1 : Fin 2) * 1024 + 1 * q.val; omega
    | ⟨1, _⟩ => show win1_1.index t (1 : Fin 2) * 1024 + 1 * q'.val = q'.val; omega
  have h2 : ((cfg1.win 2).blk t).view.emb (ix2 (0 : Fin 1) q)
      = ix2 (0 : Fin 1) ((((cfg1.win 3).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 1024 + 1 * q.val = win1_3.index t (1 : Fin 2) * 1024 + 1 * q.val; omega
  let X : S4096x1024.Idx → EReal := V c main_v5
  let Wm : S1024x1024.Idx → EReal := V c main_v1
  let bb : S1x1024.Idx → EReal := V c main_v10
  show (∑ q' : Fin 1024, X (((cfg1.win 0).blk t).view.emb (ix2 p q')) * Wm (((cfg1.win 1).blk t).view.emb (ix2 q q')))
      + bb (((cfg1.win 2).blk t).view.emb (ix2 (0 : Fin 1) q))
    = (∑ q' : Fin 1024, X (ix2 ((((cfg1.win 3).blk t).view.emb (ix2 p q)) 0) q') * Wm (ix2 ((((cfg1.win 3).blk t).view.emb (ix2 p q)) 1) q'))
      + bb (ix2 (0 : Fin 1) ((((cfg1.win 3).blk t).view.emb (ix2 p q)) 1))
  rw [h2]
  simp only [h0, h1]
  rfl

/-- An index of the array is in point t's block iff each coordinate is in the block's range on its axis. -/
theorem mem_blk1 (t : Fin cfg1.N) (i : S4096x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v11).slice (win1_3.rect t)).set ↔ _
  rw [View.set_slice_whole, Rect.mem_set_unit]
  exact Iff.rfl

/-- Every row lies in the block of the point numbered by the row's 512-block. -/
theorem cover1 (i : S4096x1024.Idx) : ∃ t : Fin cfg1.N, (cfg1.win 3).flush t = true ∧ i ∈ ((cfg1.win 3).blk t).view.set := by
  have hi0 : (i 0).val < 4096 := (i 0).isLt
  have hi1 : (i 1).val < 1024 := (i 1).isLt
  have hN : cfg1.N = 8 := N_1
  have ht : (i 0).val / 512 < cfg1.N := by rw [hN]; omega
  obtain ⟨e0, e1, e2, e3, e4, e5, e6, e7⟩ := idx_facts1 ⟨(i 0).val / 512, ht⟩
  refine ⟨⟨(i 0).val / 512, ht⟩, flush1_3 _, ?_⟩
  rw [mem_blk1]
  intro a
  match a with
  | ⟨0, _⟩ =>
    show win1_3.index ⟨(i 0).val / 512, ht⟩ (0 : Fin 2) * 512 ≤ (i 0).val ∧ (i 0).val < win1_3.index ⟨(i 0).val / 512, ht⟩ (0 : Fin 2) * 512 + 512
    rw [e6]; dsimp only; omega
  | ⟨1, _⟩ =>
    show win1_3.index ⟨(i 0).val / 512, ht⟩ (1 : Fin 2) * 1024 ≤ (i 1).val ∧ (i 1).val < win1_3.index ⟨(i 0).val / 512, ht⟩ (1 : Fin 2) * 1024 + 1024
    rw [e7]; omega

/-- The output array after the region:  x · Wᵀ + b  of the entry arrays. -/
theorem final1 (c : Dev nD) : (dat1 V c).arrAt 3 cfg1.N = linG (V c main_v5) (V c main_v1) (V c main_v10) :=
  (dat1 V c).arrAt_eq_of_cover 3 _ (fun t _ => flushed1 V c t) cover1

end Cert.KernelIdeal.LinValue

end
-- ==== Proof.LinRegion2.lean ====
/-
  The value projection's region: after its eight grid points the output array [4096, 1024] holds  x · Wᵀ + b  of the
  three arrays the region finds on entry, whatever those are.  Grid point t loads rows 512·t … 512·t + 511 of x, the
  whole of W and b, and writes back the same rows of the result; the eight row blocks tile the array.
-/
import proofs.«103592_j11201274708414_2_alg».proof.Proof.Gen.KernelIdeal.Frame
import proofs.«103592_j11201274708414_2_alg».proof.Proof.LinPay
import proofs.«103592_j11201274708414_2_alg».proof.Proof.KSpec
import proofs.«103592_j11201274708414_2_alg».proof.Proof.LinRegion0

set_option maxRecDepth 16384

noncomputable section

open scoped BigOperators

namespace Cert.KernelIdeal.LinValue

open Cert.KernelIdeal Cert.KernelIdeal.Gen Idealize.ShloMosaic Idealize.ShloMosaic.TcCoe Idealize.ShloMosaic.ValueIdx
open Idealize.SL.Sem
open Idealize.ShloMosaic.Pipeline (Dat Cfg Window)

open Cert.Attn (linG linG_apply)

variable (V : (c : Dev nD) → (b : Ref sig .tc) → Buf (Elt Ideal) ((c : Thread nD τ).loc b))

/-- The block index maps over the grid: the rows move with the point, the weights and the bias stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of x · Wᵀ + b. -/
theorem flushed2 (c : Dev nD) (t : Fin cfg2.N) :
    (dat2 V c).flushed 3 t = ((cfg2.win 3).blk t).view.read (Elt Ideal)
      (linG (V c main_v6) (V c main_v2) (V c main_v13)) := by
  show (cfg2.win 3).cut (grid2.coords t) ((dat2 V c).after 3 t) = _
  rw [after2_3]
  unfold out2_3
  rw [View.canon_unit_zero zero2]
  simp only [View.ld_unit_zero (S := S512x1024) zero2, View.ld_unit_zero (S := S1024x1024) zero2, View.ld_unit_zero (S := S1x1024) zero2]
  obtain ⟨e0, e1, e2, e3, e4, e5, e6, e7⟩ := idx_facts2 t
  funext j
  obtain ⟨p, q, rfl⟩ : ∃ (p : Fin 512) (q : Fin 1024), j = ix2 p q := ⟨j 0, j 1, eq_ix2 j⟩
  show k0_pay1 (iblk2 V c 0 t) (iblk2 V c 1 t) (iblk2 V c 2 t) (ix2 p q)
    = linG (V c main_v6) (V c main_v2) (V c main_v13) (((cfg2.win 3).blk t).view.emb (ix2 p q))
  -- the value projection's body is the same function as the query projection's
  refine (pay0_apply (iblk2 V c 0 t) (iblk2 V c 1 t) (iblk2 V c 2 t) p q).trans ?_
  have hp : (p : Nat) < 512 := p.isLt
  have hq : (q : Nat) < 1024 := q.isLt
  have h0 : ∀ q' : Fin 1024, ((cfg2.win 0).blk t).view.emb (ix2 p q')
      = ix2 ((((cfg2.win 3).blk t).view.emb (ix2 p q)) 0) q' := fun q' => by
    funext a; apply Fin.ext
    match a with
    | ⟨0, _⟩ => show win2_0.index t (0 : Fin 2) * 512 + 1 * p.val = win2_3.index t (0 : Fin 2) * 512 + 1 * p.val; omega
    | ⟨1, _⟩ => show win2_0.index t (1 : Fin 2) * 1024 + 1 * q'.val = q'.val; omega
  have h1 : ∀ q' : Fin 1024, ((cfg2.win 1).blk t).view.emb (ix2 q q')
      = ix2 ((((cfg2.win 3).blk t).view.emb (ix2 p q)) 1) q' := fun q' => by
    funext a; apply Fin.ext
    match a with
    | ⟨0, _⟩ => show win2_1.index t (0 : Fin 2) * 1024 + 1 * q.val = win2_3.index t (1 : Fin 2) * 1024 + 1 * q.val; omega
    | ⟨1, _⟩ => show win2_1.index t (1 : Fin 2) * 1024 + 1 * q'.val = q'.val; omega
  have h2 : ((cfg2.win 2).blk t).view.emb (ix2 (0 : Fin 1) q)
      = ix2 (0 : Fin 1) ((((cfg2.win 3).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 1024 + 1 * q.val = win2_3.index t (1 : Fin 2) * 1024 + 1 * q.val; omega
  let X : S4096x1024.Idx → EReal := V c main_v6
  let Wm : S1024x1024.Idx → EReal := V c main_v2
  let bb : S1x1024.Idx → EReal := V c main_v13
  show (∑ q' : Fin 1024, X (((cfg2.win 0).blk t).view.emb (ix2 p q')) * Wm (((cfg2.win 1).blk t).view.emb (ix2 q q')))
      + bb (((cfg2.win 2).blk t).view.emb (ix2 (0 : Fin 1) q))
    = (∑ q' : Fin 1024, X (ix2 ((((cfg2.win 3).blk t).view.emb (ix2 p q)) 0) q') * Wm (ix2 ((((cfg2.win 3).blk t).view.emb (ix2 p q)) 1) q'))
      + bb (ix2 (0 : Fin 1) ((((cfg2.win 3).blk t).view.emb (ix2 p q)) 1))
  rw [h2]
  simp only [h0, h1]
  rfl

/-- An index of the array is in point t's block iff each coordinate is in the block's range on its axis. -/
theorem mem_blk2 (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v14).slice (win2_3.rect t)).set ↔ _
  rw [View.set_slice_whole, Rect.mem_set_unit]
  exact Iff.rfl

/-- Every row lies in the block of the point numbered by the row's 512-block. -/
theorem cover2 (i : S4096x1024.Idx) : ∃ t : Fin cfg2.N, (cfg2.win 3).flush t = true ∧ i ∈ ((cfg2.win 3).blk t).view.set := by
  have hi0 : (i 0).val < 4096 := (i 0).isLt
  have hi1 : (i 1).val < 1024 := (i 1).isLt
  have hN : cfg2.N = 8 := N_2
  have ht : (i 0).val / 512 < cfg2.N := by rw [hN]; omega
  obtain ⟨e0, e1, e2, e3, e4, e5, e6, e7⟩ := idx_facts2 ⟨(i 0).val / 512, ht⟩
  refine ⟨⟨(i 0).val / 512, ht⟩, flush2_3 _, ?_⟩
  rw [mem_blk2]
  intro a
  match a with
  | ⟨0, _⟩ =>
    show win2_3.index ⟨(i 0).val / 512, ht⟩ (0 : Fin 2) * 512 ≤ (i 0).val ∧ (i 0).val < win2_3.index ⟨(i 0).val / 512, ht⟩ (0 : Fin 2) * 512 + 512
    rw [e6]; dsimp only; omega
  | ⟨1, _⟩ =>
    show win2_3.index ⟨(i 0).val / 512, ht⟩ (1 : Fin 2) * 1024 ≤ (i 1).val ∧ (i 1).val < win2_3.index ⟨(i 0).val / 512, ht⟩ (1 : Fin 2) * 1024 + 1024
    rw [e7]; omega

/-- The output array after the region:  x · Wᵀ + b  of the entry arrays. -/
theorem final2 (c : Dev nD) : (dat2 V c).arrAt 3 cfg2.N = linG (V c main_v6) (V c main_v2) (V c main_v13) :=
  (dat2 V c).arrAt_eq_of_cover 3 _ (fun t _ => flushed2 V c t) cover2

end Cert.KernelIdeal.LinValue

end
-- ==== Proof.Region3.lean ====
/-
  The attention region: after its sixteen grid points the output array [2, 2048, 1024] holds the attention context
  (kernel's spelling) followed by the output layer, of the five arrays the region finds on entry, whatever those are.
  Grid point t is batch n = t / 8 and query tile si = t % 8: it loads rows 256·si … 256·si + 255 of batch n of the
  projected queries, all of batch n of the keys and of the values, the whole output weight and bias row, and writes
  back the same rows of the result; the sixteen row blocks tile the array.  What the body leaves in one block, entry
  by entry, is taken as the hypothesis `PayloadSpec`.
-/
import proofs.«103592_j11201274708414_2_alg».proof.Proof.Gen.KernelIdeal.Frame
import proofs.«103592_j11201274708414_2_alg».proof.Proof.KSpec
import Idealize.ShloMosaic.Lib.Pipeline.Value

set_option maxRecDepth 16384

noncomputable section

open scoped BigOperators

namespace Cert.KernelIdeal.AttnRegion

open Cert.KernelIdeal Cert.KernelIdeal.Gen Idealize.ShloMosaic Idealize.ShloMosaic.TcCoe Idealize.ShloMosaic.ValueIdx
open Idealize.SL.Sem
open Idealize.ShloMosaic.Pipeline (Dat Cfg Window)

open Cert.Attn (attnG attnG_apply ctxK_seqOf headK col hd eighth)

/-- What the body leaves in the output block, entry (r, e), from the blocks it is given: the sum over the features d
    of the head's output (the weighted sum of column d of the values, divided by the normaliser, the scores being
    the 64-lane dot products of row r of the queries with the keys' rows, times 1/8) against row e of the output
    weight, plus the bias. -/
def PayloadSpec : Prop :=
  ∀ (c : Dev nD) (i : grid3.Coords) (arg2 : Memref sig .tc .vmem S1x256x1024 .bf16) (harg2 : arg2.IsWhole)
    (arg3 : Memref sig .tc .vmem S1x2048x1024 .bf16) (harg3 : arg3.IsWhole)
    (arg4 : Memref sig .tc .vmem S1x2048x1024 .bf16) (harg4 : arg4.IsWhole)
    (arg5 : Memref sig .tc .vmem S1024x1024 .bf16) (harg5 : arg5.IsWhole)
    (arg6 : Memref sig .tc .vmem S1x1024 .f32) (harg6 : arg6.IsWhole)
    (arg7 : Memref sig .tc .vmem S1x256x1024 .f32) (harg7 : arg7.IsWhole)
    (arg8 : Memref sig .tc .vmem S256x1024 .f32) (harg8 : arg8.IsWhole)
    (x0 : Vec Ideal S1x256x1024 .bf16) (x1 x2 : Vec Ideal S1x2048x1024 .bf16) (x3 : Vec Ideal S1024x1024 .bf16)
    (x4 : Vec Ideal S1x1024 .f32) (r : Fin 256) (e : Fin 1024),
    out3_A_5 (F := Ideal) c i arg2 harg2 arg3 harg3 arg4 harg4 arg5 harg5 arg6 harg6 arg7 harg7 arg8 harg8
        x0 x1 x2 x3 x4 (ix3 (0 : Fin 1) r e)
      = (∑ d : Fin 1024, headK
            (fun k : Fin 2048 => (∑ dd : Fin 64, x0 (ix3 (0 : Fin 1) r (col (hd d) dd))
                * x1 (ix3 (0 : Fin 1) k (col (hd d) dd))) * eighth)
            (fun k : Fin 2048 => x2 (ix3 (0 : Fin 1) k d)) * x3 (ix2 e d))
        + x4 (ix2 (0 : Fin 1) e)

variable (V : (c : Dev nD) → (b : Ref sig .tc) → Buf (Elt Ideal) ((c : Thread nD τ).loc b))

/-- The block index maps over the grid: the queries' and the output's rows move with the point (batch t / 8, row tile
    t % 8), the keys and values with the batch only, the output weight and bias stay. -/
theorem idx_facts3 : ∀ t : Fin cfg3.N,
    win3_0.index t (0 : Fin 3) = t.val / 8 ∧ win3_0.index t (1 : Fin 3) = t.val % 8 ∧ win3_0.index t (2 : Fin 3) = 0
    ∧ win3_1.index t (0 : Fin 3) = t.val / 8 ∧ win3_1.index t (1 : Fin 3) = 0 ∧ win3_1.index t (2 : Fin 3) = 0
    ∧ win3_2.index t (0 : Fin 3) = t.val / 8 ∧ win3_2.index t (1 : Fin 3) = 0 ∧ win3_2.index t (2 : Fin 3) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 3) = t.val / 8 ∧ win3_5.index t (1 : Fin 3) = t.val % 8 ∧ win3_5.index t (2 : Fin 3) = 0 :=
  (by decide +kernel : ∀ t : Fin grid3.N, _)

/-- What point t writes back is its block of the attention layer's array. -/
theorem flushed3 (hpay : PayloadSpec) (c : Dev nD) (t : Fin cfg3.N) :
    (dat3 V c).flushed 5 t = ((cfg3.win 5).blk t).view.read (Elt Ideal)
      (attnG (V c main_v9) (V c main_v12) (V c main_v15) (V c main_v3) (V c main_v16)) := by
  show (cfg3.win 5).cut (grid3.coords t) ((dat3 V c).after 5 t) = _
  rw [after3_5]
  unfold outsAt3
  obtain ⟨e0, e1, e2, e3, e4, e5, e6, e7, e8, e9, e10, e11, e12, e13, e14, e15⟩ := idx_facts3 t
  funext j
  obtain ⟨u, r, e, rfl⟩ : ∃ (u : Fin 1) (r : Fin 256) (e : Fin 1024), j = ix3 u r e := ⟨j 0, j 1, j 2, eq_ix3 j⟩
  obtain rfl : u = 0 := Subsingleton.elim _ _
  show out3_A_5 (F := Ideal) c (grid3.coords t) (ms3_0 t) (hs3_0 t) (ms3_1 t) (hs3_1 t) (ms3_2 t) (hs3_2 t)
      (ms3_3 t) (hs3_3 t) (ms3_4 t) (hs3_4 t) (ms3_5 t) (hs3_5 t) scM3_0 (Memref.isWhole_whole _)
      (iblk3 V c 0 t) (iblk3 V c 1 t) (iblk3 V c 2 t) (iblk3 V c 3 t) (iblk3 V c 4 t) (ix3 (0 : Fin 1) r e)
    = attnG (V c main_v9) (V c main_v12) (V c main_v15) (V c main_v3) (V c main_v16)
        (((cfg3.win 5).blk t).view.emb (ix3 (0 : Fin 1) r e))
  refine (hpay c (grid3.coords t) (ms3_0 t) (hs3_0 t) (ms3_1 t) (hs3_1 t) (ms3_2 t) (hs3_2 t)
      (ms3_3 t) (hs3_3 t) (ms3_4 t) (hs3_4 t) (ms3_5 t) (hs3_5 t) scM3_0 (Memref.isWhole_whole _)
      (iblk3 V c 0 t) (iblk3 V c 1 t) (iblk3 V c 2 t) (iblk3 V c 3 t) (iblk3 V c 4 t) r e).trans ?_
  have hN : cfg3.N = 16 := N_3
  have ht : t.val < 16 := hN ▸ t.isLt
  have hr : (r : Nat) < 256 := r.isLt
  have he : (e : Nat) < 1024 := e.isLt
  let n' : Fin 2 := ⟨t.val / 8, by omega⟩
  let s' : Fin 2048 := ⟨t.val % 8 * 256 + r.val, by omega⟩
  have h5 : ((cfg3.win 5).blk t).view.emb (ix3 (0 : Fin 1) r e) = ix3 n' s' e := by
    funext a; apply Fin.ext
    match a with
    | ⟨0, _⟩ => show win3_5.index t (0 : Fin 3) * 1 + 1 * 0 = t.val / 8; omega
    | ⟨1, _⟩ => show win3_5.index t (1 : Fin 3) * 256 + 1 * r.val = t.val % 8 * 256 + r.val; omega
    | ⟨2, _⟩ => show win3_5.index t (2 : Fin 3) * 1024 + 1 * e.val = e.val; omega
  have h0 : ∀ q : Fin 1024, ((cfg3.win 0).blk t).view.emb (ix3 (0 : Fin 1) r q) = ix3 n' s' q := fun q => by
    funext a; apply Fin.ext
    match a with
    | ⟨0, _⟩ => show win3_0.index t (0 : Fin 3) * 1 + 1 * 0 = t.val / 8; omega
    | ⟨1, _⟩ => show win3_0.index t (1 : Fin 3) * 256 + 1 * r.val = t.val % 8 * 256 + r.val; omega
    | ⟨2, _⟩ => show win3_0.index t (2 : Fin 3) * 1024 + 1 * q.val = q.val; omega
  have h1 : ∀ (k : Fin 2048) (q : Fin 1024), ((cfg3.win 1).blk t).view.emb (ix3 (0 : Fin 1) k q) = ix3 n' k q :=
    fun k q => by
    funext a; apply Fin.ext
    match a with
    | ⟨0, _⟩ => show win3_1.index t (0 : Fin 3) * 1 + 1 * 0 = t.val / 8; omega
    | ⟨1, _⟩ => show win3_1.index t (1 : Fin 3) * 2048 + 1 * k.val = k.val; omega
    | ⟨2, _⟩ => show win3_1.index t (2 : Fin 3) * 1024 + 1 * q.val = q.val; omega
  have h2 : ∀ (k : Fin 2048) (q : Fin 1024), ((cfg3.win 2).blk t).view.emb (ix3 (0 : Fin 1) k q) = ix3 n' k q :=
    fun k q => by
    funext a; apply Fin.ext
    match a with
    | ⟨0, _⟩ => show win3_2.index t (0 : Fin 3) * 1 + 1 * 0 = t.val / 8; omega
    | ⟨1, _⟩ => show win3_2.index t (1 : Fin 3) * 2048 + 1 * k.val = k.val; omega
    | ⟨2, _⟩ => show win3_2.index t (2 : Fin 3) * 1024 + 1 * q.val = q.val; omega
  have h3 : ∀ (p q : Fin 1024), ((cfg3.win 3).blk t).view.emb (ix2 p q) = ix2 p q := fun p q => by
    funext a; apply Fin.ext
    match a with
    | ⟨0, _⟩ => show win3_3.index t (0 : Fin 2) * 1024 + 1 * p.val = p.val; omega
    | ⟨1, _⟩ => show win3_3.index t (1 : Fin 2) * 1024 + 1 * q.val = q.val; omega
  have h4 : ∀ q : Fin 1024, ((cfg3.win 4).blk t).view.emb (ix2 (0 : Fin 1) q) = ix2 (0 : Fin 1) q := fun q => by
    funext a; apply Fin.ext
    match a with
    | ⟨0, _⟩ => show win3_4.index t (0 : Fin 2) * 1 + 1 * 0 = 0; omega
    | ⟨1, _⟩ => show win3_4.index t (1 : Fin 2) * 1024 + 1 * q.val = q.val; omega
  let Qa : S2x2048x1024.Idx → EReal := V c main_v9
  let Ka : S2x2048x1024.Idx → EReal := V c main_v12
  let Va : S2x2048x1024.Idx → EReal := V c main_v15
  let Wm : S1024x1024.Idx → EReal := V c main_v3
  let bb : S1x1024.Idx → EReal := V c main_v16
  show (∑ d : Fin 1024, headK
          (fun k : Fin 2048 => (∑ dd : Fin 64, Qa (((cfg3.win 0).blk t).view.emb (ix3 (0 : Fin 1) r (col (hd d) dd)))
              * Ka (((cfg3.win 1).blk t).view.emb (ix3 (0 : Fin 1) k (col (hd d) dd)))) * eighth)
          (fun k : Fin 2048 => Va (((cfg3.win 2).blk t).view.emb (ix3 (0 : Fin 1) k d)))
            * Wm (((cfg3.win 3).blk t).view.emb (ix2 e d)))
        + bb (((cfg3.win 4).blk t).view.emb (ix2 (0 : Fin 1) e))
      = attnG Qa Ka Va Wm bb (((cfg3.win 5).blk t).view.emb (ix3 (0 : Fin 1) r e))
  rw [h5, attnG_apply]
  simp only [h0, h1, h2, h3, h4, ctxK_seqOf]

/-- An index of the array is in point t's block iff each coordinate is in the block's range on its axis. -/
theorem mem_blk3 (t : Fin cfg3.N) (i : S2x2048x1024.Idx) :
    i ∈ ((cfg3.win 5).blk t).view.set ↔ ∀ a : Fin 3, win3_5.index t a * S1x256x1024.size a ≤ (i a).val
      ∧ (i a).val < win3_5.index t a * S1x256x1024.size a + S1x256x1024.size a := by
  show i ∈ ((View.whole main_v17).slice (win3_5.rect t)).set ↔ _
  rw [View.set_slice_whole, Rect.mem_set_unit]
  exact Iff.rfl

/-- Every entry lies in the block of the point numbered by its batch and its row's 256-block. -/
theorem cover3 (i : S2x2048x1024.Idx) :
    ∃ t : Fin cfg3.N, (cfg3.win 5).flush t = true ∧ i ∈ ((cfg3.win 5).blk t).view.set := by
  have hi0 : (i 0).val < 2 := (i 0).isLt
  have hi1 : (i 1).val < 2048 := (i 1).isLt
  have hi2 : (i 2).val < 1024 := (i 2).isLt
  have hN : cfg3.N = 16 := N_3
  have ht : (i 0).val * 8 + (i 1).val / 256 < cfg3.N := by rw [hN]; omega
  obtain ⟨-, -, -, -, -, -, -, -, -, -, -, -, -, e13, e14, e15⟩ := idx_facts3 ⟨(i 0).val * 8 + (i 1).val / 256, ht⟩
  refine ⟨⟨(i 0).val * 8 + (i 1).val / 256, ht⟩, flush3_5 _, ?_⟩
  rw [mem_blk3]
  intro a
  match a with
  | ⟨0, _⟩ =>
    show win3_5.index ⟨(i 0).val * 8 + (i 1).val / 256, ht⟩ (0 : Fin 3) * 1 ≤ (i 0).val
      ∧ (i 0).val < win3_5.index ⟨(i 0).val * 8 + (i 1).val / 256, ht⟩ (0 : Fin 3) * 1 + 1
    rw [e13]; dsimp only; omega
  | ⟨1, _⟩ =>
    show win3_5.index ⟨(i 0).val * 8 + (i 1).val / 256, ht⟩ (1 : Fin 3) * 256 ≤ (i 1).val
      ∧ (i 1).val < win3_5.index ⟨(i 0).val * 8 + (i 1).val / 256, ht⟩ (1 : Fin 3) * 256 + 256
    rw [e14]; dsimp only; omega
  | ⟨2, _⟩ =>
    show win3_5.index ⟨(i 0).val * 8 + (i 1).val / 256, ht⟩ (2 : Fin 3) * 1024 ≤ (i 2).val
      ∧ (i 2).val < win3_5.index ⟨(i 0).val * 8 + (i 1).val / 256, ht⟩ (2 : Fin 3) * 1024 + 1024
    rw [e15]; omega

/-- The output array after the region: the attention layer's array of the entry arrays. -/
theorem final3 (hpay : PayloadSpec) (c : Dev nD) :
    (dat3 V c).arrAt 5 cfg3.N = attnG (V c main_v9) (V c main_v12) (V c main_v15) (V c main_v3) (V c main_v16) :=
  (dat3 V c).arrAt_eq_of_cover 5 _ (fun t _ => flushed3 V hpay c t) cover3

end Cert.KernelIdeal.AttnRegion

end
-- ==== Proof.KernelValue.lean ====
/-
  The idealized kernel's value.  At the exact instance (floats are extended reals, every operation exact, a change
  of float format the identity) the result buffer of the kernel ends at the layer's result array, kernel's spelling,
  of the eleven launch arrays.

  The result buffer is the attention region's output array; that region computes the attention function of its five
  operand arrays; three of those are the projection regions' output arrays read as [2, 2048, 1024]; each projection
  region computes  x · Wᵀ + b  of its operands; and those operands are the launch arrays, flattened, converted (the
  identity here) or read as a row. Composed, that is the specification's layer.
-/
import proofs.«103592_j11201274708414_2_alg».proof.Proof.KernelRun
import proofs.«103592_j11201274708414_2_alg».proof.Proof.Plumbing
import proofs.«103592_j11201274708414_2_alg».proof.Proof.Compose
import proofs.«103592_j11201274708414_2_alg».proof.Proof.LinRegion0
import proofs.«103592_j11201274708414_2_alg».proof.Proof.LinRegion1
import proofs.«103592_j11201274708414_2_alg».proof.Proof.LinRegion2
import proofs.«103592_j11201274708414_2_alg».proof.Proof.Region3

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-! ## The three projected arrays, as the attention region finds them -/

/-- Region 3's first operand is the first projection of the launch arrays: the first input flattened to rows, the
    first weight matrix, the first bias as a row, and the output rows read back as [2, 2048, 1024]. -/
theorem V7_queries (c : Dev nD) :
    V7 m ρ c main_v9 = shapeCast S2x2048x1024 (Cert.Attn.linG (shapeCast S4096x1024 (m ((c.tc : Thread nD τ).loc main_arg0)) shapeCasts_S2x2048x1024_S4096x1024) (m ((c.tc : Thread nD τ).loc main_arg3)) (shapeCast S1x1024 (m ((c.tc : Thread nD τ).loc main_arg4)) shapeCasts_S1024_S1x1024)) shapeCasts_S4096x1024_S2x2048x1024 := by
  rw [Plumb.V7_main_v9 m ρ c, LinValue.final0 (V1 m ρ) c, Plumb.V1_main_v4 m ρ c, Plumb.V1_main_v0 m ρ c, Plumb.V1_main_v7 m ρ c]
  rfl

/-- Region 3's second operand is the second projection of the launch arrays. -/
theorem V7_keys (c : Dev nD) :
    V7 m ρ c main_v12 = shapeCast S2x2048x1024 (Cert.Attn.linG (shapeCast S4096x1024 (m ((c.tc : Thread nD τ).loc main_arg1)) shapeCasts_S2x2048x1024_S4096x1024) (m ((c.tc : Thread nD τ).loc main_arg5)) (shapeCast S1x1024 (m ((c.tc : Thread nD τ).loc main_arg6)) shapeCasts_S1024_S1x1024)) shapeCasts_S4096x1024_S2x2048x1024 := by
  rw [Plumb.V7_main_v12 m ρ c, LinValue.final1 (V3 m ρ) c, Plumb.V3_main_v5 m ρ c, Plumb.V3_main_v1 m ρ c, Plumb.V3_main_v10 m ρ c]
  rfl

/-- Region 3's third operand is the third projection of the launch arrays. -/
theorem V7_values (c : Dev nD) :
    V7 m ρ c main_v15 = shapeCast S2x2048x1024 (Cert.Attn.linG (shapeCast S4096x1024 (m ((c.tc : Thread nD τ).loc main_arg2)) shapeCasts_S2x2048x1024_S4096x1024) (m ((c.tc : Thread nD τ).loc main_arg7)) (shapeCast S1x1024 (m ((c.tc : Thread nD τ).loc main_arg8)) shapeCasts_S1024_S1x1024)) shapeCasts_S4096x1024_S2x2048x1024 := by
  rw [Plumb.V7_main_v15 m ρ c, LinValue.final2 (V5 m ρ) c, Plumb.V5_main_v6 m ρ c, Plumb.V5_main_v2 m ρ c, Plumb.V5_main_v13 m ρ c]
  rfl

/-! ## The result -/

/-- The kernel's result buffer ends at the layer's result array, kernel's spelling, of the eleven launch arrays. -/
theorem result_eq (hpay : Cert.KernelIdeal.AttnRegion.PayloadSpec) (c : Dev nD) :
    W8 m ρ c (Proc.devRef .tc main_v17) = Cert.Attn.resultK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [Plumb.W8_main_v17 m ρ c, Cert.KernelIdeal.AttnRegion.final3 (V7 m ρ) hpay c,
    V7_queries m ρ c, V7_keys m ρ c, V7_values m ρ c, Plumb.V7_main_v3 m ρ c, Plumb.V7_main_v16 m ρ c]
  exact Cert.Attn.attnG_compose (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    shapeCasts_S2x2048x1024_S4096x1024 shapeCasts_S1024_S1x1024 shapeCasts_S4096x1024_S2x2048x1024

/-- Every weakly fair execution of the idealized kernel terminates without a fault, with the result buffer at the
    layer's result array (kernel's spelling) of the launch arrays and the eleven argument arrays as launched. -/
theorem run_value (hpay : Cert.KernelIdeal.AttnRegion.PayloadSpec) :
    θ_run defs (onTc (τ := τ) (main (F := Ideal))) ⟨m, fun _ => 0, ρ⟩ (fun r => ∀ c : Dev nD,
      r.2.mem ((c.tc : Thread nD τ).loc main_v17) = Cert.Attn.resultK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_eq m ρ hpay c), (h c).2⟩) (run_named m ρ)

end Cert.KernelIdeal.Named

end
-- ==== Proof.Consts.lean ====
/-
  The float words the two programs spell, as the extended reals they denote. An f32 word is a sign bit,
  an 8-bit exponent field E (bias 127) and a 23-bit fraction T; with 0 < E < 255 it denotes
  ±(2^23 + T) · 2^(E - 127 - 23), and with E = 255, T = 0 it denotes ±∞.

  All four evaluations are made in this one module; every other module reads them from here.
-/
import Idealize.ShloMosaic.PureOps.Ideal
import proofs.«103592_j11201274708414_2_alg».proof.Proof.Spec

noncomputable section

namespace Cert.Attn

open Idealize.ShloMosaic

/-- The f32 word 0x3E000000 (exponent field 124, fraction 0) denotes 2^(124-127) = 1/8. -/
theorem eighth_eq : eighth = ((1 / 8 : ℝ) : EReal) := by
  unfold eighth
  simp [Ideal.ofBits, Ideal.ieee, -EReal.coe_mul]; norm_num

/-- The f32 word 0x42800000 (exponent field 133, fraction 0) denotes 2^(133-127) = 64. -/
theorem word64_eq : Ideal.ofBits .f32 0x42800000#32 = ((64 : ℝ) : EReal) := by
  simp [Ideal.ofBits, Ideal.ieee, -EReal.coe_mul]; norm_num

/-- The square root of 64 is 8, because 64 = 8^2 and 8 is not negative. -/
theorem root64_eq : root64 = ((8 : ℝ) : EReal) := by
  have hs : Real.sqrt 64 = 8 := by
    rw [show (64 : ℝ) = 8 ^ 2 by norm_num]; exact Real.sqrt_sq (by norm_num)
  rw [root64, word64_eq, Ideal.sqrt_coe, if_neg (by norm_num), hs]

/-- The f32 word 0xFF800000 (sign bit set, exponent field 255, fraction 0) denotes -∞: the value a
    maximum over a row starts from. -/
theorem negInf_eq : Ideal.ofBits .f32 0xFF800000#32 = (⊥ : EReal) := by
  simp [Ideal.ofBits, Ideal.ieee]

end Cert.Attn

end
-- ==== Proof.RefValue1.lean ====
/-
  The reference program's result, read entry by entry, first part: from the arguments to the normalised weights.

  Each stage of the program is read at explicit coordinates (batch n, head h, positions s and k, lane dd, feature e)
  and identified with the corresponding quantity of the specification: the three linear layers, the split of the
  1024 features into 16 heads of 64 lanes, the scores, the row maximum, the normalised weights, the weighted sum of
  the values, the merge of the heads, and the output layer.
-/
import proofs.«103592_j11201274708414_2_alg».proof.Proof.Gen.ReferenceIdeal.Read
import proofs.«103592_j11201274708414_2_alg».proof.Proof.Arr
import proofs.«103592_j11201274708414_2_alg».proof.Proof.Consts

noncomputable section

namespace Cert.ReferenceIdeal.RefValue

open Cert.ReferenceIdeal Cert.ReferenceIdeal.Gen Cert.ReferenceIdeal.Read Cert.Attn
open Idealize.ShloMosaic Idealize.ShloMosaic.ValueIdx Idealize.ShloMosaic.TcCoe Idealize.SL.Sem
open scoped BigOperators

/-- An activation array of the program. -/
abbrev ArrS := (⟨S2x2048x1024, .f32⟩ : BufTy).Contents (Elt Ideal)
/-- A weight matrix of the program. -/
abbrev ArrM := (⟨S1024x1024, .f32⟩ : BufTy).Contents (Elt Ideal)
/-- A bias vector of the program. -/
abbrev ArrB := (⟨S1024, .f32⟩ : BufTy).Contents (Elt Ideal)

/-! ## The three linear layers -/

/-- The query projection at (n, s, e): the dot product of the input row with row e of the weight, plus the bias. -/
theorem v3_at (x : ArrS) (w : ArrM) (b : ArrB) (n : Fin 2) (s : Fin 2048) (e : Fin 1024) :
    val_main_v3 (F := Ideal) x w b (ix3 n s e) = proj (seqOf x) (matOf w) (biasOf b) n s e := by
  rw [val_main_v3_apply, val_main_v0_apply, val_main_v2_apply, val_main_v1_apply]
  show (∑ k : Fin 1024, x (lidx_main_v0 (ix3 n s e) k) * w (ridx_main_v0 (ix3 n s e) k))
      + b (idx_main_v1 (idx_main_v2 (ix3 n s e))) = (∑ d : Fin 1024, x (ix3 n s d) * w (ix2 e d)) + b (ix1 e)
  have hl : ∀ k : Fin 1024, lidx_main_v0 (ix3 n s e) k = ix3 n s k := fun k => funext fun a => by
    match a with
    | ⟨0, _⟩ => rfl
    | ⟨1, _⟩ => rfl
    | ⟨2, _⟩ => rfl
  have hr : ∀ k : Fin 1024, ridx_main_v0 (ix3 n s e) k = ix2 e k := fun k => funext fun a => by
    match a with
    | ⟨0, _⟩ => rfl
    | ⟨1, _⟩ => rfl
  have hb : idx_main_v1 (idx_main_v2 (ix3 n s e)) = ix1 e := funext fun a => by
    match a with
    | ⟨0, _⟩ => rfl
  rw [hb]
  exact congrArg (· + b (ix1 e)) (Finset.sum_congr rfl fun k _ => by rw [hl, hr])

/-- A linear layer of the specification on the program's argument arrays. -/
abbrev P (x : ArrS) (w : ArrM) (b : ArrB) : Seq := proj (seqOf x) (matOf w) (biasOf b)

/-- The key projection is the same function of its arguments as the query projection. -/
theorem v9_eq (x : ArrS) (w : ArrM) (b : ArrB) : val_main_v9 (F := Ideal) x w b = val_main_v3 (F := Ideal) x w b := rfl
/-- So is the value projection. -/
theorem v15_eq (x : ArrS) (w : ArrM) (b : ArrB) : val_main_v15 (F := Ideal) x w b = val_main_v3 (F := Ideal) x w b := rfl

/-! ## The split into heads -/

/-- Reshaped to [2, 2048, 16, 64] and transposed to [2, 16, 2048, 64], entry (n, h, s, dd) is the projection at
    position s and feature 64 h + dd. -/
theorem v5_at (x : ArrS) (w : ArrM) (b : ArrB) (n : Fin 2) (h : Fin 16) (s : Fin 2048) (dd : Fin 64) :
    val_main_v5 (F := Ideal) x w b (ix4 n h s dd) = P x w b n s (col h dd) := by
  rw [val_main_v5_apply, val_main_v4_apply]
  have hi : idx_main_v4 (idx_main_v5 (ix4 n h s dd)) = ix3 n s (col h dd) := funext fun a => Fin.ext (by
    have hn := n.isLt; have hh := h.isLt; have hs := s.isLt; have hd := dd.isLt
    match a with
    | ⟨0, _⟩ => show (((n.val * 2048 + s.val) * 16 + h.val) * 64 + dd.val) / 2097152 = n.val; omega
    | ⟨1, _⟩ => show (((n.val * 2048 + s.val) * 16 + h.val) * 64 + dd.val) / 1024 % 2048 = s.val; omega
    | ⟨2, _⟩ => show (((n.val * 2048 + s.val) * 16 + h.val) * 64 + dd.val) % 1024 = h.val * 64 + dd.val; omega)
  rw [hi]
  exact v3_at x w b n s (col h dd)

theorem v11_eq (x : ArrS) (w : ArrM) (b : ArrB) : val_main_v11 (F := Ideal) x w b = val_main_v5 (F := Ideal) x w b := rfl
theorem v17_eq (x : ArrS) (w : ArrM) (b : ArrB) : val_main_v17 (F := Ideal) x w b = val_main_v5 (F := Ideal) x w b := rfl

/-! ## The scores -/

/-- The dot product over the 64 lanes of head h, query position s against key position k. -/
theorem v18_at (x0 x1 : ArrS) (x3 : ArrM) (x4 : ArrB) (x5 : ArrM) (x6 : ArrB)
    (n : Fin 2) (h : Fin 16) (s k : Fin 2048) :
    val_main_v18 (F := Ideal) x0 x1 x3 x4 x5 x6 (ix4 n h s k) = qk (P x0 x3 x4) (P x1 x5 x6) n h s k := by
  rw [val_main_v18_apply, v11_eq]
  unfold qk
  refine Finset.sum_congr rfl fun dd _ => ?_
  have hl : lidx_main_v18 (ix4 n h s k) dd = ix4 n h s dd := funext fun a => by
    match a with
    | ⟨0, _⟩ => rfl
    | ⟨1, _⟩ => rfl
    | ⟨2, _⟩ => rfl
    | ⟨3, _⟩ => rfl
  have hr : ridx_main_v18 (ix4 n h s k) dd = ix4 n h k dd := funext fun a => by
    match a with
    | ⟨0, _⟩ => rfl
    | ⟨1, _⟩ => rfl
    | ⟨2, _⟩ => rfl
    | ⟨3, _⟩ => rfl
  rw [hl, hr, v5_at, v5_at]

/-- Divided by the square root of 64: the specification's scaled score. -/
theorem v21_at (x0 x1 : ArrS) (x3 : ArrM) (x4 : ArrB) (x5 : ArrM) (x6 : ArrB)
    (n : Fin 2) (h : Fin 16) (s k : Fin 2048) :
    val_main_v21 (F := Ideal) x0 x1 x3 x4 x5 x6 (ix4 n h s k) = scoreR (P x0 x3 x4) (P x1 x5 x6) n h s k := by
  rw [val_main_v21_apply, v18_at, val_main_v20_apply, val_main_v19_apply, val_main_cst_apply]
  rfl

/-! ## The row maximum -/

/-- Dropping the last axis of [2, 16, 2048, 2048] leaves [2, 16, 2048]. -/
theorem red3 : S2x16x2048x2048.Reduces [3] S2x16x2048 := by decide

/-- The row of scaled scores of query position s in head h. -/
abbrev row (x0 x1 : ArrS) (x3 : ArrM) (x4 : ArrB) (x5 : ArrM) (x6 : ArrB) (n : Fin 2) (h : Fin 16) (s : Fin 2048) :
    Fin 2048 → EReal := fun k => scoreR (P x0 x3 x4) (P x1 x5 x6) n h s k

/-- The reduction by maximum from -∞ across the key axis is the row's maximum. -/
theorem v22_at (x0 x1 : ArrS) (x3 : ArrM) (x4 : ArrB) (x5 : ArrM) (x6 : ArrB)
    (n : Fin 2) (h : Fin 16) (s : Fin 2048) :
    val_main_v22 (F := Ideal) x0 x1 x3 x4 x5 x6 (ix3 n h s) = rowMax (row x0 x1 x3 x4 x5 x6 n h s) := by
  unfold val_main_v22
  rw [Host.reduce_eq_fold_single FloatOps.maximumf _ _ reducesTo_S2x16x2048x2048_S2x16x2048_d3 red3 h_S_,
    val_main_cst_0_apply]
  show (Finset.univ : Finset (Fin 2048)).fold max (Ideal.ofBits .f32 0xFF800000#32)
      (val_main_v21 (F := Ideal) x0 x1 x3 x4 x5 x6 ∘ red3.lift (ix3 n h s)) = _
  rw [negInf_eq]
  unfold rowMax
  refine congrArg (fun f => (Finset.univ : Finset (Fin 2048)).fold max ⊥ f) (funext fun (k : Fin 2048) => ?_)
  have hi : red3.lift (ix3 n h s) k = ix4 n h s k := funext fun a => Fin.ext (by
    match a with
    | ⟨0, _⟩ => rfl
    | ⟨1, _⟩ => rfl
    | ⟨2, _⟩ => rfl
    | ⟨3, _⟩ => rfl)
  show val_main_v21 (F := Ideal) x0 x1 x3 x4 x5 x6 (red3.lift (ix3 n h s) k) = _
  rw [hi, v21_at]

/-- The maximum with -∞ changes nothing. -/
theorem v24_at (x0 x1 : ArrS) (x3 : ArrM) (x4 : ArrB) (x5 : ArrM) (x6 : ArrB)
    (n : Fin 2) (h : Fin 16) (s : Fin 2048) :
    val_main_v24 (F := Ideal) x0 x1 x3 x4 x5 x6 (ix3 n h s) = rowMax (row x0 x1 x3 x4 x5 x6 n h s) := by
  rw [val_main_v24_apply, v22_at, val_main_v23_apply, val_main_cst_1_apply]
  show max (Ideal.ofBits .f32 0xFF800000#32) _ = _
  rw [negInf_eq]
  exact max_eq_right bot_le

/-- Broadcast back along the key axis. -/
theorem v26_at (x0 x1 : ArrS) (x3 : ArrM) (x4 : ArrB) (x5 : ArrM) (x6 : ArrB)
    (n : Fin 2) (h : Fin 16) (s k : Fin 2048) :
    val_main_v26 (F := Ideal) x0 x1 x3 x4 x5 x6 (ix4 n h s k) = rowMax (row x0 x1 x3 x4 x5 x6 n h s) := by
  rw [val_main_v26_apply, val_main_v25_apply]
  have hi : idx_main_v25 (idx_main_v26 (ix4 n h s k)) = ix3 n h s := funext fun a => by
    match a with
    | ⟨0, _⟩ => rfl
    | ⟨1, _⟩ => rfl
    | ⟨2, _⟩ => rfl
  rw [hi, v24_at]

/-! ## The weights -/

/-- The exponential of the score less the row's maximum. -/
theorem v28_at (x0 x1 : ArrS) (x3 : ArrM) (x4 : ArrB) (x5 : ArrM) (x6 : ArrB)
    (n : Fin 2) (h : Fin 16) (s k : Fin 2048) :
    val_main_v28 (F := Ideal) x0 x1 x3 x4 x5 x6 (ix4 n h s k) = wgt (row x0 x1 x3 x4 x5 x6 n h s) k := by
  rw [val_main_v28_apply, val_main_v27_apply, v21_at, v26_at]
  rfl

/-- The normaliser: the sum of the row's weights. -/
theorem v29_at (x0 x1 : ArrS) (x3 : ArrM) (x4 : ArrB) (x5 : ArrM) (x6 : ArrB)
    (n : Fin 2) (h : Fin 16) (s : Fin 2048) :
    val_main_v29 (F := Ideal) x0 x1 x3 x4 x5 x6 (ix3 n h s) = ∑ k : Fin 2048, wgt (row x0 x1 x3 x4 x5 x6 n h s) k := by
  rw [val_main_v29_apply, val_main_cst_2_apply]
  show Ideal.ofBits .f32 0x00000000#32 + _ = _
  rw [Ideal.ofBits_zero_f32, zero_add]
  refine Finset.sum_congr rfl fun k _ => ?_
  have hi : idx_main_v29 (ix3 n h s) k = ix4 n h s k := funext fun a => by
    match a with
    | ⟨0, _⟩ => rfl
    | ⟨1, _⟩ => rfl
    | ⟨2, _⟩ => rfl
    | ⟨3, _⟩ => rfl
  rw [hi, v28_at]

/-- Broadcast back along the key axis. -/
theorem v31_at (x0 x1 : ArrS) (x3 : ArrM) (x4 : ArrB) (x5 : ArrM) (x6 : ArrB)
    (n : Fin 2) (h : Fin 16) (s k : Fin 2048) :
    val_main_v31 (F := Ideal) x0 x1 x3 x4 x5 x6 (ix4 n h s k) = ∑ k' : Fin 2048, wgt (row x0 x1 x3 x4 x5 x6 n h s) k' := by
  rw [val_main_v31_apply, val_main_v30_apply]
  have hi : idx_main_v30 (idx_main_v31 (ix4 n h s k)) = ix3 n h s := funext fun a => by
    match a with
    | ⟨0, _⟩ => rfl
    | ⟨1, _⟩ => rfl
    | ⟨2, _⟩ => rfl
  rw [hi, v29_at]

/-- The normalised weight. -/
theorem v32_at (x0 x1 : ArrS) (x3 : ArrM) (x4 : ArrB) (x5 : ArrM) (x6 : ArrB)
    (n : Fin 2) (h : Fin 16) (s k : Fin 2048) :
    val_main_v32 (F := Ideal) x0 x1 x3 x4 x5 x6 (ix4 n h s k)
      = Ideal.div (wgt (row x0 x1 x3 x4 x5 x6 n h s) k) (∑ k' : Fin 2048, wgt (row x0 x1 x3 x4 x5 x6 n h s) k') := by
  rw [val_main_v32_apply, v28_at, v31_at]
  rfl

end Cert.ReferenceIdeal.RefValue

end
-- ==== Proof.RefValue.lean ====
/-
  The reference program's result, second part: the weighted sum of the values, the merge of the heads, the output
  layer, and the whole result array as the specification's layer in the reference's spelling.
-/
import proofs.«103592_j11201274708414_2_alg».proof.Proof.RefValue1

noncomputable section

namespace Cert.ReferenceIdeal.RefValue

open Cert.ReferenceIdeal Cert.ReferenceIdeal.Gen Cert.ReferenceIdeal.Read Cert.Attn
open Idealize.ShloMosaic Idealize.ShloMosaic.ValueIdx Idealize.ShloMosaic.TcCoe Idealize.SL.Sem
open scoped BigOperators

/-! ## The weighted sum of the values, the merge of the heads, and the output layer -/

/-- Lane dd of head h at position s: the normalised weights against the value column of feature 64 h + dd. -/
theorem v33_at (x0 x1 x2 : ArrS) (x3 : ArrM) (x4 : ArrB) (x5 : ArrM) (x6 : ArrB) (x7 : ArrM) (x8 : ArrB)
    (n : Fin 2) (h : Fin 16) (s : Fin 2048) (dd : Fin 64) :
    val_main_v33 (F := Ideal) x0 x1 x2 x3 x4 x5 x6 x7 x8 (ix4 n h s dd)
      = headR (row x0 x1 x3 x4 x5 x6 n h s) (fun k => P x2 x7 x8 n k (col h dd)) := by
  rw [val_main_v33_apply, v17_eq]
  unfold headR
  refine Finset.sum_congr rfl fun k _ => ?_
  have hl : lidx_main_v33 (ix4 n h s dd) k = ix4 n h s k := funext fun a => by
    match a with
    | ⟨0, _⟩ => rfl
    | ⟨1, _⟩ => rfl
    | ⟨2, _⟩ => rfl
    | ⟨3, _⟩ => rfl
  have hr : ridx_main_v33 (ix4 n h s dd) k = ix4 n h k dd := funext fun a => by
    match a with
    | ⟨0, _⟩ => rfl
    | ⟨1, _⟩ => rfl
    | ⟨2, _⟩ => rfl
    | ⟨3, _⟩ => rfl
  rw [hl, hr, v32_at, v5_at]

/-- The lane of a feature inside its head. -/
def lane (e : Fin 1024) : Fin 64 := ⟨e.val % 64, Nat.mod_lt _ (by decide)⟩

/-- A feature is lane `lane e` of head `hd e`. -/
theorem col_hd_lane (e : Fin 1024) : col (hd e) (lane e) = e :=
  Fin.ext (by show e.val / 64 * 64 + e.val % 64 = e.val; omega)

/-- Transposed back and reshaped to [2, 2048, 1024], entry (n, s, e) is the attention context. -/
theorem v35_at (x0 x1 x2 : ArrS) (x3 : ArrM) (x4 : ArrB) (x5 : ArrM) (x6 : ArrB) (x7 : ArrM) (x8 : ArrB)
    (n : Fin 2) (s : Fin 2048) (e : Fin 1024) :
    val_main_v35 (F := Ideal) x0 x1 x2 x3 x4 x5 x6 x7 x8 (ix3 n s e)
      = ctxR (P x0 x3 x4) (P x1 x5 x6) (P x2 x7 x8) n s e := by
  rw [val_main_v35_apply, val_main_v34_apply]
  have hi : idx_main_v34 (idx_main_v35 (ix3 n s e)) = ix4 n (hd e) s (lane e) := funext fun a => Fin.ext (by
    have hn := n.isLt; have hs := s.isLt; have he := e.isLt
    match a with
    | ⟨0, _⟩ => show ((n.val * 2048 + s.val) * 1024 + e.val) / 2097152 = n.val; omega
    | ⟨1, _⟩ => show ((n.val * 2048 + s.val) * 1024 + e.val) / 64 % 16 = e.val / 64; omega
    | ⟨2, _⟩ => show ((n.val * 2048 + s.val) * 1024 + e.val) / 1024 % 2048 = s.val; omega
    | ⟨3, _⟩ => show ((n.val * 2048 + s.val) * 1024 + e.val) % 64 = e.val % 64; omega)
  rw [hi, v33_at, col_hd_lane]
  rfl

/-- The output layer on the context: the whole layer in the reference's spelling. -/
theorem v39_at (x0 x1 x2 : ArrS) (x3 : ArrM) (x4 : ArrB) (x5 : ArrM) (x6 : ArrB) (x7 : ArrM) (x8 : ArrB)
    (x9 : ArrM) (x10 : ArrB) (n : Fin 2) (s : Fin 2048) (e : Fin 1024) :
    val_main_v39 (F := Ideal) x0 x1 x2 x3 x4 x5 x6 x7 x8 x9 x10 (ix3 n s e)
      = attnR (seqOf x0) (seqOf x1) (seqOf x2) (matOf x3) (biasOf x4) (matOf x5) (biasOf x6) (matOf x7) (biasOf x8)
          (matOf x9) (biasOf x10) n s e := by
  rw [val_main_v39_apply, val_main_v36_apply, val_main_v38_apply, val_main_v37_apply]
  show (∑ k : Fin 1024, val_main_v35 (F := Ideal) x0 x1 x2 x3 x4 x5 x6 x7 x8 (lidx_main_v36 (ix3 n s e) k)
        * x9 (ridx_main_v36 (ix3 n s e) k)) + x10 (idx_main_v37 (idx_main_v38 (ix3 n s e)))
      = (∑ d : Fin 1024, ctxR (P x0 x3 x4) (P x1 x5 x6) (P x2 x7 x8) n s d * x9 (ix2 e d)) + x10 (ix1 e)
  have hl : ∀ k : Fin 1024, lidx_main_v36 (ix3 n s e) k = ix3 n s k := fun k => funext fun a => by
    match a with
    | ⟨0, _⟩ => rfl
    | ⟨1, _⟩ => rfl
    | ⟨2, _⟩ => rfl
  have hr : ∀ k : Fin 1024, ridx_main_v36 (ix3 n s e) k = ix2 e k := fun k => funext fun a => by
    match a with
    | ⟨0, _⟩ => rfl
    | ⟨1, _⟩ => rfl
  have hb : idx_main_v37 (idx_main_v38 (ix3 n s e)) = ix1 e := funext fun a => by
    match a with
    | ⟨0, _⟩ => rfl
  rw [hb]
  exact congrArg (· + x10 (ix1 e)) (Finset.sum_congr rfl fun k _ => by rw [hl, hr, v35_at])

/-! ## The whole array -/

/-- The reference program's result array is the specification's, reference's spelling, of the eleven argument arrays. -/
theorem result_eq (a0 a1 a2 : ArrS) (a3 : ArrM) (a4 : ArrB) (a5 : ArrM) (a6 : ArrB) (a7 : ArrM) (a8 : ArrB)
    (a9 : ArrM) (a10 : ArrB) :
    val_main_v39 (F := Ideal) a0 a1 a2 a3 a4 a5 a6 a7 a8 a9 a10 = resultR a0 a1 a2 a3 a4 a5 a6 a7 a8 a9 a10 := by
  funext i
  obtain ⟨n, s, e, rfl⟩ : ∃ (n : Fin 2) (s : Fin 2048) (e : Fin 1024), i = ix3 n s e :=
    ⟨i 0, i 1, i 2, eq_ix3 (n0 := 2) (n1 := 2048) (n2 := 1024) i⟩
  rw [v39_at]
  rfl

/-- The run's result term is that array of the launch contents of the eleven arguments. -/
theorem res_eq (m : (ℓ : Loc nD τ sig) → Buf (Elt Ideal) ℓ) (c : Dev nD) :
    Cert.ReferenceIdeal.Value.res_main_v39 m c
      = resultR (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) :=
  (val_main_v39_eq (F := Ideal) m c).trans (result_eq _ _ _ _ _ _ _ _ _ _ _)

end Cert.ReferenceIdeal.RefValue

end
-- ==== Proof.LibRealSum.lean ====
/-
  Real numbers inside the extended reals: they are closed under sums, products, maxima and finite sums,
  and on them a weighted sum of matrix-vector products may be exchanged with the matrix-vector product of
  the weighted sums. A sum over 136 consecutive coordinates is also split into blocks of 64, 64 and 8.
-/
import Idealize.ShloMosaic.PureOps.Ideal

noncomputable section

namespace Cert.RealSum

/-- An extended real that is a real number. -/
def IsReal (x : EReal) : Prop := ∃ r : ℝ, x = (r : EReal)

/-- Zero is a real number. -/
theorem isReal_zero : IsReal 0 := ⟨0, EReal.coe_zero.symm⟩

/-- The image of a real number in the extended reals is a real number. -/
theorem isReal_coe (r : ℝ) : IsReal (r : EReal) := ⟨r, rfl⟩

/-- The sum of two real numbers is a real number. -/
theorem IsReal.add {x y : EReal} (hx : IsReal x) (hy : IsReal y) : IsReal (x + y) := by
  obtain ⟨p, rfl⟩ := hx
  obtain ⟨q, rfl⟩ := hy
  exact ⟨p + q, (EReal.coe_add p q).symm⟩

/-- The product of two real numbers is a real number. -/
theorem IsReal.mul {x y : EReal} (hx : IsReal x) (hy : IsReal y) : IsReal (x * y) := by
  obtain ⟨p, rfl⟩ := hx
  obtain ⟨q, rfl⟩ := hy
  exact ⟨p * q, (EReal.coe_mul p q).symm⟩

/-- The larger of two real numbers is a real number, because it is one of the two. -/
theorem IsReal.max {x y : EReal} (hx : IsReal x) (hy : IsReal y) : IsReal (max x y) := by
  rcases max_choice x y with h | h
  · rw [h]; exact hx
  · rw [h]; exact hy

/-- A finite sum of real numbers is a real number. -/
theorem isReal_sum {ι : Type} (s : Finset ι) (f : ι → EReal) (h : ∀ e ∈ s, IsReal (f e)) :
    IsReal (∑ e ∈ s, f e) :=
  Finset.sum_induction f IsReal (fun _ _ hx hy => hx.add hy) isReal_zero h

/-- An extended real that is neither plus nor minus infinity is a real number. -/
theorem isReal_of_ne_top_of_ne_bot {x : EReal} (ht : x ≠ ⊤) (hb : x ≠ ⊥) : IsReal x :=
  ⟨x.toReal, (EReal.coe_toReal ht hb).symm⟩

/-- A nonnegative extended real other than plus infinity is a real number: being at least zero, it is
    not minus infinity either. -/
theorem isReal_of_nonneg_of_ne_top {x : EReal} (h0 : 0 ≤ x) (ht : x ≠ ⊤) : IsReal x :=
  isReal_of_ne_top_of_ne_bot ht (lt_of_lt_of_le EReal.bot_lt_zero h0).ne'

/-- The image of a finite sum of real numbers is the sum of the images. -/
private theorem coe_sum {ι : Type} (s : Finset ι) (g : ι → ℝ) :
    ((∑ e ∈ s, g e : ℝ) : EReal) = ∑ e ∈ s, (g e : EReal) := by
  classical
  induction s using Finset.induction_on with
  | empty => rw [Finset.sum_empty, Finset.sum_empty, EReal.coe_zero]
  | insert b t hb ih => rw [Finset.sum_insert hb, Finset.sum_insert hb, EReal.coe_add, ih]

/-- The exchange law over the real numbers: both sides expand to the double sum of `a e k * w k * c e`,
    summed in the two possible orders. -/
private theorem commute_real {ι κ : Type} [Fintype κ] (s : Finset ι) (a : ι → κ → ℝ) (w : κ → ℝ)
    (c : ι → ℝ) :
    ∑ e ∈ s, (∑ k, a e k * w k) * c e = ∑ k, (∑ e ∈ s, a e k * c e) * w k := by
  simp only [Finset.sum_mul]
  rw [Finset.sum_comm]
  refine Finset.sum_congr rfl (fun k _ => Finset.sum_congr rfl (fun e _ => ?_))
  exact mul_right_comm (a e k) (w k) (c e)

/-- THE COMMUTE LAW: a weighted sum over edges of matrix-vector products is the matrix-vector product of
    the weighted sums, when every entry is real. Both edge sums start from zero, as a scatter-add into a
    zero array does. -/
theorem commute {ι κ : Type} [Fintype κ] (s : Finset ι) (a : ι → κ → EReal) (w : κ → EReal)
    (c : ι → EReal) (ha : ∀ e k, IsReal (a e k)) (hw : ∀ k, IsReal (w k)) (hc : ∀ e, IsReal (c e)) :
    (0 + ∑ e ∈ s, (∑ k, a e k * w k) * c e) = ∑ k, (0 + ∑ e ∈ s, a e k * c e) * w k := by
  choose a' ha' using ha
  choose w' hw' using hw
  choose c' hc' using hc
  -- every entry is the image of a real number, so both sides are images of real expressions
  have hL : (0 + ∑ e ∈ s, (∑ k, a e k * w k) * c e)
      = ((∑ e ∈ s, (∑ k, a' e k * w' k) * c' e : ℝ) : EReal) := by
    rw [zero_add, coe_sum]
    refine Finset.sum_congr rfl (fun e _ => ?_)
    rw [EReal.coe_mul, coe_sum, hc' e]
    congr 1
    refine Finset.sum_congr rfl (fun k _ => ?_)
    rw [EReal.coe_mul, ha' e k, hw' k]
  have hR : (∑ k, (0 + ∑ e ∈ s, a e k * c e) * w k)
      = ((∑ k, (∑ e ∈ s, a' e k * c' e) * w' k : ℝ) : EReal) := by
    rw [coe_sum]
    refine Finset.sum_congr rfl (fun k _ => ?_)
    rw [zero_add, EReal.coe_mul, coe_sum, hw' k]
    congr 1
    refine Finset.sum_congr rfl (fun e _ => ?_)
    rw [EReal.coe_mul, ha' e k, hc' e]
  rw [hL, hR, commute_real s a' w' c']

/-- A sum over 136 coordinates split as 64 + 64 + 8 consecutive coordinates, grouped
    (first + second) + third. -/
theorem sum_split_136 (f : Fin 136 → EReal) :
    ∑ q : Fin 136, f q
      = (∑ q : Fin 64, f ⟨q.val, by omega⟩ + ∑ q : Fin 64, f ⟨64 + q.val, by omega⟩)
        + ∑ q : Fin 8, f ⟨128 + q.val, by omega⟩ := by
  have h1 : ∑ q : Fin (64 + 64 + 8), f q
      = ∑ q : Fin (64 + 64), f (Fin.castAdd 8 q) + ∑ q : Fin 8, f (Fin.natAdd (64 + 64) q) :=
    Fin.sum_univ_add (fun q : Fin (64 + 64 + 8) => f q)
  have h2 : ∑ q : Fin (64 + 64), f (Fin.castAdd 8 q)
      = ∑ q : Fin 64, f (Fin.castAdd 8 (Fin.castAdd 64 q))
        + ∑ q : Fin 64, f (Fin.castAdd 8 (Fin.natAdd 64 q)) :=
    Fin.sum_univ_add (fun q : Fin (64 + 64) => f (Fin.castAdd 8 q))
  rw [h2] at h1
  exact h1

end Cert.RealSum
-- ==== Proof.Algebra.lean ====
/-
  The two spellings of the attention layer of Spec.lean agree when every input is a real number.

  Three facts carry the proof.
    * The scaling: the f32 word 0x3E000000 denotes 1/8, the word 0x42800000 denotes 64 and its square
      root is 8, and dividing by the real 8 is multiplying by 1/8 at every extended real. So the two
      scaled scores are the same number whatever the unscaled score is.
    * The softmax: on a row of real scores the row's maximum is one of the scores, hence real; every
      weight is the exponential of a real number, a positive real; the normaliser, a finite sum of
      positive reals over a non-empty index set, is a positive real L. Over the reals
      (sum_k w_k v_k) * (1/L) = sum_k (w_k * (1/L)) * v_k, which is the distributive law.
    * The linear layers: finite sums of products of reals are real, so the projected queries, keys
      and values are real and the two facts above apply to them.
-/
import Mathlib.Data.Finset.Fold
import proofs.«103592_j11201274708414_2_alg».proof.Proof.Spec
import proofs.«103592_j11201274708414_2_alg».proof.Proof.Consts
import proofs.«103592_j11201274708414_2_alg».proof.Proof.LibRealSum

noncomputable section

namespace Cert.Attn

open Idealize.ShloMosaic Cert.RealSum
open scoped BigOperators

/-! ## The scaling (the two constants are evaluated in Consts.lean) -/

/-- The two scaled scores are the same number, for every extended real the unscaled score may be:
    dividing by the nonzero real 8 is multiplying by 1/8. -/
theorem scoreK_eq_scoreR (Qp Kp : Seq) (n : Fin 2) (h : Fin 16) (s k : Fin 2048) :
    scoreK Qp Kp n h s k = scoreR Qp Kp n h s k := by
  rw [scoreK, scoreR, eighth_eq, root64_eq, Ideal.div_coe (by norm_num : (8 : ℝ) ≠ 0)]

/-! ## Real numbers through the linear layers and the scores -/

/-- A linear layer applied to real inputs with real weights and biases gives real numbers. -/
theorem proj_real (X : Seq) (W : Mat) (b : Bias) (hX : ∀ n s d, ∃ r : ℝ, X n s d = (r : EReal))
    (hW : ∀ e d, ∃ r : ℝ, W e d = (r : EReal)) (hb : ∀ e, ∃ r : ℝ, b e = (r : EReal))
    (n : Fin 2) (s : Fin 2048) (e : Fin 1024) : ∃ r : ℝ, proj X W b n s e = (r : EReal) :=
  IsReal.add (isReal_sum _ _ fun d _ => IsReal.mul (hX n s d) (hW e d)) (hb e)

/-- The unscaled score of real queries and keys is a real number. -/
theorem qk_real (Qp Kp : Seq) (hQ : ∀ n s d, ∃ r : ℝ, Qp n s d = (r : EReal))
    (hK : ∀ n s d, ∃ r : ℝ, Kp n s d = (r : EReal)) (n : Fin 2) (h : Fin 16) (s k : Fin 2048) :
    ∃ r : ℝ, qk Qp Kp n h s k = (r : EReal) :=
  isReal_sum _ _ fun dd _ => IsReal.mul (hQ n s (col h dd)) (hK n k (col h dd))

/-- The scaled score (kernel's spelling) of real queries and keys is a real number. -/
theorem scoreK_real (Qp Kp : Seq) (hQ : ∀ n s d, ∃ r : ℝ, Qp n s d = (r : EReal))
    (hK : ∀ n s d, ∃ r : ℝ, Kp n s d = (r : EReal)) (n : Fin 2) (h : Fin 16) (s k : Fin 2048) :
    ∃ r : ℝ, scoreK Qp Kp n h s k = (r : EReal) := by
  rw [scoreK, eighth_eq]
  exact IsReal.mul (qk_real Qp Kp hQ hK n h s k) (isReal_coe _)

/-! ## The softmax on a row of real scores -/

/-- A finite sum of real numbers, taken in the extended reals, is the real sum. -/
theorem coe_sum_real {ι : Type} (t : Finset ι) (g : ι → ℝ) :
    (∑ k ∈ t, (g k : EReal)) = ((∑ k ∈ t, g k : ℝ) : EReal) := by
  classical
  induction t using Finset.induction_on with
  | empty => rw [Finset.sum_empty, Finset.sum_empty, EReal.coe_zero]
  | insert a t ha ih => rw [Finset.sum_insert ha, Finset.sum_insert ha, ih, EReal.coe_add]

/-- Every score is at most the row's maximum. -/
theorem le_rowMax (sc : Fin 2048 → EReal) (k : Fin 2048) : sc k ≤ rowMax sc :=
  (Finset.le_fold_max (sc k)).mpr (Or.inr ⟨k, Finset.mem_univ k, le_rfl⟩)

/-- The maximum of a row of real scores is a real number: the fold of max from -∞ is -∞ or one of
    the scores, and it is not -∞ because it is at least the first score. -/
theorem rowMax_real (sc : Fin 2048 → EReal) (hsc : ∀ k, ∃ r : ℝ, sc k = (r : EReal)) :
    ∃ m : ℝ, rowMax sc = (m : EReal) := by
  rcases (Finset.le_fold_max (rowMax sc)).mp (le_refl (rowMax sc)) with h0 | ⟨x, -, hx⟩
  · obtain ⟨r, hr⟩ := hsc 0
    have h1 : sc 0 ≤ ⊥ := le_trans (le_rowMax sc 0) h0
    rw [hr] at h1
    exact absurd (le_bot_iff.mp h1) (EReal.coe_ne_bot r)
  · obtain ⟨r, hr⟩ := hsc x
    exact ⟨r, by rw [← hr]; exact le_antisymm hx (le_rowMax sc x)⟩

/-- Each unnormalised weight on a row of real scores is a positive real number, the exponential of
    a real number. -/
theorem wgt_real (sc : Fin 2048 → EReal) (hsc : ∀ k, ∃ r : ℝ, sc k = (r : EReal)) (k : Fin 2048) :
    ∃ w : ℝ, 0 < w ∧ wgt sc k = (w : EReal) := by
  obtain ⟨m, hm⟩ := rowMax_real sc hsc
  obtain ⟨r, hr⟩ := hsc k
  exact ⟨Real.exp (r - m), Real.exp_pos _, by rw [wgt, hm, hr, ← EReal.coe_sub, Ideal.exp_coe]⟩

/-- Over the reals, dividing a weighted sum by a nonzero normaliser is the weighted sum with every
    weight divided first: both are sum_k w_k * u_k * (1/L). -/
theorem div_sum_real {ι : Type} [Fintype ι] (w u : ι → ℝ) (L : ℝ) (hL : L ≠ 0) :
    Ideal.div (∑ k, (w k : EReal) * (u k : EReal)) (L : EReal)
      = ∑ k, Ideal.div (w k : EReal) (L : EReal) * (u k : EReal) := by
  rw [Ideal.div_coe hL]
  simp only [Ideal.div_coe hL, ← EReal.coe_mul]
  rw [coe_sum_real, coe_sum_real, ← EReal.coe_mul, Finset.sum_mul]
  congr 1
  exact Finset.sum_congr rfl fun k _ => by ring

/-- One output entry of a head is the same number in both orders, on a row of real scores and a
    column of real values. -/
theorem headK_eq_headR (sc v : Fin 2048 → EReal) (hsc : ∀ k, ∃ r : ℝ, sc k = (r : EReal))
    (hv : ∀ k, ∃ r : ℝ, v k = (r : EReal)) : headK sc v = headR sc v := by
  choose w hw0 hw using wgt_real sc hsc
  choose u hu using hv
  -- the normaliser is a positive real: a sum of positive reals over a non-empty index set
  have hL : (∑ k : Fin 2048, w k) ≠ 0 :=
    (Finset.sum_pos (fun k _ => hw0 k) ⟨0, Finset.mem_univ _⟩).ne'
  unfold headK headR
  simp only [hw, hu]
  rw [coe_sum_real]
  exact div_sum_real w u _ hL

/-! ## The context and the whole layer -/

/-- The attention context is the same array in both spellings when the projected queries, keys and
    values are real. -/
theorem ctxK_eq_ctxR (Qp Kp Vp : Seq) (hQ : ∀ n s d, ∃ r : ℝ, Qp n s d = (r : EReal))
    (hK : ∀ n s d, ∃ r : ℝ, Kp n s d = (r : EReal)) (hV : ∀ n s d, ∃ r : ℝ, Vp n s d = (r : EReal)) :
    ctxK Qp Kp Vp = ctxR Qp Kp Vp := by
  funext n s e
  unfold ctxK ctxR
  rw [show (fun k => scoreR Qp Kp n (hd e) s k) = fun k => scoreK Qp Kp n (hd e) s k from
    funext fun k => (scoreK_eq_scoreR Qp Kp n (hd e) s k).symm]
  exact headK_eq_headR _ _ (fun k => scoreK_real Qp Kp hQ hK n (hd e) s k) (fun k => hV n k e)

/-- THE LAYER: the kernel's spelling and the reference's spelling are the same array when the three
    activation arrays and the query, key and value weights and biases are real. The output weights
    and bias need no hypothesis: both spellings apply the same output layer to the context. -/
theorem attnK_eq_attnR (q k v : Seq) (Wq : Mat) (bq : Bias) (Wk : Mat) (bk : Bias) (Wv : Mat) (bv : Bias)
    (Wo : Mat) (bo : Bias)
    (hq : ∀ n s d, ∃ r : ℝ, q n s d = (r : EReal)) (hk : ∀ n s d, ∃ r : ℝ, k n s d = (r : EReal))
    (hv : ∀ n s d, ∃ r : ℝ, v n s d = (r : EReal))
    (hWq : ∀ e d, ∃ r : ℝ, Wq e d = (r : EReal)) (hbq : ∀ e, ∃ r : ℝ, bq e = (r : EReal))
    (hWk : ∀ e d, ∃ r : ℝ, Wk e d = (r : EReal)) (hbk : ∀ e, ∃ r : ℝ, bk e = (r : EReal))
    (hWv : ∀ e d, ∃ r : ℝ, Wv e d = (r : EReal)) (hbv : ∀ e, ∃ r : ℝ, bv e = (r : EReal)) :
    attnK q k v Wq bq Wk bk Wv bv Wo bo = attnR q k v Wq bq Wk bk Wv bv Wo bo := by
  unfold attnK attnR
  rw [ctxK_eq_ctxR _ _ _ (proj_real q Wq bq hq hWq hbq) (proj_real k Wk bk hk hWk hbk)
    (proj_real v Wv bv hv hWv hbv)]

end Cert.Attn

end
-- ==== Proof.LibFiniteAll.lean ====
/-
  A printed "every entry is finite" test, read back on the extended reals.

  The test `all(|x| < +inf)` prints as: the absolute value of every entry, compared (ordered, less-than) with the
  broadcast of the single-precision word of plus infinity, and the resulting array of truth values reduced by `and`
  into a result that has one index. On the extended reals the absolute value is `max x (-x)` and the word
  0x7F800000 (sign 0, exponent field all ones, mantissa 0) denotes plus infinity. So an entry passes the comparison
  exactly when it is neither plus nor minus infinity, that is, when it is a real number; and a reduction by `and`
  that came out 1 met a 1 at every entry.
-/
import Idealize.ShloMosaic.PureOps.Ideal
import Idealize.ShloMosaic.Lib.ReduceAll

namespace Cert.FiniteAll

open Idealize.ShloMosaic

/-- The single-precision word with sign 0, exponent field all ones and mantissa 0 denotes plus infinity. -/
theorem ofBits_inf_f32 : Ideal.ofBits .f32 0x7F800000#32 = (⊤ : EReal) := by
  simp [Ideal.ofBits, Ideal.ieee]

/-- An extended real whose absolute value `max x (-x)` lies below plus infinity is a real number: plus infinity
    is its own absolute value, and the negative of minus infinity is plus infinity. -/
theorem exists_real_of_abs_lt_top {x : EReal} (h : max x (-x) < ⊤) : ∃ r : ℝ, x = (r : EReal) := by
  induction x using EReal.rec with
  | bot => simp at h
  | coe r => exact ⟨r, rfl⟩
  | top => simp at h

/-- One entry: if the ordered comparison `|x| < +inf` answers 1, then `x` is a real number. -/
theorem exists_real_of_cmp (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  by_cases hlt : max (x : EReal) (-(x : EReal)) < ⊤
  · exact exists_real_of_abs_lt_top hlt
  · simp [hlt] at h'

/-- THE ARRAY FACT: if `|x| < +inf`, taken entry by entry against the broadcast word of plus infinity and reduced
    by `and` into a result with one index, is 1, then every entry of `x` is a real number. The shape of `x`, the
    reduced axes, the shape the constant is broadcast from and the reduction's starting value are arbitrary. -/
theorem all_real_of_reduce_and {s t u z : Shape} {axes : List (Fin s.rank)} [Subsingleton t.Idx]
    (x : FVec Ideal s .f32) (dims : Fin z.rank → Fin s.rank) (hb : z.BroadcastsInDim s dims)
    (init : u.Idx → BitVec 1) (hr : s.ReducesTo axes t) (hu : 0 < u.numel) (j : t.Idx)
    (e : Host.reduce IntOp.andi
          (cmpf .olt (Host.absf x) (broadcastInDim s dims hb (constant (F := Ideal) z .f32 0x7F800000#32)))
          init hr hu j = 1#1)
    (i : s.Idx) : ∃ r : ℝ, (x i : EReal) = (r : EReal) :=
  exists_real_of_cmp (x i) (Host.reduce_andi_all _ init hr hu j e i)

end Cert.FiniteAll
-- ==== Proof.PreReal.lean ====
/-
  The precondition, read back: every input array holds real numbers.

  The printed precondition tests each of the eleven input arrays with "all(|x| < +inf)" — the absolute value of
  every entry compared (ordered, less-than) with the single-precision word of plus infinity, the truth values
  reduced by `and` over all axes — and joins the eleven answers by `and`. If the joined answer is 1 then each of
  the eleven answers is 1 (an `and` of two one-bit words is 1 exactly when both are), and an "all(|x| < +inf)"
  that answers 1 says every entry of x, read on the extended reals, is neither plus nor minus infinity: it is a
  real number.
-/
import proofs.«103592_j11201274708414_2_alg».proof.Pre_finite_inputs
import proofs.«103592_j11201274708414_2_alg».proof.Proof.Gen.Pre_finite_inputs
import proofs.«103592_j11201274708414_2_alg».proof.Proof.LibFiniteAll
import Idealize.ShloMosaic.Lib.ValueIdx
import Idealize.ShloMosaic.Lib.Affine

noncomputable section

namespace Cert.Attn.PreReal

open Idealize.ShloMosaic Cert.Pre_finite_inputs

/-- The shape of rank 0 has exactly one index (the function out of the empty set of axes). -/
instance subsingleton_scalar_idx : Subsingleton S_.Idx := ⟨fun _ _ => funext fun d => d.elim0⟩

/-- If the printed precondition answers 1 on the eleven input arrays, every entry of every one of them is a real
    number. -/
theorem all_real [Facts]
    (a0 a1 a2 : FVec Ideal S2x2048x1024 .f32) (a3 : FVec Ideal S1024x1024 .f32) (a4 : FVec Ideal S1024 .f32)
    (a5 : FVec Ideal S1024x1024 .f32) (a6 : FVec Ideal S1024 .f32) (a7 : FVec Ideal S1024x1024 .f32)
    (a8 : FVec Ideal S1024 .f32) (a9 : FVec Ideal S1024x1024 .f32) (a10 : FVec Ideal S1024 .f32)
    (h : Cert.Pre_finite_inputs.fn (F := Ideal) a0 a1 a2 a3 a4 a5 a6 a7 a8 a9 a10 = (fun _ => 1#1)) :
    (∀ i, ∃ r : ℝ, (a0 i : EReal) = (r : EReal)) ∧ (∀ i, ∃ r : ℝ, (a1 i : EReal) = (r : EReal))
    ∧ (∀ i, ∃ r : ℝ, (a2 i : EReal) = (r : EReal)) ∧ (∀ i, ∃ r : ℝ, (a3 i : EReal) = (r : EReal))
    ∧ (∀ i, ∃ r : ℝ, (a4 i : EReal) = (r : EReal)) ∧ (∀ i, ∃ r : ℝ, (a5 i : EReal) = (r : EReal))
    ∧ (∀ i, ∃ r : ℝ, (a6 i : EReal) = (r : EReal)) ∧ (∀ i, ∃ r : ℝ, (a7 i : EReal) = (r : EReal))
    ∧ (∀ i, ∃ r : ℝ, (a8 i : EReal) = (r : EReal)) ∧ (∀ i, ∃ r : ℝ, (a9 i : EReal) = (r : EReal))
    ∧ (∀ i, ∃ r : ℝ, (a10 i : EReal) = (r : EReal)) := by
  -- the joined answer at the one index of the rank-0 result
  have e := congrFun h ValueIdx.ix0
  dsimp only [fn, fn_part1, fn_part2, fn_part3, andi] at e
  -- the join is a left-nested chain of ten `and`s: peel the answers off from the last array to the first
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  -- each answer is an "all(|x| < +inf)" that came out 1
  exact ⟨Cert.FiniteAll.all_real_of_reduce_and a0 _ _ _ _ _ _ e0,
    Cert.FiniteAll.all_real_of_reduce_and a1 _ _ _ _ _ _ e1,
    Cert.FiniteAll.all_real_of_reduce_and a2 _ _ _ _ _ _ e2,
    Cert.FiniteAll.all_real_of_reduce_and a3 _ _ _ _ _ _ e3,
    Cert.FiniteAll.all_real_of_reduce_and a4 _ _ _ _ _ _ e4,
    Cert.FiniteAll.all_real_of_reduce_and a5 _ _ _ _ _ _ e5,
    Cert.FiniteAll.all_real_of_reduce_and a6 _ _ _ _ _ _ e6,
    Cert.FiniteAll.all_real_of_reduce_and a7 _ _ _ _ _ _ e7,
    Cert.FiniteAll.all_real_of_reduce_and a8 _ _ _ _ _ _ e8,
    Cert.FiniteAll.all_real_of_reduce_and a9 _ _ _ _ _ _ e9,
    Cert.FiniteAll.all_real_of_reduce_and a10 _ _ _ _ _ _ e10⟩

end Cert.Attn.PreReal

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibAxisFold.lean ====
/-
  The maximum down a column, the maximum along a row and the sum along a row of a matrix, each read at one
  index.

  An [a, b] array of extended reals reduced by `max` along axis 0 (down its rows), from the value a starting
  word denotes, holds at column l the fold of `max` from that value over the entries (k, l), k < a; reduced
  along axis 1 it holds at row p the fold over the entries (p, k), k < b; and reduced by addition along axis 1
  from a zero starting value it holds at row p the finite sum of the entries (p, k). (The sum down a column is
  the companion file's.) Stated with the operation's own proof arguments as variables, so that a printed
  reduction meets each lemma in term mode whatever proofs it carries. Depends on no program.
-/
import Idealize.ShloMosaic.Lib.ValueIdx
import Idealize.ShloMosaic.PureOps.Ideal.Laws

noncomputable section

namespace Cert.AxisFold

open Idealize.ShloMosaic Idealize.ShloMosaic.ValueIdx

/-- The maximum of column `l` of an [a, b] array over its `a` rows, folded from the value of the word `acc`. -/
theorem column_max {a b : ℕ} (v : FVec Ideal ⟨2, ![a, b]⟩ .f32) (acc : BitVec (FTy.f32).bits)
    (h : (⟨2, ![a, b]⟩ : Shape).Reduces [0] ⟨1, ![b]⟩)
    (hφ : FKind.Formats .f32) (hacc : acc = FKind.maximumf.neutral .f32 hφ) (l : Fin b) :
    multiReduction .maximumf [0] ⟨1, ![b]⟩ v acc h hφ hacc (ix1 l)
      = (Finset.univ : Finset (Fin a)).fold max (Ideal.ofBits .f32 acc) fun k => v (ix2 k l) :=
  (Ideal.multiReduction_maximumf_single v acc h hφ hacc (ix1 l)).trans
    (congrArg (fun f => Finset.fold max (Ideal.ofBits .f32 acc) f (Finset.univ : Finset (Fin a)))
      (funext fun k => congrArg v (funext fun c => Fin.ext (by
        match c with
        | ⟨0, _⟩ => rfl
        | ⟨1, _⟩ => rfl))))

/-- The maximum of row `p` of an [a, b] array over its `b` columns, folded from the value of the word `acc`. -/
theorem row_max {a b : ℕ} (v : FVec Ideal ⟨2, ![a, b]⟩ .f32) (acc : BitVec (FTy.f32).bits)
    (h : (⟨2, ![a, b]⟩ : Shape).Reduces [1] ⟨1, ![a]⟩)
    (hφ : FKind.Formats .f32) (hacc : acc = FKind.maximumf.neutral .f32 hφ) (p : Fin a) :
    multiReduction .maximumf [1] ⟨1, ![a]⟩ v acc h hφ hacc (ix1 p)
      = (Finset.univ : Finset (Fin b)).fold max (Ideal.ofBits .f32 acc) fun k => v (ix2 p k) :=
  (Ideal.multiReduction_maximumf_single v acc h hφ hacc (ix1 p)).trans
    (congrArg (fun f => Finset.fold max (Ideal.ofBits .f32 acc) f (Finset.univ : Finset (Fin b)))
      (funext fun k => congrArg v (funext fun c => Fin.ext (by
        match c with
        | ⟨0, _⟩ => rfl
        | ⟨1, _⟩ => rfl))))

/-- The sum of row `p` of an [a, b] array over its `b` columns, from a zero initial value. -/
theorem row_sum {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.f32).bits) = FKind.add.neutral .f32 hφ) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (funext fun c => Fin.ext (by
      match c with
      | ⟨0, _⟩ => rfl
      | ⟨1, _⟩ => rfl)))

end Cert.AxisFold

end
-- ==== Proof.LibColumn.lean ====
/-
  A vector as a column. A length-`a` vector reshaped to `[a, 1]` reads, at `(i, 0)`, the vector at `i`; and an
  `[a, 1]` column broadcast across `b` columns reads, at `(p, c)`, the column at `(p, 0)`. (The companions for
  a row `[1, a]` are the library's.)
-/
import Idealize.ShloMosaic.Lib.ValueLayout
import Idealize.ShloMosaic.Lib.Pipeline.Value

noncomputable section

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.HeadPair.lean ====
/-
  One attention head, and one pair of heads, as the attention body computes them from 128-lane blocks of the projected
  queries (256 rows), keys and values (2048 rows each).  For one head of 64 lanes: scores = q · kᵀ scaled by 1/8, the
  row maximum (a fold of max from -∞), the weights exp(score − maximum), their row sum, the weighted sum of the value
  rows, and ONE division by the row sum afterwards.  A pair is two heads side by side (lanes 0–63 and 64–127).
  Read at an entry, a head is the specification's `headK` of the row's scores and of the value column.
-/
import proofs.«103592_j11201274708414_2_alg».proof.Proof.Gen.KernelIdeal.Skeleton
import proofs.«103592_j11201274708414_2_alg».proof.Proof.LibDotNT
import proofs.«103592_j11201274708414_2_alg».proof.Proof.LibPlainDot
import proofs.«103592_j11201274708414_2_alg».proof.Proof.LibAxisFold
import proofs.«103592_j11201274708414_2_alg».proof.Proof.LibColumn
import proofs.«103592_j11201274708414_2_alg».proof.Proof.Spec
import proofs.«103592_j11201274708414_2_alg».proof.Proof.Consts
import Idealize.ShloMosaic.Lib.ValueLayout
import Idealize.ShloMosaic.Lib.Pipeline.Value

noncomputable section

open scoped BigOperators

namespace Cert.KernelIdeal.Head

open Cert.KernelIdeal Cert.KernelIdeal.Gen Idealize.ShloMosaic Idealize.ShloMosaic.ValueIdx

section Spelling
variable {F : FTy → Type} [FloatOps F]

/-- Scaled scores of 256 query rows against 2048 key rows over one head's 64 lanes. -/
def sc (q : FVec F S256x64 .bf16) (k : FVec F S2048x64 .bf16) : FVec F S256x2048 .f32 :=
  mulf (matmul dot_S256x64_S2048x64_S256x2048_1_1_0_0_n_n none q k (constant S256x2048 .f32 0x00000000#32))
    (broadcast S256x2048 (Scalar.ofBits .f32 0x3E000000#32))

/-- The unnormalised softmax weights: exp of the score less the row's maximum. -/
def pexp (q : FVec F S256x64 .bf16) (k : FVec F S2048x64 .bf16) : FVec F S256x2048 .f32 :=
  exp (subf (sc q k) (broadcastTo S256x2048 (shapeCast S256x1
    (multiReduction .maximumf [1] S256 (sc q k) 0xFF800000#32 reduces_S256x2048_S256 (.inl rfl) rfl) shapeCasts_S256_S256x1)
    broadcasts_S256x1_S256x2048))

/-- The weights' row sums, repeated across the head's 64 lanes. -/
def norm (q : FVec F S256x64 .bf16) (k : FVec F S2048x64 .bf16) : FVec F S256x64 .f32 :=
  broadcastTo S256x64 (shapeCast S256x1
    (multiReduction .add [1] S256 (pexp q k) 0x00000000#32 reduces_S256x2048_S256 (.inl rfl) rfl) shapeCasts_S256_S256x1)
    broadcasts_S256x1_S256x64

/-- The weighted sum of the value rows, before the division. -/
def wsum (q : FVec F S256x64 .bf16) (k v : FVec F S2048x64 .bf16) : FVec F S256x64 .f32 :=
  matmul dot_S256x2048_S2048x64_S256x64_1_0_0_1_n_n none (truncf .bf16 (pexp q k) bitsLt_bf16_f32) v (constant S256x64 .f32 0x00000000#32)

/-- One head's output. -/
def headVal (q : FVec F S256x64 .bf16) (k v : FVec F S2048x64 .bf16) : FVec F S256x64 .f32 :=
  divf (wsum q k v) (norm q k)

/-- Two heads side by side from 128-lane blocks. -/
def pairVal (q : FVec F S256x128 .bf16) (k v : FVec F S2048x128 .bf16) : FVec F S256x128 .f32 :=
  shapeCast S256x128 (concatenate S256x128 1
    [⟨S256x64, headVal (extractStridedSlice S256x64 ![0, 0] q slices_S256x128_o0_0_S256x64)
        (extractStridedSlice S2048x64 ![0, 0] k slices_S2048x128_o0_0_S2048x64)
        (extractStridedSlice S2048x64 ![0, 0] v slices_S2048x128_o0_0_S2048x64)⟩,
     ⟨S256x64, headVal (extractStridedSlice S256x64 ![0, 64] q slices_S256x128_o0_64_S256x64)
        (extractStridedSlice S2048x64 ![0, 64] k slices_S2048x128_o0_64_S2048x64)
        (extractStridedSlice S2048x64 ![0, 64] v slices_S2048x128_o0_64_S2048x64)⟩]
    concatenates_S256x64_S256x64_S256x128_d1) shapeCasts_S256x128_S256x128

end Spelling

/-! ## Read at an entry, on the extended reals -/

theorem isNT_qk : Cert.DotNT.IsNT dot_S256x64_S2048x64_S256x2048_1_1_0_0_n_n := ⟨rfl, rfl, rfl, rfl, rfl, rfl⟩
theorem isPlain_pv : Cert.PlainDot.IsPlain dot_S256x2048_S2048x64_S256x64_1_0_0_1_n_n := ⟨rfl, rfl, rfl, rfl, rfl, rfl⟩

/-- A scaled score: the dot product over the 64 lanes, times 1/8. -/
theorem sc_apply (q : FVec Ideal S256x64 .bf16) (k : FVec Ideal S2048x64 .bf16) (r : Fin 256) (kk : Fin 2048) :
    sc q k (ix2 r kk) = (∑ e : Fin 64, q (ix2 r e) * k (ix2 kk e)) * Cert.Attn.eighth := by
  unfold sc
  rw [mulf_apply, Cert.DotNT.matmul_zero_apply isNT_qk]
  rfl

/-- A weight: exp of the score less the fold of max from the word of -∞ over the row. -/
theorem pexp_apply (q : FVec Ideal S256x64 .bf16) (k : FVec Ideal S2048x64 .bf16) (r : Fin 256) (kk : Fin 2048) :
    pexp q k (ix2 r kk) = Ideal.exp (sc q k (ix2 r kk)
      - (Finset.univ : Finset (Fin 2048)).fold max (Ideal.ofBits .f32 0xFF800000#32) fun k' => sc q k (ix2 r k')) := by
  unfold pexp
  show Ideal.exp _ = _
  rw [subf_apply, Cert.Column.broadcastTo_a1_ab_apply, Cert.Column.shapeCast_a_a1_apply]
  exact congrArg (fun z => Ideal.exp (sc q k (ix2 r kk) - z))
    (Cert.AxisFold.row_max (sc q k) 0xFF800000#32 reduces_S256x2048_S256 (.inl rfl) rfl r)

/-- The normaliser at any lane of row r: the sum of the row's weights. -/
theorem norm_apply (q : FVec Ideal S256x64 .bf16) (k : FVec Ideal S2048x64 .bf16) (r : Fin 256) (d : Fin 64) :
    norm q k (ix2 r d) = ∑ kk : Fin 2048, pexp q k (ix2 r kk) := by
  unfold norm
  rw [Cert.Column.broadcastTo_a1_ab_apply, Cert.Column.shapeCast_a_a1_apply]
  exact Cert.AxisFold.row_sum (pexp q k) reduces_S256x2048_S256 (.inl rfl) rfl r

/-- The weighted sum at (r, d). -/
theorem wsum_apply (q : FVec Ideal S256x64 .bf16) (k v : FVec Ideal S2048x64 .bf16) (r : Fin 256) (d : Fin 64) :
    wsum q k v (ix2 r d) = ∑ kk : Fin 2048, pexp q k (ix2 r kk) * v (ix2 kk d) := by
  unfold wsum
  rw [Cert.PlainDot.matmul_zero_apply isPlain_pv]
  rfl

/-- One head at (r, d): the specification's `headK` of row r's scaled scores and of column d of the values. -/
theorem headVal_apply (q : FVec Ideal S256x64 .bf16) (k v : FVec Ideal S2048x64 .bf16) (r : Fin 256) (d : Fin 64) :
    headVal q k v (ix2 r d)
      = Cert.Attn.headK (fun kk => (∑ e : Fin 64, q (ix2 r e) * k (ix2 kk e)) * Cert.Attn.eighth) (fun kk => v (ix2 kk d)) := by
  unfold headVal
  rw [divf_apply, wsum_apply, norm_apply]
  unfold Cert.Attn.headK Cert.Attn.wgt Cert.Attn.rowMax
  simp only [pexp_apply, sc_apply, Cert.Attn.negInf_eq]

/-- A 64-lane slice of a 128-lane block, at lane offset o, read at an entry. -/
theorem slice_apply {α : Type} {n : Nat} (X : (⟨2, ![n, 128]⟩ : Shape).Idx → α) (o : Nat)
    (h : (⟨2, ![n, 128]⟩ : Shape).Slices ![0, o] ⟨2, ![n, 64]⟩) (ho : o + 64 ≤ 128) (a : Fin n) (e : Fin 64) :
    extractStridedSlice ⟨2, ![n, 64]⟩ ![0, o] X h (ix2 a e) = X (ix2 a ⟨o + e.val, by have := e.isLt; omega⟩) :=
  slice2_axis1_apply o X h a e _ rfl

/-- Two [256, 64] pieces side by side: lanes 0–63 read the first piece. -/
theorem cat_left {α : Type} (x₁ x₂ : S256x64.Idx → α) (r : Fin 256) (l : Fin 128) (d : Fin 64) (hl : d.val = l.val) :
    concatenate S256x128 1 [⟨S256x64, x₁⟩, ⟨S256x64, x₂⟩] concatenates_S256x64_S256x64_S256x128_d1 (ix2 r l) = x₁ (ix2 r d) :=
  concatenate_pair_apply_left (t := S256x128) (s₁ := S256x64) (s₂ := S256x64) (1 : Fin 2) x₁ x₂
    concatenates_S256x64_S256x64_S256x128_d1 (ix2 r l) rfl (ix2 r d)
    (fun b => by match b with | ⟨0, _⟩ => rfl | ⟨1, _⟩ => exact hl)

/-- Two [256, 64] pieces side by side: lanes 64–127 read the second piece, 64 lanes back. -/
theorem cat_right {α : Type} (x₁ x₂ : S256x64.Idx → α) (r : Fin 256) (l : Fin 128) (d : Fin 64) (hl : d.val + 64 = l.val) :
    concatenate S256x128 1 [⟨S256x64, x₁⟩, ⟨S256x64, x₂⟩] concatenates_S256x64_S256x64_S256x128_d1 (ix2 r l) = x₂ (ix2 r d) :=
  concatenate_pair_apply_right (t := S256x128) (s₁ := S256x64) (s₂ := S256x64) (1 : Fin 2) x₁ x₂
    concatenates_S256x64_S256x64_S256x128_d1 (ix2 r l) rfl rfl (ix2 r d)
    (fun b hb => by match b with | ⟨0, _⟩ => rfl | ⟨1, _⟩ => exact absurd rfl hb) hl

/-- Lanes 0–63 of a pair are the first head. -/
theorem pairVal_left (q : FVec Ideal S256x128 .bf16) (k v : FVec Ideal S2048x128 .bf16) (r : Fin 256) (l : Fin 128) (d : Fin 64)
    (hl : d.val = l.val) :
    pairVal q k v (ix2 r l)
      = headVal (extractStridedSlice S256x64 ![0, 0] q slices_S256x128_o0_0_S256x64)
          (extractStridedSlice S2048x64 ![0, 0] k slices_S2048x128_o0_0_S2048x64)
          (extractStridedSlice S2048x64 ![0, 0] v slices_S2048x128_o0_0_S2048x64) (ix2 r d) := by
  unfold pairVal
  rw [shapeCast_self]
  exact cat_left _ _ r l d hl

/-- Lanes 64–127 of a pair are the second head. -/
theorem pairVal_right (q : FVec Ideal S256x128 .bf16) (k v : FVec Ideal S2048x128 .bf16) (r : Fin 256) (l : Fin 128) (d : Fin 64)
    (hl : d.val + 64 = l.val) :
    pairVal q k v (ix2 r l)
      = headVal (extractStridedSlice S256x64 ![0, 64] q slices_S256x128_o0_64_S256x64)
          (extractStridedSlice S2048x64 ![0, 64] k slices_S2048x128_o0_64_S2048x64)
          (extractStridedSlice S2048x64 ![0, 64] v slices_S2048x128_o0_64_S2048x64) (ix2 r d) := by
  unfold pairVal
  rw [shapeCast_self]
  exact cat_right _ _ r l d hl

/-- Lane e of the head that lane l of a 128-lane block belongs to. -/
def lane (l : Fin 128) (e : Fin 64) : Fin 128 := ⟨64 * (l.val / 64) + e.val, by have := l.isLt; have := e.isLt; omega⟩

/-- A pair at (r, l): the specification's `headK` of row r's scores over the 64 lanes of l's head, and of column l of the values. -/
theorem pairVal_apply (q : FVec Ideal S256x128 .bf16) (k v : FVec Ideal S2048x128 .bf16) (r : Fin 256) (l : Fin 128) :
    pairVal q k v (ix2 r l)
      = Cert.Attn.headK (fun kk => (∑ e : Fin 64, q (ix2 r (lane l e)) * k (ix2 kk (lane l e))) * Cert.Attn.eighth)
          (fun kk => v (ix2 kk l)) := by
  have hl := l.isLt
  by_cases h : l.val < 64
  · rw [pairVal_left q k v r l ⟨l.val, h⟩ rfl, headVal_apply]
    simp only [slice_apply (n := 256) q 0 _ (by omega), slice_apply (n := 2048) k 0 _ (by omega), slice_apply (n := 2048) v 0 _ (by omega)]
    have e1 : ∀ e : Fin 64, (⟨0 + e.val, by have := e.isLt; omega⟩ : Fin 128) = lane l e := fun e => Fin.ext (by
      show 0 + e.val = 64 * (l.val / 64) + e.val; omega)
    have e2 : (⟨0 + l.val, by omega⟩ : Fin 128) = l := Fin.ext (by show 0 + l.val = l.val; omega)
    simp only [e1, e2]
  · rw [pairVal_right q k v r l ⟨l.val - 64, by omega⟩ (by show l.val - 64 + 64 = l.val; omega), headVal_apply]
    simp only [slice_apply (n := 256) q 64 _ (by omega), slice_apply (n := 2048) k 64 _ (by omega), slice_apply (n := 2048) v 64 _ (by omega)]
    have e1 : ∀ e : Fin 64, (⟨64 + e.val, by have := e.isLt; omega⟩ : Fin 128) = lane l e := fun e => Fin.ext (by
      show 64 + e.val = 64 * (l.val / 64) + e.val; omega)
    have e2 : (⟨64 + (l.val - 64), by omega⟩ : Fin 128) = l := Fin.ext (by show 64 + (l.val - 64) = l.val; omega)
    simp only [e1, e2]

end Cert.KernelIdeal.Head

end
-- ==== Proof.PieceId.lean ====
/-
  The eight head pairs of the attention body, each identified with the one spelling of a head pair (HeadPair.lean's
  `pairVal`) applied to the pair's three loaded 128-lane blocks with their leading unit axis dropped.  The body's text
  for the eight pairs is the same sequence of operations; only the way it is cut into named intermediate values
  differs from pair to pair, so each identity holds by unfolding the names.
-/
import proofs.«103592_j11201274708414_2_alg».proof.Proof.HeadPair

set_option maxRecDepth 16384

noncomputable section

namespace Cert.KernelIdeal.Head

open Cert.KernelIdeal Cert.KernelIdeal.Gen Idealize.ShloMosaic

variable {F : FTy → Type} [FloatOps F]

/-- A loaded block [1, 256, 128] or [1, 2048, 128] with its unit axis dropped. -/
abbrev dropQ (a : Vec F S1x256x128 .bf16) : FVec F S256x128 .bf16 := shapeCast S256x128 a shapeCasts_S1x256x128_S256x128
abbrev dropK (b : Vec F S1x2048x128 .bf16) : FVec F S2048x128 .bf16 := shapeCast S2048x128 b shapeCasts_S1x2048x128_S2048x128

/-- Head pair 0 (lanes 0–127). -/
theorem pair_id0 (a : Vec F S1x256x128 .bf16) (b c : Vec F S1x2048x128 .bf16) :
    k3_pay9 (k3_pay5 a b c) (k3_pay7 a b c) (k3_pay8 a b) = pairVal (dropQ a) (dropK b) (dropK c) := rfl

/-- Head pair 1 (lanes 128–255). -/
theorem pair_id1 (a : Vec F S1x256x128 .bf16) (b c : Vec F S1x2048x128 .bf16) :
    k3_pay16 (k3_pay13 a b c) (k3_pay14 c) (k3_pay15 a b) = pairVal (dropQ a) (dropK b) (dropK c) := rfl

/-- Head pair 2 (lanes 256–383). -/
theorem pair_id2 (a : Vec F S1x256x128 .bf16) (b c : Vec F S1x2048x128 .bf16) :
    k3_pay23 (k3_pay20 a b c) (k3_pay21 c) (k3_pay22 a b) = pairVal (dropQ a) (dropK b) (dropK c) := rfl

/-- Head pair 3 (lanes 384–511). -/
theorem pair_id3 (a : Vec F S1x256x128 .bf16) (b c : Vec F S1x2048x128 .bf16) :
    k3_pay31 (k3_pay27 a b c) (k3_pay28 a) (k3_pay29 b) (k3_pay30 c) = pairVal (dropQ a) (dropK b) (dropK c) := rfl

/-- Head pair 4 (lanes 512–639). -/
theorem pair_id4 (a : Vec F S1x256x128 .bf16) (b c : Vec F S1x2048x128 .bf16) :
    k3_pay39 (k3_pay32 a) (k3_pay33 b) (k3_pay34 c) (k3_pay35 c) (k3_pay37 a b) (k3_pay38 a b) (constant S256x64 .f32 0x00000000#32) = pairVal (dropQ a) (dropK b) (dropK c) := rfl

/-- Head pair 5 (lanes 640–767). -/
theorem pair_id5 (a : Vec F S1x256x128 .bf16) (b c : Vec F S1x2048x128 .bf16) :
    k3_pay45 (k3_pay40 a) (k3_pay41 b) (k3_pay42 c) (k3_pay43 c) (k3_pay44 a b) = pairVal (dropQ a) (dropK b) (dropK c) := rfl

/-- Head pair 6 (lanes 768–895). -/
theorem pair_id6 (a : Vec F S1x256x128 .bf16) (b c : Vec F S1x2048x128 .bf16) :
    k3_pay52 (k3_pay46 a) (k3_pay47 b) (k3_pay48 c) (k3_pay49 c) (k3_pay50 a b) k3_pay51 = pairVal (dropQ a) (dropK b) (dropK c) := rfl

/-- Head pair 7 (lanes 896–1023). -/
theorem pair_id7 (a : Vec F S1x256x128 .bf16) (b c : Vec F S1x2048x128 .bf16) :
    k3_pay57 (k3_pay53 a) (k3_pay54 b) (k3_pay55 c) (k3_pay56 a) = pairVal (dropQ a) (dropK b) (dropK c) := rfl

end Cert.KernelIdeal.Head

end
-- ==== Proof.LibLoadAt.lean ====
/-
  A load through a unit-stride rectangle, read at explicit coordinates.

  A rectangle of sizes `(a, b, …)` at offsets `off` inside an array picks, at its own position `(p, q, …)`, the
  array's element whose coordinate on each axis is the offset plus the position. The target coordinates are named by
  the caller and tied to the offsets by one equation per axis, so that offsets a program computes can be read through
  their closed form. Ranks one to three, any extents, any element type; no program needed.
-/
import Idealize.ShloMosaic.Lib.Pipeline.Value
import Idealize.ShloMosaic.Lib.ValueIdx

namespace Cert.LoadAt

open Idealize.ShloMosaic Idealize.ShloMosaic.ValueIdx

variable {Val : EltTy → Type} {e : EltTy}

/-- A window of `a` consecutive entries of a vector. -/
theorem ld_unit1 {A a : ℕ} (X : (⟨1, ![A]⟩ : Shape).Idx → Val e) {off : Fin 1 → ℕ}
    (inb : ∀ i, off i + (![a] : Fin 1 → ℕ) i ≤ (⟨1, ![A]⟩ : Shape).size i)
    (p : Fin a) (P : Fin A) (hP : P.val = off 0 + p.val) :
    View.ld X (Rect.unit (s := ⟨1, ![A]⟩) off ![a] inb) (ix1 p) = X (ix1 P) := by
  show X _ = X _
  congr 1
  funext i
  apply Fin.ext
  match i with
  | ⟨0, _⟩ => show off 0 + 1 * p.val = P.val; rw [Nat.one_mul, hP]

/-- An `a × b` box of a matrix. -/
theorem ld_unit2 {A B a b : ℕ} (X : (⟨2, ![A, B]⟩ : Shape).Idx → Val e) {off : Fin 2 → ℕ}
    (inb : ∀ i, off i + (![a, b] : Fin 2 → ℕ) i ≤ (⟨2, ![A, B]⟩ : Shape).size i)
    (p : Fin a) (q : Fin b) (P : Fin A) (Q : Fin B) (hP : P.val = off 0 + p.val) (hQ : Q.val = off 1 + q.val) :
    View.ld X (Rect.unit (s := ⟨2, ![A, B]⟩) off ![a, b] inb) (ix2 p q) = X (ix2 P Q) := by
  show X _ = X _
  congr 1
  funext i
  apply Fin.ext
  match i with
  | ⟨0, _⟩ => show off 0 + 1 * p.val = P.val; rw [Nat.one_mul, hP]
  | ⟨1, _⟩ => show off 1 + 1 * q.val = Q.val; rw [Nat.one_mul, hQ]

/-- An `a × b × c` box of a rank-3 array. -/
theorem ld_unit3 {A B C a b c : ℕ} (X : (⟨3, ![A, B, C]⟩ : Shape).Idx → Val e) {off : Fin 3 → ℕ}
    (inb : ∀ i, off i + (![a, b, c] : Fin 3 → ℕ) i ≤ (⟨3, ![A, B, C]⟩ : Shape).size i)
    (p : Fin a) (q : Fin b) (r : Fin c) (P : Fin A) (Q : Fin B) (R : Fin C)
    (hP : P.val = off 0 + p.val) (hQ : Q.val = off 1 + q.val) (hR : R.val = off 2 + r.val) :
    View.ld X (Rect.unit (s := ⟨3, ![A, B, C]⟩) off ![a, b, c] inb) (ix3 p q r) = X (ix3 P Q R) := by
  show X _ = X _
  congr 1
  funext i
  apply Fin.ext
  match i with
  | ⟨0, _⟩ => show off 0 + 1 * p.val = P.val; rw [Nat.one_mul, hP]
  | ⟨1, _⟩ => show off 1 + 1 * q.val = Q.val; rw [Nat.one_mul, hQ]
  | ⟨2, _⟩ => show off 2 + 1 * r.val = R.val; rw [Nat.one_mul, hR]

end Cert.LoadAt
-- ==== Proof.LibDropUnit.lean ====
/-
  A leading axis of extent one cast away, read at an index.

  A block of shape [1, A, B] reshaped to [A, B] keeps its elements in row-major order, so entry `(p, q)` of
  the reshaped block is entry `(0, p, q)` of the block. Any extents, any element type, no program needed.
-/
import Idealize.ShloMosaic.Lib.Pipeline.Value
import Idealize.ShloMosaic.Lib.ValueIdx

namespace Cert.DropUnit

open Idealize.ShloMosaic Idealize.ShloMosaic.ValueIdx

/-- An array of shape [1, A, B] with the unit axis cast away reads, at `(p, q)`, the array at `(0, p, q)`. -/
theorem dropUnit_apply {α : Type} {A B : Nat} (x : (⟨3, ![1, A, B]⟩ : Shape).Idx → α)
    (h : (⟨3, ![1, A, B]⟩ : Shape).ShapeCasts ⟨2, ![A, B]⟩) (p : Fin A) (q : Fin B) :
    shapeCast ⟨2, ![A, B]⟩ x h (ix2 p q) = x (ix3 0 p q) := by
  refine shapeCast_apply x h (ix2 p q) (ix3 0 p q) ?_
  rw [Shape.rowMajor_val_three, Shape.rowMajor_val_two]
  show ((0 : Fin 1).val * A + p.val) * B + q.val = p.val * B + q.val
  simp

end Cert.DropUnit
-- ==== Proof.LibAddUnit.lean ====
/-
  A leading axis of extent one added, read at an index.

  An array of shape [A, B] reshaped to [1, A, B] keeps its elements in row-major order, so entry `(0, p, q)` of the
  reshaped block is entry `(p, q)` of the array. Any extents, any element type, no program needed.
-/
import Idealize.ShloMosaic.Lib.Pipeline.Value
import Idealize.ShloMosaic.Lib.ValueIdx

namespace Cert.AddUnit

open Idealize.ShloMosaic Idealize.ShloMosaic.ValueIdx

/-- An array of shape [A, B] given a leading unit axis reads, at `(u, p, q)`, the array at `(p, q)`. -/
theorem addUnit_apply {α : Type} {A B : Nat} (x : (⟨2, ![A, B]⟩ : Shape).Idx → α)
    (h : (⟨2, ![A, B]⟩ : Shape).ShapeCasts ⟨3, ![1, A, B]⟩) (u : Fin 1) (p : Fin A) (q : Fin B) :
    shapeCast ⟨3, ![1, A, B]⟩ x h (ix3 u p q) = x (ix2 p q) := by
  refine shapeCast_apply x h (ix3 u p q) (ix2 p q) ?_
  rw [Shape.rowMajor_val_three, Shape.rowMajor_val_two]
  show p.val * B + q.val = (u.val * A + p.val) * B + q.val
  have hu : u.val = 0 := by omega
  rw [hu]
  simp

end Cert.AddUnit
-- ==== Proof.Piece3.lean ====
/-
  What the attention body leaves in its output block, read at one entry.  The body writes the eight head pairs'
  results into a 256×1024 scratch (lanes 128·p … 128·p + 127 for pair p), reads the scratch back whole, multiplies by
  the output weights' transpose and adds the output bias.  So entry (0, r, e) of the output block is
      Σ_d ctx[r, d] · Wo[e, d] + bo[e],
  where ctx[r, d] is head d / 64's output at row r and feature d: the specification's `headK` of row r's scaled scores
  (dot products over the head's 64 lanes, times 1/8) and of column d of the values.
-/
import proofs.«103592_j11201274708414_2_alg».proof.Proof.Gen.KernelIdeal.Frame
import proofs.«103592_j11201274708414_2_alg».proof.Proof.PieceId
import proofs.«103592_j11201274708414_2_alg».proof.Proof.Region3
import proofs.«103592_j11201274708414_2_alg».proof.Proof.LibLoadAt
import proofs.«103592_j11201274708414_2_alg».proof.Proof.LibDropUnit
import proofs.«103592_j11201274708414_2_alg».proof.Proof.LibAddUnit
import Idealize.ShloMosaic.Lib.ValueLayout
import Idealize.ShloMosaic.Lib.Pipeline.Value

set_option maxRecDepth 16384

noncomputable section

open scoped BigOperators

namespace Cert.KernelIdeal.Piece3

open Cert.KernelIdeal Cert.KernelIdeal.Gen Cert.KernelIdeal.Head
open Idealize.ShloMosaic Idealize.ShloMosaic.TcCoe Idealize.ShloMosaic.Tactic Idealize.ShloMosaic.ValueIdx
open Idealize.SL.Sem

theorem zero3 : (![0, 0, 0] : Fin 3 → Nat) = fun _ => 0 := funext fun a => by fin_cases a <;> rfl
theorem zero2 : (![0, 0] : Fin 2 → Nat) = fun _ => 0 := funext fun a => by fin_cases a <;> rfl

/-- The context block [256, 1024] as one function of the point's query, key and value blocks. -/
def ctxG (x0 : Vec Ideal S1x256x1024 .bf16) (x1 x2 : Vec Ideal S1x2048x1024 .bf16) : Vec Ideal S256x1024 .f32 :=
  fun y => Cert.Attn.headK
    (fun k : Fin 2048 => (∑ dd : Fin 64, x0 (ix3 (0 : Fin 1) (y 0) (Cert.Attn.col (Cert.Attn.hd (y 1)) dd))
        * x1 (ix3 (0 : Fin 1) k (Cert.Attn.col (Cert.Attn.hd (y 1)) dd))) * Cert.Attn.eighth)
    (fun k : Fin 2048 => x2 (ix3 (0 : Fin 1) k (y 1)))

theorem ctxG_apply (x0 : Vec Ideal S1x256x1024 .bf16) (x1 x2 : Vec Ideal S1x2048x1024 .bf16) (r : Fin 256) (d : Fin 1024) :
    ctxG x0 x1 x2 (ix2 r d) = Cert.Attn.headK
      (fun k : Fin 2048 => (∑ dd : Fin 64, x0 (ix3 (0 : Fin 1) r (Cert.Attn.col (Cert.Attn.hd d) dd))
          * x1 (ix3 (0 : Fin 1) k (Cert.Attn.col (Cert.Attn.hd d) dd))) * Cert.Attn.eighth)
      (fun k : Fin 2048 => x2 (ix3 (0 : Fin 1) k d)) := rfl

/-- A 128-lane block of the queries loaded at lane offset o, its unit axis dropped, read at (r, l). -/
theorem dropQ_ld (x0 : Vec Ideal S1x256x1024 .bf16) (o : Nat)
    (inb : ∀ a, (![0, 0, o] : Fin 3 → Nat) a + S1x256x128.size a ≤ S1x256x1024.size a) (r : Fin 256) (l : Fin 128) (L : Fin 1024)
    (hL : L.val = o + l.val) :
    dropQ (View.ld x0 (Rect.unit (s := S1x256x1024) ![0, 0, o] S1x256x128.size inb)) (ix2 r l) = x0 (ix3 (0 : Fin 1) r L) := by
  unfold dropQ
  rw [Cert.DropUnit.dropUnit_apply]
  exact Cert.LoadAt.ld_unit3 x0 inb (0 : Fin 1) r l (0 : Fin 1) r L rfl (by show r.val = 0 + r.val; omega) hL

/-- The same for the keys and the values (2048 rows). -/
theorem dropK_ld (x1 : Vec Ideal S1x2048x1024 .bf16) (o : Nat)
    (inb : ∀ a, (![0, 0, o] : Fin 3 → Nat) a + S1x2048x128.size a ≤ S1x2048x1024.size a) (k : Fin 2048) (l : Fin 128) (L : Fin 1024)
    (hL : L.val = o + l.val) :
    dropK (View.ld x1 (Rect.unit (s := S1x2048x1024) ![0, 0, o] S1x2048x128.size inb)) (ix2 k l) = x1 (ix3 (0 : Fin 1) k L) := by
  unfold dropK
  rw [Cert.DropUnit.dropUnit_apply]
  exact Cert.LoadAt.ld_unit3 x1 inb (0 : Fin 1) k l (0 : Fin 1) k L rfl (by show k.val = 0 + k.val; omega) hL

/-- Head pair at lane offset o (a multiple of 128): its value at a block entry is the context function at the entry's
    place in the scratch. -/
theorem piece_ok (x0 : Vec Ideal S1x256x1024 .bf16) (x1 x2 : Vec Ideal S1x2048x1024 .bf16) (o : Nat) (ho : o + 128 ≤ 1024) (h128 : o % 128 = 0)
    (inbS : ∀ a, (![0, o] : Fin 2 → Nat) a + S256x128.size a ≤ S256x1024.size a)
    (inbQ : ∀ a, (![0, 0, o] : Fin 3 → Nat) a + S1x256x128.size a ≤ S1x256x1024.size a)
    (inbK : ∀ a, (![0, 0, o] : Fin 3 → Nat) a + S1x2048x128.size a ≤ S1x2048x1024.size a)
    (x : S256x128.Idx) :
    pairVal (dropQ (View.ld x0 (Rect.unit (s := S1x256x1024) ![0, 0, o] S1x256x128.size inbQ)))
        (dropK (View.ld x1 (Rect.unit (s := S1x2048x1024) ![0, 0, o] S1x2048x128.size inbK)))
        (dropK (View.ld x2 (Rect.unit (s := S1x2048x1024) ![0, 0, o] S1x2048x128.size inbK))) x
      = ctxG x0 x1 x2 ((Rect.unit (s := S256x1024) ![0, o] S256x128.size inbS).emb x) := by
  obtain ⟨r, l, rfl⟩ : ∃ (r : Fin 256) (l : Fin 128), x = ix2 r l := ⟨x 0, x 1, eq_ix2 x⟩
  have hl := l.isLt
  have hemb : (Rect.unit (s := S256x1024) ![0, o] S256x128.size inbS).emb (ix2 r l) = ix2 r (⟨o + l.val, by omega⟩ : Fin 1024) := by
    funext a; apply Fin.ext
    match a with
    | ⟨0, _⟩ => show 0 + 1 * r.val = r.val; omega
    | ⟨1, _⟩ => show o + 1 * l.val = o + l.val; omega
  rw [hemb, ctxG_apply, pairVal_apply]
  have hq : ∀ (e : Fin 64), dropQ (View.ld x0 (Rect.unit (s := S1x256x1024) ![0, 0, o] S1x256x128.size inbQ)) (ix2 r (lane l e))
      = x0 (ix3 (0 : Fin 1) r (Cert.Attn.col (Cert.Attn.hd (⟨o + l.val, by omega⟩ : Fin 1024)) e)) := fun e =>
    dropQ_ld x0 o inbQ r (lane l e) _ (by
      have := e.isLt
      show (o + l.val) / 64 * 64 + e.val = o + (64 * (l.val / 64) + e.val); omega)
  have hk : ∀ (k : Fin 2048) (e : Fin 64), dropK (View.ld x1 (Rect.unit (s := S1x2048x1024) ![0, 0, o] S1x2048x128.size inbK)) (ix2 k (lane l e))
      = x1 (ix3 (0 : Fin 1) k (Cert.Attn.col (Cert.Attn.hd (⟨o + l.val, by omega⟩ : Fin 1024)) e)) := fun k e =>
    dropK_ld x1 o inbK k (lane l e) _ (by
      have := e.isLt
      show (o + l.val) / 64 * 64 + e.val = o + (64 * (l.val / 64) + e.val); omega)
  have hv : ∀ (k : Fin 2048), dropK (View.ld x2 (Rect.unit (s := S1x2048x1024) ![0, 0, o] S1x2048x128.size inbK)) (ix2 k l)
      = x2 (ix3 (0 : Fin 1) k (⟨o + l.val, by omega⟩ : Fin 1024)) := fun k => dropK_ld x2 o inbK k l _ rfl
  simp only [hq, hk, hv]

/-- The output projection's dimension numbers contract the second axis of both operands. -/
theorem isNT_o : Cert.DotNT.IsNT dot_S256x1024_S1024x1024_S256x1024_1_1_0_0_n_n := ⟨rfl, rfl, rfl, rfl, rfl, rfl⟩

/-- The last store's value at (0, r, e), for any context block C:  C · Woᵀ + bo. -/
theorem outPay_apply (C : Vec Ideal S256x1024 .f32) (x3 : Vec Ideal S1024x1024 .bf16) (x4 : Vec Ideal S1x1024 .f32) (r : Fin 256) (e : Fin 1024) :
    k3_pay1 (F := Ideal) (k3_pay58 C x3) x4 (ix3 (0 : Fin 1) r e) = (∑ d : Fin 1024, C (ix2 r d) * x3 (ix2 e d)) + x4 (ix2 (0 : Fin 1) e) := by
  unfold k3_pay1 k3_pay58
  simp only [shapeCast_self]
  rw [Cert.AddUnit.addUnit_apply, addf_apply, Cert.DotNT.matmul_zero_apply isNT_o, broadcastTo_1b_ab_apply]
  rfl

/-- Eight 256×128 stores at lane offsets 896, 768, …, 0 tile the 256×1024 scratch, whatever they store. -/
theorem scratch_cover (w7 w6 w5 w4 w3 w2 w1 w0 : Vec Ideal S256x128 .f32) (y : S256x1024.Idx) :
    ∃ p ∈ ([⟨Rect.unit ![0, 896] ![256, 128] inb_S256x1024_S256x128_0_896, w7⟩,
        ⟨Rect.unit ![0, 768] ![256, 128] inb_S256x1024_S256x128_0_768, w6⟩,
        ⟨Rect.unit ![0, 640] ![256, 128] inb_S256x1024_S256x128_0_640, w5⟩,
        ⟨Rect.unit ![0, 512] ![256, 128] inb_S256x1024_S256x128_0_512, w4⟩,
        ⟨Rect.unit ![0, 384] ![256, 128] inb_S256x1024_S256x128_0_384, w3⟩,
        ⟨Rect.unit ![0, 256] ![256, 128] inb_S256x1024_S256x128_0_256, w2⟩,
        ⟨Rect.unit ![0, 128] ![256, 128] inb_S256x1024_S256x128_0_128, w1⟩,
        ⟨Rect.unit ![0, 0] ![256, 128] inb_S256x1024_S256x128_0_0, w0⟩] : List (View.Piece (Elt Ideal) S256x1024 .f32)),
      y ∈ p.1.set :=
  View.cover_of_tiled (s := S256x1024) _ ![256, 128] (by rfl) y

/-- What the run leaves in the output's staging buffer is the last store's value over the context function: the eight
    scratch stores tile the scratch, each holding its head pair, and the scratch is read back whole. -/
theorem out3_eq (c : Dev nD) (i : grid3.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x256x1024 .f32) (harg7 : arg7.IsWhole) (arg8 : Memref sig .tc .vmem S256x1024 .f32) (harg8 : arg8.IsWhole)
    (x0 : Vec Ideal S1x256x1024 .bf16) (x1 x2 : Vec Ideal S1x2048x1024 .bf16) (x3 : Vec Ideal S1024x1024 .bf16) (x4 : Vec Ideal S1x1024 .f32) :
    out3_A_5 (F := Ideal) c i arg2 harg2 arg3 harg3 arg4 harg4 arg5 harg5 arg6 harg6 arg7 harg7 arg8 harg8 x0 x1 x2 x3 x4 = k3_pay1 (k3_pay58 (ctxG x0 x1 x2) x3) x4 := by
  unfold out3_A_5
  rw [View.read_writes_eq_canon _ _ _ (cover3_A_5 c i arg2 harg2 arg3 harg3 arg4 harg4 arg5 harg5 arg6 harg6 arg7 harg7 arg8 harg8 x0 x1 x2 x3 x4)]
  unfold kernelRun3_A
  dsimp only
  sl_unfold_words
  rw [View.canon_unit_zero zero3]
  simp only [View.readAt_eq_ld, harg2.read_unread, harg3.read_unread, harg4.read_unread, harg5.read_unread, harg6.read_unread,
    View.ld_unit_zero (S := S1024x1024) zero2, View.ld_unit_zero (S := S1x1024) zero2,
    pair_id0, pair_id1, pair_id2, pair_id3, pair_id4, pair_id5, pair_id6, pair_id7]
  refine congrArg (fun C => k3_pay1 (k3_pay58 C x3) x4) ?_
  rw [View.readCov_eq_canon']
  funext j
  obtain ⟨r, d, rfl⟩ : ∃ (r : Fin 256) (d : Fin 1024), j = ix2 r d := ⟨j 0, j 1, eq_ix2 j⟩
  have hidx : (Rect.unit (s := S256x1024) ![0, 0] ![256, 1024] inb_S256x1024_S256x1024_0_0).idx (ix2 r d) = ix2 r d := by
    funext a; apply Fin.ext
    match a with
    | ⟨0, _⟩ => show 0 + 1 * r.val = r.val; omega
    | ⟨1, _⟩ => show 0 + 1 * d.val = d.val; omega
  rw [hidx]
  refine View.canon_apply_of_pieces (Val := Elt Ideal) (ctxG x0 x1 x2) _ ?hL (ix2 r d) ?hy
  case hy => exact scratch_cover _ _ _ _ _ _ _ _ _
  intro p hp
  simp only [List.mem_cons, List.not_mem_nil, or_false] at hp
  rcases hp with rfl | rfl | rfl | rfl | rfl | rfl | rfl | rfl <;> intro x
  · exact piece_ok x0 x1 x2 896 (by omega) (by omega) inb_S256x1024_S256x128_0_896 inb_S1x256x1024_S1x256x128_0_0_896 inb_S1x2048x1024_S1x2048x128_0_0_896 x
  · exact piece_ok x0 x1 x2 768 (by omega) (by omega) inb_S256x1024_S256x128_0_768 inb_S1x256x1024_S1x256x128_0_0_768 inb_S1x2048x1024_S1x2048x128_0_0_768 x
  · exact piece_ok x0 x1 x2 640 (by omega) (by omega) inb_S256x1024_S256x128_0_640 inb_S1x256x1024_S1x256x128_0_0_640 inb_S1x2048x1024_S1x2048x128_0_0_640 x
  · exact piece_ok x0 x1 x2 512 (by omega) (by omega) inb_S256x1024_S256x128_0_512 inb_S1x256x1024_S1x256x128_0_0_512 inb_S1x2048x1024_S1x2048x128_0_0_512 x
  · exact piece_ok x0 x1 x2 384 (by omega) (by omega) inb_S256x1024_S256x128_0_384 inb_S1x256x1024_S1x256x128_0_0_384 inb_S1x2048x1024_S1x2048x128_0_0_384 x
  · exact piece_ok x0 x1 x2 256 (by omega) (by omega) inb_S256x1024_S256x128_0_256 inb_S1x256x1024_S1x256x128_0_0_256 inb_S1x2048x1024_S1x2048x128_0_0_256 x
  · exact piece_ok x0 x1 x2 128 (by omega) (by omega) inb_S256x1024_S256x128_0_128 inb_S1x256x1024_S1x256x128_0_0_128 inb_S1x2048x1024_S1x2048x128_0_0_128 x
  · exact piece_ok x0 x1 x2 0 (by omega) (by omega) inb_S256x1024_S256x128_0_0 inb_S1x256x1024_S1x256x128_0_0_0 inb_S1x2048x1024_S1x2048x128_0_0_0 x

/-- Entry (0, r, e) of the output block after the body: the context row r against row e of the output weights, plus
    the output bias. -/
theorem out3_apply (c : Dev nD) (i : grid3.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x256x1024 .f32) (harg7 : arg7.IsWhole) (arg8 : Memref sig .tc .vmem S256x1024 .f32) (harg8 : arg8.IsWhole)
    (x0 : Vec Ideal S1x256x1024 .bf16) (x1 x2 : Vec Ideal S1x2048x1024 .bf16) (x3 : Vec Ideal S1024x1024 .bf16) (x4 : Vec Ideal S1x1024 .f32) (r : Fin 256) (e : Fin 1024) :
    out3_A_5 (F := Ideal) c i arg2 harg2 arg3 harg3 arg4 harg4 arg5 harg5 arg6 harg6 arg7 harg7 arg8 harg8 x0 x1 x2 x3 x4 (ix3 (0 : Fin 1) r e)
      = (∑ d : Fin 1024, Cert.Attn.headK
            (fun k : Fin 2048 => (∑ dd : Fin 64, x0 (ix3 (0 : Fin 1) r (Cert.Attn.col (Cert.Attn.hd d) dd))
                * x1 (ix3 (0 : Fin 1) k (Cert.Attn.col (Cert.Attn.hd d) dd))) * Cert.Attn.eighth)
            (fun k : Fin 2048 => x2 (ix3 (0 : Fin 1) k d)) * x3 (ix2 e d)) + x4 (ix2 (0 : Fin 1) e) := by
  rw [out3_eq]
  refine (outPay_apply (ctxG x0 x1 x2) x3 x4 r e).trans ?_
  simp only [ctxG_apply]

/-- The per-point value of the attention body, in the form the region's blocks-to-array step takes it. -/
theorem payload : Cert.KernelIdeal.AttnRegion.PayloadSpec :=
  fun c i arg2 harg2 arg3 harg3 arg4 harg4 arg5 harg5 arg6 harg6 arg7 harg7 arg8 harg8 x0 x1 x2 x3 x4 r e =>
    out3_apply c i arg2 harg2 arg3 harg3 arg4 harg4 arg5 harg5 arg6 harg6 arg7 harg7 arg8 harg8 x0 x1 x2 x3 x4 r e

end Cert.KernelIdeal.Piece3

end
-- ==== Proof.lean ====
/-
  The certificate of a multi-head attention layer (three input projections, sixteen heads of scaled dot-product
  attention over 2048 positions, one output projection) computed two ways: by a kernel of four pipelined regions,
  and by the reference program.

  Claimed, five statements: each of the three programs — the kernel as printed, the kernel read on the extended
  reals, the reference read on the extended reals — runs to the end without a fault from any memory whose eleven
  argument arrays hold finite numbers, and leaves the argument arrays as launched; the kernel read on the extended
  reals is the kernel's own text (no operation was rewritten); and, on the extended reals, from memories that agree
  on the argument arrays, the kernel and the reference end with equal result arrays.

  The law that joins the two programs. The kernel scales the scores by the factor 1/8, keeps the softmax weights
  exp(score − row maximum) unnormalised, sums them against the values and divides once by the normaliser; the
  reference divides the scores by √64, divides every weight by the normaliser and then sums. 1/8 = 1/√64, and a
  common divisor moves across a finite sum of real numbers. The inputs being finite, every intermediate — the
  projections, the scores, the row maxima, the weights, the normaliser (a sum of exponentials, so positive) — is a
  real number, and on real numbers the two spellings are one function. The output projection is the same in both.
-/
import proofs.«103592_j11201274708414_2_alg».proof.Defs
import proofs.«103592_j11201274708414_2_alg».proof.Proof.Gen.Kernel
import proofs.«103592_j11201274708414_2_alg».proof.Proof.Gen.Kernel.Skeleton
import proofs.«103592_j11201274708414_2_alg».proof.Proof.Gen.Kernel.Launch
import proofs.«103592_j11201274708414_2_alg».proof.Proof.Gen.Kernel.Points
import proofs.«103592_j11201274708414_2_alg».proof.Proof.Gen.Kernel.Frame
import proofs.«103592_j11201274708414_2_alg».proof.Proof.Gen.KernelIdeal
import proofs.«103592_j11201274708414_2_alg».proof.Proof.Gen.KernelIdeal.Skeleton
import proofs.«103592_j11201274708414_2_alg».proof.Proof.Gen.KernelIdeal.Launch
import proofs.«103592_j11201274708414_2_alg».proof.Proof.Gen.KernelIdeal.Points
import proofs.«103592_j11201274708414_2_alg».proof.Proof.Gen.KernelIdeal.Frame
import proofs.«103592_j11201274708414_2_alg».proof.Proof.Gen.ReferenceIdeal
import proofs.«103592_j11201274708414_2_alg».proof.Proof.Gen.Pre_finite_inputs
import proofs.«103592_j11201274708414_2_alg».proof.Proof.Gen.ReferenceIdeal.Read
import proofs.«103592_j11201274708414_2_alg».proof.Proof.KernelValue
import proofs.«103592_j11201274708414_2_alg».proof.Proof.RefValue
import proofs.«103592_j11201274708414_2_alg».proof.Proof.Algebra
import proofs.«103592_j11201274708414_2_alg».proof.Proof.PreReal
import proofs.«103592_j11201274708414_2_alg».proof.Proof.Piece3
import Idealize.ShloMosaic.Adequacy
import Idealize.ShloMosaic.Init

noncomputable section

namespace Cert.Proof

open Idealize.ShloMosaic Idealize.ShloMosaic.ValueIdx Idealize.SL.Sem Cert.Kernel

/-- The kernel as printed runs to the end and leaves its arguments as launched. -/
theorem frame_kernel : Cert.frame_Kernel := fun m ρ _ => Cert.Kernel.Gen.frame m ρ

/-- The kernel on the extended reals runs to the end and leaves its arguments as launched. -/
theorem frame_kernelIdeal : Cert.frame_KernelIdeal := fun m ρ _ => Cert.KernelIdeal.Gen.frame m ρ

/-- The reference on the extended reals runs to the end and leaves its arguments as launched: its run with the result
    named, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- On the extended reals the kernel's result array is the layer in the kernel's spelling and the reference's is the
    layer in the reference's spelling, of argument arrays that agree; the arrays hold real numbers (the precondition),
    and on real numbers the two spellings are one function. -/
theorem algebraic : Cert.algebraic_KernelIdeal_ReferenceIdeal := by
  intro m ρ m' ρ' hpre hagree
  refine ⟨fun c => Cert.Attn.resultK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Named.run_value m ρ Cert.KernelIdeal.Piece3.payload, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9, g10⟩ := hagree c
  obtain ⟨r0, r1, r2, r3, r4, r5, r6, r7, r8, -, -⟩ := Cert.Attn.PreReal.all_real _ _ _ _ _ _ _ _ _ _ _ (hpre c)
  rw [Cert.ReferenceIdeal.RefValue.res_eq m' c, g0, g1, g2, g3, g4, g5, g6, g7, g8, g9, g10]
  exact congrArg Cert.Attn.arrOf (Cert.Attn.attnK_eq_attnR _ _ _ _ _ _ _ _ _ _ _
    (fun n s d => r0 (ix3 n s d)) (fun n s d => r1 (ix3 n s d)) (fun n s d => r2 (ix3 n s d))
    (fun e d => r3 (ix2 e d)) (fun e => r4 (ix1 e)) (fun e d => r5 (ix2 e d)) (fun e => r6 (ix1 e))
    (fun e d => r7 (ix2 e d)) (fun e => r8 (ix1 e))).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
